-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩

class Facts : Prop where
  bcast_S_S32x512x3 : S_.BroadcastsInDim S32x512x3 (![] : Fin 0 → Fin S32x512x3.rank)
  reducesTo_S32x512x3_S_d0_1_2 : S32x512x3.ReducesTo [0, 1, 2] S_
  h_S_ : 0 < S_.numel
  bcast_S_S32x1024x4 : S_.BroadcastsInDim S32x1024x4 (![] : Fin 0 → Fin S32x1024x4.rank)
  reducesTo_S32x1024x4_S_d0_1_2 : S32x1024x4.ReducesTo [0, 1, 2] S_

variable [Facts]

def fn_part1 {F : FTy → Type} [FloatOps F] (main_v13 : IVec S_ 1) (main_v16 : IVec S32x1024x4 1) : IVec S_ 1 :=
  let main_c_5 : IVec S_ 1 := constantI S_ 1 1#1
  let main_v17 : IVec S_ 1 := (fun x v => Host.reduce IntOp.andi x v reducesTo_S32x1024x4_S_d0_1_2 h_S_) main_v16 main_c_5
  let main_v18 : IVec S_ 1 := andi main_v13 main_v17
  main_v18

def fn {F : FTy → Type} [FloatOps F] (main_arg0 : FVec F S32x512x3 .f32) (main_arg1 : IVec S32x512 1) (main_arg2 : FVec F S32x512x3 .f32) (main_arg3 : IVec S32x512 1) (main_arg4 : FVec F S32x1024x4 .f32) (main_arg5 : FVec F S32x1024x4 .f32) : IVec S_ 1 :=
  let main_v0 : FVec F S32x512x3 .f32 := Host.absf main_arg0
  let main_cst : FVec F S_ .f32 := constant S_ .f32 0x7F800000#32
  let main_v1 : FVec F S32x512x3 .f32 := broadcastInDim S32x512x3 ![] bcast_S_S32x512x3 main_cst
  let main_v2 : IVec S32x512x3 1 := cmpf .olt main_v0 main_v1
  let main_c : IVec S_ 1 := constantI S_ 1 1#1
  let main_v3 : IVec S_ 1 := (fun x v => Host.reduce IntOp.andi x v reducesTo_S32x512x3_S_d0_1_2 h_S_) main_v2 main_c
  let main_v4 : FVec F S32x512x3 .f32 := Host.absf main_arg2
  let main_cst_0 : FVec F S_ .f32 := constant S_ .f32 0x7F800000#32
  let main_v5 : FVec F S32x512x3 .f32 := broadcastInDim S32x512x3 ![] bcast_S_S32x512x3 main_cst_0
  let main_v6 : IVec S32x512x3 1 := cmpf .olt main_v4 main_v5
  let main_c_1 : IVec S_ 1 := constantI S_ 1 1#1
  let main_v7 : IVec S_ 1 := (fun x v => Host.reduce IntOp.andi x v reducesTo_S32x512x3_S_d0_1_2 h_S_) main_v6 main_c_1
  let main_v8 : IVec S_ 1 := andi main_v3 main_v7
  let main_v9 : FVec F S32x1024x4 .f32 := Host.absf main_arg4
  let main_cst_2 : FVec F S_ .f32 := constant S_ .f32 0x7F800000#32
  let main_v10 : FVec F S32x1024x4 .f32 := broadcastInDim S32x1024x4 ![] bcast_S_S32x1024x4 main_cst_2
  let main_v11 : IVec S32x1024x4 1 := cmpf .olt main_v9 main_v10
  let main_c_3 : IVec S_ 1 := constantI S_ 1 1#1
  let main_v12 : IVec S_ 1 := (fun x v => Host.reduce IntOp.andi x v reducesTo_S32x1024x4_S_d0_1_2 h_S_) main_v11 main_c_3
  let main_v13 : IVec S_ 1 := andi main_v8 main_v12
  let main_v14 : FVec F S32x1024x4 .f32 := Host.absf main_arg5
  let main_cst_4 : FVec F S_ .f32 := constant S_ .f32 0x7F800000#32
  let main_v15 : FVec F S32x1024x4 .f32 := broadcastInDim S32x1024x4 ![] bcast_S_S32x1024x4 main_cst_4
  let main_v16 : IVec S32x1024x4 1 := cmpf .olt main_v14 main_v15
  fn_part1 (F := F) main_v13 main_v16
-- ==== Kernel.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩
abbrev S32x3 : Shape := ⟨2, ![32, 3]⟩
abbrev S32x511x3 : Shape := ⟨3, ![32, 511, 3]⟩
abbrev S32x511 : Shape := ⟨2, ![32, 511]⟩
abbrev S32x512x1 : Shape := ⟨3, ![32, 512, 1]⟩
abbrev S32x3x511 : Shape := ⟨3, ![32, 3, 511]⟩
abbrev S32x1x511 : Shape := ⟨3, ![32, 1, 511]⟩
abbrev S32x3x512 : Shape := ⟨3, ![32, 3, 512]⟩
abbrev S32x1x512 : Shape := ⟨3, ![32, 1, 512]⟩
abbrev S32x3x1 : Shape := ⟨3, ![32, 3, 1]⟩
abbrev S32x32x128 : Shape := ⟨3, ![32, 32, 128]⟩
abbrev S2x8x128 : Shape := ⟨3, ![2, 8, 128]⟩
abbrev S1x512x3 : Shape := ⟨3, ![1, 512, 3]⟩
abbrev S1x512x1 : Shape := ⟨3, ![1, 512, 1]⟩
abbrev S1x3x511 : Shape := ⟨3, ![1, 3, 511]⟩
abbrev S1x1x511 : Shape := ⟨3, ![1, 1, 511]⟩
abbrev S1x3x512 : Shape := ⟨3, ![1, 3, 512]⟩
abbrev S1x1x512 : Shape := ⟨3, ![1, 1, 512]⟩
abbrev S1x3x1 : Shape := ⟨3, ![1, 3, 1]⟩
abbrev S1x32x128 : Shape := ⟨3, ![1, 32, 128]⟩
abbrev S1x8x128 : Shape := ⟨3, ![1, 8, 128]⟩
abbrev S8x128 : Shape := ⟨2, ![8, 128]⟩
abbrev S512x3 : Shape := ⟨2, ![512, 3]⟩
abbrev S512x1 : Shape := ⟨2, ![512, 1]⟩
abbrev S3x511 : Shape := ⟨2, ![3, 511]⟩
abbrev S1x511 : Shape := ⟨2, ![1, 511]⟩
abbrev S3x1 : Shape := ⟨2, ![3, 1]⟩
abbrev S512x511 : Shape := ⟨2, ![512, 511]⟩
abbrev S1x1 : Shape := ⟨2, ![1, 1]⟩
abbrev S512 : Shape := ⟨1, ![512]⟩
abbrev S3x512 : Shape := ⟨2, ![3, 512]⟩
abbrev S1x512 : Shape := ⟨2, ![1, 512]⟩
abbrev S512x512 : Shape := ⟨2, ![512, 512]⟩
abbrev S1 : Shape := ⟨1, ![1]⟩
abbrev S511x1 : Shape := ⟨2, ![511, 1]⟩
abbrev S32x128 : Shape := ⟨2, ![32, 128]⟩
abbrev S32 : Shape := ⟨1, ![32]⟩
abbrev S32x1 : Shape := ⟨2, ![32, 1]⟩

abbrev nBuf : Space → Nat
  | .hbm => 84
  | .vmem => 29
  | .smem => 0
  | _ => 0

abbrev bufTy : (tb : Table) → Fin (tcTables nBuf tb) → BufTy
  | .hbm, ⟨0, _⟩ => ⟨S32x512x3, .f32⟩
  | .hbm, ⟨1, _⟩ => ⟨S32x512, .i1⟩
  | .hbm, ⟨2, _⟩ => ⟨S32x512x3, .f32⟩
  | .hbm, ⟨3, _⟩ => ⟨S32x512, .i1⟩
  | .hbm, ⟨4, _⟩ => ⟨S32x1024x4, .f32⟩
  | .hbm, ⟨5, _⟩ => ⟨S32x1024x4, .f32⟩
  | .hbm, ⟨6, _⟩ => ⟨S_, .f32⟩
  | .hbm, ⟨7, _⟩ => ⟨S32x3, .f32⟩
  | .hbm, ⟨8, _⟩ => ⟨S_, .f32⟩
  | .hbm, ⟨9, _⟩ => ⟨S32x3, .f32⟩
  | .hbm, ⟨10, _⟩ => ⟨S32x3, .f32⟩
  | .hbm, ⟨11, _⟩ => ⟨S_, .f32⟩
  | .hbm, ⟨12, _⟩ => ⟨S32x3, .f32⟩
  | .hbm, ⟨13, _⟩ => ⟨S32x3, .f32⟩
  | .hbm, ⟨14, _⟩ => ⟨S_, .f32⟩
  | .hbm, ⟨15, _⟩ => ⟨S32x3, .f32⟩
  | .hbm, ⟨16, _⟩ => ⟨S32x3, .f32⟩
  | .hbm, ⟨17, _⟩ => ⟨S_, .f32⟩
  | .hbm, ⟨18, _⟩ => ⟨S32x3, .f32⟩
  | .hbm, ⟨19, _⟩ => ⟨S32x3, .f32⟩
  | .hbm, ⟨20, _⟩ => ⟨S_, .f32⟩
  | .hbm, ⟨21, _⟩ => ⟨S32x3, .f32⟩
  | .hbm, ⟨22, _⟩ => ⟨S32x3, .f32⟩
  | .hbm, ⟨23, _⟩ => ⟨S_, .f32⟩
  | .hbm, ⟨24, _⟩ => ⟨S32x3, .f32⟩
  | .hbm, ⟨25, _⟩ => ⟨S32x3, .f32⟩
  | .hbm, ⟨26, _⟩ => ⟨S_, .f32⟩
  | .hbm, ⟨27, _⟩ => ⟨S32x3, .f32⟩
  | .hbm, ⟨28, _⟩ => ⟨S32x3, .f32⟩
  | .hbm, ⟨29, _⟩ => ⟨S32x511x3, .f32⟩
  | .hbm, ⟨30, _⟩ => ⟨S32x511x3, .f32⟩
  | .hbm, ⟨31, _⟩ => ⟨S32x511x3, .f32⟩
  | .hbm, ⟨32, _⟩ => ⟨S32x511x3, .f32⟩
  | .hbm, ⟨33, _⟩ => ⟨S_, .f32⟩
  | .hbm, ⟨34, _⟩ => ⟨S32x511, .f32⟩
  | .hbm, ⟨35, _⟩ => ⟨S_, .f32⟩
  | .hbm, ⟨36, _⟩ => ⟨S32x511, .f32⟩
  | .hbm, ⟨37, _⟩ => ⟨S32x511, .f32⟩
  | .hbm, ⟨38, _⟩ => ⟨S_, .f32⟩
  | .hbm, ⟨39, _⟩ => ⟨S32x511, .f32⟩
  | .hbm, ⟨40, _⟩ => ⟨S32x511, .f32⟩
  | .hbm, ⟨41, _⟩ => ⟨S32x511, .i1⟩
  | .hbm, ⟨42, _⟩ => ⟨S32x511, .i1⟩
  | .hbm, ⟨43, _⟩ => ⟨S32x511, .i1⟩
  | .hbm, ⟨44, _⟩ => ⟨S32x511, .f32⟩
  | .hbm, ⟨45, _⟩ => ⟨S32x511x3, .f32⟩
  | .hbm, ⟨46, _⟩ => ⟨S_, .f32⟩
  | .hbm, ⟨47, _⟩ => ⟨S32x511, .f32⟩
  | .hbm, ⟨48, _⟩ => ⟨S32x512, .f32⟩
  | .hbm, ⟨49, _⟩ => ⟨S32x512, .f32⟩
  | .hbm, ⟨50, _⟩ => ⟨S32x512x1, .f32⟩
  | .hbm, ⟨51, _⟩ => ⟨S32x3x511, .f32⟩
  | .hbm, ⟨52, _⟩ => ⟨S32x3x511, .f32⟩
  | .hbm, ⟨53, _⟩ => ⟨S32x1x511, .f32⟩
  | .hbm, ⟨54, _⟩ => ⟨S32x1x511, .f32⟩
  | .hbm, ⟨55, _⟩ => ⟨S32x1x511, .f32⟩
  | .hbm, ⟨56, _⟩ => ⟨S32x3x512, .f32⟩
  | .hbm, ⟨57, _⟩ => ⟨S32x1x512, .f32⟩
  | .hbm, ⟨58, _⟩ => ⟨S32x3x1, .f32⟩
  | .hbm, ⟨59, _⟩ => ⟨S32x3x1, .f32⟩
  | .hbm, ⟨60, _⟩ => ⟨S32x32x128, .f32⟩
  | .hbm, ⟨61, _⟩ => ⟨S32x32x128, .f32⟩
  | .hbm, ⟨62, _⟩ => ⟨S2x8x128, .f32⟩
  | .hbm, ⟨63, _⟩ => ⟨S_, .f32⟩
  | .hbm, ⟨64, _⟩ => ⟨S8x128, .f32⟩
  | .hbm, ⟨65, _⟩ => ⟨S1x1, .f32⟩
  | .hbm, ⟨66, _⟩ => ⟨S_, .f32⟩
  | .hbm, ⟨67, _⟩ => ⟨S1x1, .f32⟩
  | .hbm, ⟨68, _⟩ => ⟨S_, .f32⟩
  | .hbm, ⟨69, _⟩ => ⟨S1x1, .f32⟩
  | .hbm, ⟨70, _⟩ => ⟨S_, .f32⟩
  | .hbm, ⟨71, _⟩ => ⟨S1x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x1, .f32⟩
  | .local _ .vmem, ⟨3, _⟩ => ⟨S1x512x1, .f32⟩
  | .local _ .vmem, ⟨4, _⟩ => ⟨S1x3x511, .f32⟩
  | .local _ .vmem, ⟨5, _⟩ => ⟨S1x3x511, .f32⟩
  | .local _ .vmem, ⟨6, _⟩ => ⟨S1x3x511, .f32⟩
  | .local _ .vmem, ⟨7, _⟩ => ⟨S1x3x511, .f32⟩
  | .local _ .vmem, ⟨8, _⟩ => ⟨S1x1x511, .f32⟩
  | .local _ .vmem, ⟨9, _⟩ => ⟨S1x1x511, .f32⟩
  | .local _ .vmem, ⟨10, _⟩ => ⟨S1x1x511, .f32⟩
  | .local _ .vmem, ⟨11, _⟩ => ⟨S1x1x511, .f32⟩
  | .local _ .vmem, ⟨12, _⟩ => ⟨S1x1x511, .f32⟩
  | .local _ .vmem, ⟨13, _⟩ => ⟨S1x1x511, .f32⟩
  | .local _ .vmem, ⟨14, _⟩ => ⟨S1x3x512, .f32⟩
  | .local _ .vmem, ⟨15, _⟩ => ⟨S1x3x512, .f32⟩
  | .local _ .vmem, ⟨16, _⟩ => ⟨S1x1x512, .f32⟩
  | .local _ .vmem, ⟨17, _⟩ => ⟨S1x1x512, .f32⟩
  | .local _ .vmem, ⟨18, _⟩ => ⟨S1x3x1, .f32⟩
  | .local _ .vmem, ⟨19, _⟩ => ⟨S1x3x1, .f32⟩
  | .local _ .vmem, ⟨20, _⟩ => ⟨S1x3x1, .f32⟩
  | .local _ .vmem, ⟨21, _⟩ => ⟨S1x3x1, .f32⟩
  | .local _ .vmem, ⟨22, _⟩ => ⟨S1x32x128, .f32⟩
  | .local _ .vmem, ⟨23, _⟩ => ⟨S1x32x128, .f32⟩
  | .local _ .vmem, ⟨24, _⟩ => ⟨S1x32x128, .f32⟩
  | .local _ .vmem, ⟨25, _⟩ => ⟨S1x32x128, .f32⟩
  | .local _ .vmem, ⟨26, _⟩ => ⟨S1x8x128, .f32⟩
  | .local _ .vmem, ⟨27, _⟩ => ⟨S1x8x128, .f32⟩
  | .local _ .vmem, ⟨28, _⟩ => ⟨S8x128, .f32⟩
  | _, _ => ⟨S32x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_v12 : Ref sig .tc := ⟨.hbm, 25, rfl⟩
abbrev main_cst_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_v21 : Ref sig .tc := ⟨.hbm, 37, rfl⟩
abbrev main_cst_9 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v241 : BitVec 1 := Scalar.cmpi .eq arg1 c15_i32
  let v242 : BitVec 32 := Scalar.extui v241
  let c0_i32_71 : BitVec 32 := 0#32
  let v243 : BitVec 1 := Scalar.cmpi .ne v242 c0_i32_71
  v243

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x511 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x511 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x511 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x511 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x511 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  reducesTo_S32x512x3_S32x3_d1 : S32x512x3.ReducesTo [1] S32x3
  h_S_ : 0 < S_.numel
  bcast_S_S32x3 : S_.BroadcastsInDim S32x3 (![] : Fin 0 → Fin S32x3.rank)
  slices_S32x512x3_S32x511x3_0_0_0 : S32x512x3.Slices ![0, 0, 0] S32x511x3
  slices_S32x512x3_S32x511x3_0_1_0 : S32x512x3.Slices ![0, 1, 0] S32x511x3
  reducesTo_S32x511x3_S32x511_d2 : S32x511x3.ReducesTo [2] S32x511
  bcast_S_S32x511 : S_.BroadcastsInDim S32x511 (![] : Fin 0 → Fin S32x511.rank)
  slices_S32x512_S32x511_0_0 : S32x512.Slices ![0, 0] S32x511
  slices_S32x512_S32x511_0_1 : S32x512.Slices ![0, 1] S32x511
  bcast_S32x512_S32x512x1_0_1 : S32x512.BroadcastsInDim S32x512x1 (![0, 1] : Fin 2 → Fin S32x512x1.rank)
  transposes_S32x511x3_S32x3x511_0_2_1 : S32x511x3.Transposes [0, 2, 1] S32x3x511
  bcast_S32x511_S32x1x511_0_2 : S32x511.BroadcastsInDim S32x1x511 (![0, 2] : Fin 2 → Fin S32x1x511.rank)
  transposes_S32x512x3_S32x3x512_0_2_1 : S32x512x3.Transposes [0, 2, 1] S32x3x512
  bcast_S32x512_S32x1x512_0_2 : S32x512.BroadcastsInDim S32x1x512 (![0, 2] : Fin 2 → Fin S32x1x512.rank)
  bcast_S32x3_S32x3x1_0_1 : S32x3.BroadcastsInDim S32x3x1 (![0, 1] : Fin 2 → Fin S32x3x1.rank)
  shapeCasts_S32x1024x4_S32x32x128 : S32x1024x4.ShapeCasts S32x32x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  slices_S512x3_o0_0_S512x1 : S512x3.Slices ![0, 0] S512x1
  slices_S512x3_o0_1_S512x1 : S512x3.Slices ![0, 1] S512x1
  slices_S512x3_o0_2_S512x1 : S512x3.Slices ![0, 2] S512x1
  inb_S1x3x511_S1x3x511_0_0_0 : ∀ a, (![0, 0, 0] : Fin 3 → Nat) a + S1x3x511.size a ≤ S1x3x511.size a
  h_S1x3x511 : 0 < S1x3x511.numel
  shapeCasts_S1x3x511_S3x511 : S1x3x511.ShapeCasts S3x511
  inb_S1x1x511_S1x1x511_0_0_0 : ∀ a, (![0, 0, 0] : Fin 3 → Nat) a + S1x1x511.size a ≤ S1x1x511.size a
  h_S1x1x511 : 0 < S1x1x511.numel
  shapeCasts_S1x1x511_S1x511 : S1x1x511.ShapeCasts S1x511
  inb_S1x3x1_S1x3x1_0_0_0 : ∀ a, (![0, 0, 0] : Fin 3 → Nat) a + S1x3x1.size a ≤ S1x3x1.size a
  h_S1x3x1 : 0 < S1x3x1.numel
  shapeCasts_S1x3x1_S3x1 : S1x3x1.ShapeCasts S3x1
  slices_S3x511_o0_0_S1x511 : S3x511.Slices ![0, 0] S1x511
  broadcasts_S512x1_S512x511 : S512x1.Broadcasts S512x511
  broadcasts_S1x511_S512x511 : S1x511.Broadcasts S512x511
  slices_S3x511_o1_0_S1x511 : S3x511.Slices ![1, 0] S1x511
  slices_S3x511_o2_0_S1x511 : S3x511.Slices ![2, 0] S1x511
  slices_S3x1_o0_0_S1x1 : S3x1.Slices ![0, 0] S1x1
  inpos_S1x1_p0_0 : ∀ a, (![0, 0] : Fin 2 → Nat) a < S1x1.size a
  slices_S3x1_o1_0_S1x1 : S3x1.Slices ![1, 0] S1x1
  slices_S3x1_o2_0_S1x1 : S3x1.Slices ![2, 0] S1x1
  reduces_S512x511_S512 : S512x511.Reduces [1] S512
  shapeCasts_S512_S512x1 : S512.ShapeCasts S512x1
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  slices_S3x512_o0_0_S1x512 : S3x512.Slices ![0, 0] S1x512
  broadcasts_S512x1_S512x512 : S512x1.Broadcasts S512x512
  broadcasts_S1x512_S512x512 : S1x512.Broadcasts S512x512
  slices_S3x512_o1_0_S1x512 : S3x512.Slices ![1, 0] S1x512
  slices_S3x512_o2_0_S1x512 : S3x512.Slices ![2, 0] S1x512
  reduces_S512x512_S512 : S512x512.Reduces [1] S512
  reduces_S512x1_S1 : S512x1.Reduces [0] S1
  shapeCasts_S1_S1x1 : S1.ShapeCasts S1x1
  slices_S512x1_o1_0_S511x1 : S512x1.Slices ![1, 0] S511x1
  slices_S512x1_o0_0_S511x1 : S512x1.Slices ![0, 0] S511x1
  reduces_S511x1_S1 : S511x1.Reduces [0] S1
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  reduces_S32x128_S32 : S32x128.Reduces [1] S32
  shapeCasts_S32_S32x1 : S32.ShapeCasts S32x1
  reduces_S32x1_S1 : S32x1.Reduces [0] S1
  iota_S8x128_d1_w32 : S8x128.Iotas .tc 32 [1]
  iota_S8x128_d0_w32 : S8x128.Iotas .tc 32 [0]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S8x128_d0 : S2x8x128.ReducesTo [0] S8x128
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S32x512x3.size a
  hwx0_0 : ∀ i : grid0.Coords, EltTy.bits .f32 = 32 ∨ (Rect.block (s := S32x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .f32 = 32 ∨ (Rect.block (s := S32x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x511.size a ≤ S32x3x511.size a
  hwx0_2 : ∀ i : grid0.Coords, EltTy.bits .f32 = 32 ∨ (Rect.block (s := S32x3x511) S1x3x511.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x511.size a ≤ S32x3x511.size a
  hwx0_3 : ∀ i : grid0.Coords, EltTy.bits .f32 = 32 ∨ (Rect.block (s := S32x3x511) S1x3x511.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x511.size a ≤ S32x1x511.size a
  hwx0_4 : ∀ i : grid0.Coords, EltTy.bits .f32 = 32 ∨ (Rect.block (s := S32x1x511) S1x1x511.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x511.size a ≤ S32x1x511.size a
  hwx0_5 : ∀ i : grid0.Coords, EltTy.bits .f32 = 32 ∨ (Rect.block (s := S32x1x511) S1x1x511.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x511.size a ≤ S32x1x511.size a
  hwx0_6 : ∀ i : grid0.Coords, EltTy.bits .f32 = 32 ∨ (Rect.block (s := S32x1x511) S1x1x511.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x512.size a ≤ S32x3x512.size a
  hwx0_7 : ∀ i : grid0.Coords, EltTy.bits .f32 = 32 ∨ (Rect.block (s := S32x3x512) S1x3x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S32x1x512.size a
  hwx0_8 : ∀ i : grid0.Coords, EltTy.bits .f32 = 32 ∨ (Rect.block (s := S32x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x3x1.size a ≤ S32x3x1.size a
  hwx0_9 : ∀ i : grid0.Coords, EltTy.bits .f32 = 32 ∨ (Rect.block (s := S32x3x1) S1x3x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x3x1.size a ≤ S32x3x1.size a
  hwx0_10 : ∀ i : grid0.Coords, EltTy.bits .f32 = 32 ∨ (Rect.block (s := S32x3x1) S1x3x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x128.size a ≤ S32x32x128.size a
  hwx0_11 : ∀ i : grid0.Coords, EltTy.bits .f32 = 32 ∨ (Rect.block (s := S32x32x128) S1x32x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x128.size a ≤ S32x32x128.size a
  hwx0_12 : ∀ i : grid0.Coords, EltTy.bits .f32 = 32 ∨ (Rect.block (s := S32x32x128) S1x32x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x128.size a ≤ S2x8x128.size a
  hwx0_13 : ∀ i : grid0.Coords, EltTy.bits .f32 = 32 ∨ (Rect.block (s := S2x8x128) S1x8x128.size (cc0_transform_13 i) (hinb0_13 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x3x511.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x3x511.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x1x511.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x1x511.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x1x511.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x3x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x3x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x3x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v42) S1x32x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v43) S1x32x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1x8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S32x512x3 : Shape := ⟨3, ![32, 512, 3]⟩
abbrev S32x512 : Shape := ⟨2, ![32, 512]⟩
abbrev S32x1024x4 : Shape := ⟨3, ![32, 1024, 4]⟩
abbrev S_ : Shape := ⟨0, ![]⟩
abbrev S32x3 : Shape := ⟨2, ![32, 3]⟩
abbrev S32x511x3 : Shape := ⟨3, ![32, 511, 3]⟩
abbrev S32x511 : Shape := ⟨2, ![32, 511]⟩
abbrev S32x512x1 : Shape := ⟨3, ![32, 512, 1]⟩
abbrev S32x512x511 : Shape := ⟨3, ![32, 512, 511]⟩
abbrev S32x1x511 : Shape := ⟨3, ![32, 1, 511]⟩
abbrev S32x1x511x3 : Shape := ⟨4, ![32, 1, 511, 3]⟩
abbrev S32x512x511x1 : Shape := ⟨4, ![32, 512, 511, 1]⟩
abbrev S32x512x511x3 : Shape := ⟨4, ![32, 512, 511, 3]⟩
abbrev S32x512x1x3 : Shape := ⟨4, ![32, 512, 1, 3]⟩
abbrev S32x1x1x3 : Shape := ⟨4, ![32, 1, 1, 3]⟩
abbrev S32x1x512x3 : Shape := ⟨4, ![32, 1, 512, 3]⟩
abbrev S32x512x512x3 : Shape := ⟨4, ![32, 512, 512, 3]⟩
abbrev S32x512x512 : Shape := ⟨3, ![32, 512, 512]⟩
abbrev S32x1x512 : Shape := ⟨3, ![32, 1, 512]⟩
abbrev S32 : Shape := ⟨1, ![32]⟩

abbrev nBuf : Space → Nat
  | .hbm => 173
  | .vmem => 0
  | .smem => 0
  | _ => 0

abbrev hbmTy0_0 (i : Nat) : BufTy := match i % 128 with
  | 0 => ⟨S32x512x3, .f32⟩
  | 1 => ⟨S32x512, .i1⟩
  | 2 => ⟨S32x512x3, .f32⟩
  | 3 => ⟨S32x512, .i1⟩
  | 4 => ⟨S32x1024x4, .f32⟩
  | 5 => ⟨S32x1024x4, .f32⟩
  | 6 => ⟨S_, .f32⟩
  | 7 => ⟨S32x3, .f32⟩
  | 8 => ⟨S_, .f32⟩
  | 9 => ⟨S32x3, .f32⟩
  | 10 => ⟨S32x3, .f32⟩
  | 11 => ⟨S_, .f32⟩
  | 12 => ⟨S32x3, .f32⟩
  | 13 => ⟨S32x3, .f32⟩
  | 14 => ⟨S_, .f32⟩
  | 15 => ⟨S32x3, .f32⟩
  | 16 => ⟨S32x3, .f32⟩
  | 17 => ⟨S_, .f32⟩
  | 18 => ⟨S32x3, .f32⟩
  | 19 => ⟨S32x3, .f32⟩
  | 20 => ⟨S_, .f32⟩
  | 21 => ⟨S32x3, .f32⟩
  | 22 => ⟨S32x3, .f32⟩
  | 23 => ⟨S32x511x3, .f32⟩
  | 24 => ⟨S32x511x3, .f32⟩
  | 25 => ⟨S32x511x3, .f32⟩
  | 26 => ⟨S32x511x3, .f32⟩
  | 27 => ⟨S_, .f32⟩
  | 28 => ⟨S32x511, .f32⟩
  | 29 => ⟨S_, .f32⟩
  | 30 => ⟨S32x511, .f32⟩
  | 31 => ⟨S32x511, .f32⟩
  | 32 => ⟨S32x511, .i1⟩
  | 33 => ⟨S32x511, .i1⟩
  | 34 => ⟨S32x511, .i1⟩
  | 35 => ⟨S32x512x1, .i1⟩
  | 36 => ⟨S32x512x1, .f32⟩
  | 37 => ⟨S32x512x3, .f32⟩
  | 38 => ⟨S32x512x3, .f32⟩
  | 39 => ⟨S32x512x511, .f32⟩
  | 40 => ⟨S32x511x3, .f32⟩
  | 41 => ⟨S_, .f32⟩
  | 42 => ⟨S32x511, .f32⟩
  | 43 => ⟨S32x1x511, .f32⟩
  | 44 => ⟨S32x512x511, .f32⟩
  | 45 => ⟨S32x512x511, .f32⟩
  | 46 => ⟨S32x1x511, .f32⟩
  | 47 => ⟨S32x512x511, .f32⟩
  | 48 => ⟨S32x512x511, .f32⟩
  | 49 => ⟨S_, .f32⟩
  | 50 => ⟨S_, .f32⟩
  | 51 => ⟨S_, .f32⟩
  | 52 => ⟨S32x512x511, .f32⟩
  | 53 => ⟨S32x512x511, .f32⟩
  | 54 => ⟨S_, .f32⟩
  | 55 => ⟨S32x512x511, .f32⟩
  | 56 => ⟨S32x512x511, .f32⟩
  | 57 => ⟨S32x1x511x3, .f32⟩
  | 58 => ⟨S32x512x511x1, .f32⟩
  | 59 => ⟨S32x1x511x3, .f32⟩
  | 60 => ⟨S32x512x511x3, .f32⟩
  | 61 => ⟨S32x512x511x3, .f32⟩
  | 62 => ⟨S32x512x511x3, .f32⟩
  | 63 => ⟨S32x512x511x3, .f32⟩
  | 64 => ⟨S32x512x511x3, .f32⟩
  | 65 => ⟨S32x512x1x3, .f32⟩
  | 66 => ⟨S32x512x511x3, .f32⟩
  | 67 => ⟨S32x512x511x3, .f32⟩
  | 68 => ⟨S32x1x1x3, .f32⟩
  | 69 => ⟨S32x512x511x3, .f32⟩
  | 70 => ⟨S32x512x511x3, .f32⟩
  | 71 => ⟨S32x512x511x3, .f32⟩
  | 72 => ⟨S_, .f32⟩
  | 73 => ⟨S32x512x511, .f32⟩
  | 74 => ⟨S32x511, .i1⟩
  | 75 => ⟨S32x511, .f32⟩
  | 76 => ⟨S32x1x511, .f32⟩
  | 77 => ⟨S_, .f32⟩
  | 78 => ⟨S32x1x511, .f32⟩
  | 79 => ⟨S32x1x511, .f32⟩
  | 80 => ⟨S32x512x511, .f32⟩
  | 81 => ⟨S32x512x511, .f32⟩
  | 82 => ⟨S_, .f32⟩
  | 83 => ⟨S32x512x511, .f32⟩
  | 84 => ⟨S32x512x511, .f32⟩
  | 85 => ⟨S32x512x511, .f32⟩
  | 86 => ⟨S_, .f32⟩
  | 87 => ⟨S32x512, .f32⟩
  | 88 => ⟨S32x512x1x3, .f32⟩
  | 89 => ⟨S32x1x512x3, .f32⟩
  | 90 => ⟨S32x512x512x3, .f32⟩
  | 91 => ⟨S32x512x512x3, .f32⟩
  | 92 => ⟨S32x512x512x3, .f32⟩
  | 93 => ⟨S32x1x1x3, .f32⟩
  | 94 => ⟨S32x512x512x3, .f32⟩
  | 95 => ⟨S32x512x512x3, .f32⟩
  | 96 => ⟨S32x512x512x3, .f32⟩
  | 97 => ⟨S_, .f32⟩
  | 98 => ⟨S32x512x512, .f32⟩
  | 99 => ⟨S32x512, .i1⟩
  | 100 => ⟨S32x512, .f32⟩
  | 101 => ⟨S32x1x512, .f32⟩
  | 102 => ⟨S_, .f32⟩
  | 103 => ⟨S32x1x512, .f32⟩
  | 104 => ⟨S32x1x512, .f32⟩
  | 105 => ⟨S32x512x512, .f32⟩
  | 106 => ⟨S32x512x512, .f32⟩
  | 107 => ⟨S_, .f32⟩
  | 108 => ⟨S32x512, .f32⟩
  | 109 => ⟨S_, .f32⟩
  | 110 => ⟨S32x512, .f32⟩
  | 111 => ⟨S32x512, .f32⟩
  | 112 => ⟨S32x512, .f32⟩
  | 113 => ⟨S_, .f32⟩
  | 114 => ⟨S32x512, .f32⟩
  | 115 => ⟨S32x512, .f32⟩
  | 116 => ⟨S_, .f32⟩
  | 117 => ⟨S32x512, .f32⟩
  | 118 => ⟨S32x512, .f32⟩
  | 119 => ⟨S32x512, .f32⟩
  | 120 => ⟨S_, .f32⟩
  | 121 => ⟨S_, .f32⟩
  | 122 => ⟨S_, .f32⟩
  | 123 => ⟨S32x512, .f32⟩
  | 124 => ⟨S32x512, .f32⟩
  | 125 => ⟨S_, .f32⟩
  | 126 => ⟨S32x512, .f32⟩
  | 127 => ⟨S32x512, .f32⟩
  | _ => ⟨S32x512x3, .f32⟩

abbrev hbmTy0_1 (i : Nat) : BufTy := match i % 128 with
  | 0 => ⟨S32x512, .f32⟩
  | 1 => ⟨S_, .f32⟩
  | 2 => ⟨S32x512, .f32⟩
  | 3 => ⟨S32x512, .f32⟩
  | 4 => ⟨S32x512, .f32⟩
  | 5 => ⟨S_, .f32⟩
  | 6 => ⟨S_, .f32⟩
  | 7 => ⟨S_, .f32⟩
  | 8 => ⟨S_, .f32⟩
  | 9 => ⟨S_, .f32⟩
  | 10 => ⟨S32x511x3, .f32⟩
  | 11 => ⟨S32x511x3, .f32⟩
  | 12 => ⟨S32x511x3, .f32⟩
  | 13 => ⟨S32x511, .i1⟩
  | 14 => ⟨S32x511, .i1⟩
  | 15 => ⟨S32x511, .i1⟩
  | 16 => ⟨S32x511, .f32⟩
  | 17 => ⟨S32x511x3, .f32⟩
  | 18 => ⟨S_, .f32⟩
  | 19 => ⟨S32x511, .f32⟩
  | 20 => ⟨S32x511, .f32⟩
  | 21 => ⟨S_, .f32⟩
  | 22 => ⟨S32, .f32⟩
  | 23 => ⟨S_, .f32⟩
  | 24 => ⟨S32, .f32⟩
  | 25 => ⟨S_, .f32⟩
  | 26 => ⟨S32, .f32⟩
  | 27 => ⟨S32, .f32⟩
  | 28 => ⟨S32, .f32⟩
  | 29 => ⟨S_, .f32⟩
  | 30 => ⟨S_, .f32⟩
  | 31 => ⟨S_, .f32⟩
  | 32 => ⟨S_, .f32⟩
  | 33 => ⟨S32x1024x4, .f32⟩
  | 34 => ⟨S32x1024x4, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S32x512x3, .f32⟩

abbrev hbmTy (i : Nat) : BufTy := match i / 128 with
  | 0 => hbmTy0_0 i
  | 1 => hbmTy0_1 i
  | _ => ⟨S32x512x3, .f32⟩

abbrev bufTy : (tb : Table) → Fin (tcTables nBuf tb) → BufTy
  | .hbm, ⟨i, _⟩ => hbmTy i
  | _, _ => ⟨S32x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_cst_9 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_20 : Ref sig .tc := ⟨.hbm, 120, rfl⟩
abbrev main_cst_21 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v88 : Ref sig .tc := ⟨.hbm, 127, rfl⟩
abbrev main_v89 : Ref sig .tc := ⟨.hbm, 128, rfl⟩
abbrev main_cst_22 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_23 : Ref sig .tc := ⟨.hbm, 133, rfl⟩
abbrev main_v93 : Ref sig .tc := ⟨.hbm, 134, rfl⟩
abbrev main_cst_24 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_25 : Ref sig .tc := ⟨.hbm, 146, rfl⟩
abbrev main_v104 : Ref sig .tc := ⟨.hbm, 147, rfl⟩
abbrev main_v105 : Ref sig .tc := ⟨.hbm, 148, rfl⟩
abbrev main_cst_26 : Ref sig .tc := ⟨.hbm, 149, rfl⟩
abbrev main_v106 : Ref sig .tc := ⟨.hbm, 150, rfl⟩
abbrev main_cst_27 : Ref sig .tc := ⟨.hbm, 151, rfl⟩
abbrev main_v107 : Ref sig .tc := ⟨.hbm, 152, rfl⟩
abbrev main_cst_28 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_29 : Ref sig .tc := ⟨.hbm, 157, rfl⟩
abbrev main_v111 : Ref sig .tc := ⟨.hbm, 158, rfl⟩
abbrev main_cst_30 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_31 : Ref sig .tc := ⟨.hbm, 163, rfl⟩
abbrev main_v115 : Ref sig .tc := ⟨.hbm, 164, rfl⟩
abbrev main_cst_32 : Ref sig .tc := ⟨.hbm, 165, rfl⟩
abbrev main_v116 : Ref sig .tc := ⟨.hbm, 166, rfl⟩
abbrev main_cst_33 : Ref sig .tc := ⟨.hbm, 167, rfl⟩
abbrev main_v117 : Ref sig .tc := ⟨.hbm, 168, rfl⟩
abbrev main_v118 : Ref sig .tc := ⟨.hbm, 169, rfl⟩
abbrev main_cst_34 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  reducesTo_S32x512x3_S32x3_d1 : S32x512x3.ReducesTo [1] S32x3
  h_S_ : 0 < S_.numel
  bcast_S_S32x3 : S_.BroadcastsInDim S32x3 (![] : Fin 0 → Fin S32x3.rank)
  slices_S32x512x3_S32x511x3_0_0_0 : S32x512x3.Slices ![0, 0, 0] S32x511x3
  slices_S32x512x3_S32x511x3_0_1_0 : S32x512x3.Slices ![0, 1, 0] S32x511x3
  reducesTo_S32x511x3_S32x511_d2 : S32x511x3.ReducesTo [2] S32x511
  bcast_S_S32x511 : S_.BroadcastsInDim S32x511 (![] : Fin 0 → Fin S32x511.rank)
  slices_S32x512_S32x511_0_0 : S32x512.Slices ![0, 0] S32x511
  slices_S32x512_S32x511_0_1 : S32x512.Slices ![0, 1] S32x511
  bcast_S32x512_S32x512x1_0_1 : S32x512.BroadcastsInDim S32x512x1 (![0, 1] : Fin 2 → Fin S32x512x1.rank)
  bcast_S32x512x1_S32x512x3_0_1_2 : S32x512x1.BroadcastsInDim S32x512x3 (![0, 1, 2] : Fin 3 → Fin S32x512x3.rank)
  bcast_S32x511_S32x1x511_0_2 : S32x511.BroadcastsInDim S32x1x511 (![0, 2] : Fin 2 → Fin S32x1x511.rank)
  bcast_S32x1x511_S32x512x511_0_1_2 : S32x1x511.BroadcastsInDim S32x512x511 (![0, 1, 2] : Fin 3 → Fin S32x512x511.rank)
  bcast_S_S32x512x511 : S_.BroadcastsInDim S32x512x511 (![] : Fin 0 → Fin S32x512x511.rank)
  bcast_S32x511x3_S32x1x511x3_0_2_3 : S32x511x3.BroadcastsInDim S32x1x511x3 (![0, 2, 3] : Fin 3 → Fin S32x1x511x3.rank)
  bcast_S32x512x511_S32x512x511x1_0_1_2 : S32x512x511.BroadcastsInDim S32x512x511x1 (![0, 1, 2] : Fin 3 → Fin S32x512x511x1.rank)
  bcast_S32x512x511x1_S32x512x511x3_0_1_2_3 : S32x512x511x1.BroadcastsInDim S32x512x511x3 (![0, 1, 2, 3] : Fin 4 → Fin S32x512x511x3.rank)
  bcast_S32x1x511x3_S32x512x511x3_0_1_2_3 : S32x1x511x3.BroadcastsInDim S32x512x511x3 (![0, 1, 2, 3] : Fin 4 → Fin S32x512x511x3.rank)
  bcast_S32x512x3_S32x512x1x3_0_1_3 : S32x512x3.BroadcastsInDim S32x512x1x3 (![0, 1, 3] : Fin 3 → Fin S32x512x1x3.rank)
  bcast_S32x512x1x3_S32x512x511x3_0_1_2_3 : S32x512x1x3.BroadcastsInDim S32x512x511x3 (![0, 1, 2, 3] : Fin 4 → Fin S32x512x511x3.rank)
  bcast_S32x3_S32x1x1x3_0_3 : S32x3.BroadcastsInDim S32x1x1x3 (![0, 3] : Fin 2 → Fin S32x1x1x3.rank)
  bcast_S32x1x1x3_S32x512x511x3_0_1_2_3 : S32x1x1x3.BroadcastsInDim S32x512x511x3 (![0, 1, 2, 3] : Fin 4 → Fin S32x512x511x3.rank)
  reducesTo_S32x512x511x3_S32x512x511_d3 : S32x512x511x3.ReducesTo [3] S32x512x511
  bcast_S_S32x1x511 : S_.BroadcastsInDim S32x1x511 (![] : Fin 0 → Fin S32x1x511.rank)
  reducesTo_S32x512x511_S32x512_d2 : S32x512x511.ReducesTo [2] S32x512
  bcast_S32x512x3_S32x1x512x3_0_2_3 : S32x512x3.BroadcastsInDim S32x1x512x3 (![0, 2, 3] : Fin 3 → Fin S32x1x512x3.rank)
  bcast_S32x512x1x3_S32x512x512x3_0_1_2_3 : S32x512x1x3.BroadcastsInDim S32x512x512x3 (![0, 1, 2, 3] : Fin 4 → Fin S32x512x512x3.rank)
  bcast_S32x1x512x3_S32x512x512x3_0_1_2_3 : S32x1x512x3.BroadcastsInDim S32x512x512x3 (![0, 1, 2, 3] : Fin 4 → Fin S32x512x512x3.rank)
  bcast_S32x1x1x3_S32x512x512x3_0_1_2_3 : S32x1x1x3.BroadcastsInDim S32x512x512x3 (![0, 1, 2, 3] : Fin 4 → Fin S32x512x512x3.rank)
  reducesTo_S32x512x512x3_S32x512x512_d3 : S32x512x512x3.ReducesTo [3] S32x512x512
  bcast_S32x512_S32x1x512_0_2 : S32x512.BroadcastsInDim S32x1x512 (![0, 2] : Fin 2 → Fin S32x1x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  bcast_S_S32x512 : S_.BroadcastsInDim S32x512 (![] : Fin 0 → Fin S32x512.rank)
  reducesTo_S32x512_S_d0_1 : S32x512.ReducesTo [0, 1] S_
  reducesTo_S32x511_S32_d1 : S32x511.ReducesTo [1] S32
  bcast_S_S32 : S_.BroadcastsInDim S32 (![] : Fin 0 → Fin S32.rank)
  reducesTo_S32_S_d0 : S32.ReducesTo [0] S_
  reducesTo_S32x1024x4_S_d0_1_2 : S32x1024x4.ReducesTo [0, 1, 2] S_
  dot_S32x512x3_S32x511x3_S32x512x511_2_2_1_1_0_0_wf : DotDims.WF S32x512x3 S32x511x3 S32x512x511 [2] [2] [1] [1] [0] [0]

variable [Facts₀]

def dot_S32x512x3_S32x511x3_S32x512x511_2_2_1_1_0_0 : DotDims S32x512x3 S32x511x3 S32x512x511 where
  lhsContracting := [2]
  rhsContracting := [2]
  lhsNonContracting := [1]
  rhsNonContracting := [1]
  lhsBatch := [0]
  rhsBatch := [0]
  wf := dot_S32x512x3_S32x511x3_S32x512x511_2_2_1_1_0_0_wf

class Facts : Prop extends Facts₀ where

variable [Facts]
-- ==== Proof.Body.lean ====
/-
  One grid point's arithmetic, named: the four numbers a batch element contributes, each as the body's own
  operations applied to the point's thirteen input blocks, and the accumulator update that places them in entries
  (0,0) … (0,3) of an 8 by 128 tile.
-/
import proofs.«159981_j34763465294043_2_alg».proof.Proof.Gen.KernelIdeal.Skeleton

noncomputable section

namespace Cert.KernelIdeal.Body

open Cert.KernelIdeal Cert.KernelIdeal.Gen Idealize.ShloMosaic

variable {F : FTy → Type} [FloatOps F]

/-- The weighted sum over the path of one minus the label, as a 1 by 1 vector. -/
def vNum (x0 : Vec F S1x512x3 .f32) (x1 : Vec F S1x512x1 .f32) (x2 x3 : Vec F S1x3x511 .f32)
    (x4 x5 x6 : Vec F S1x1x511 .f32) (x7 : Vec F S1x3x512 .f32) (x8 : Vec F S1x1x512 .f32)
    (x9 x10 : Vec F S1x3x1 .f32) : FVec F S1x1 .f32 :=
  k0_pay26 (k0_pay5 x1) (k0_pay8 x0 x1) (k0_pay18 x10)
    (k0_pay22 (k0_pay8 x0 x1) (k0_pay13 x3) (k0_pay16 x6) (k0_pay17 x9)
      (k0_pay19 (k0_pay6 x0 x1) (k0_pay7 x0 x1) (k0_pay8 x0 x1) (k0_pay13 x3) (k0_pay14 x4) (k0_pay15 x5))
      (k0_pay20 (k0_pay6 x0 x1) (k0_pay7 x0 x1) (k0_pay8 x0 x1) (k0_pay12 x2) (k0_pay13 x3) (k0_pay14 x4) (k0_pay15 x5)
        (k0_pay17 x9))
      (k0_pay21 (k0_pay12 x2)))
    (k0_pay23 x7) (k0_pay24 x8) (k0_pay25 (k0_pay6 x0 x1) (k0_pay7 x0 x1) (k0_pay18 x10) x7)

/-- The sum of the path weights. -/
def vDen (x1 : Vec F S1x512x1 .f32) : FVec F S1x1 .f32 := k0_pay27 (k0_pay5 x1)

/-- The smoothness quotient. -/
def vSmooth (x0 : Vec F S1x512x3 .f32) (x1 : Vec F S1x512x1 .f32) : FVec F S1x1 .f32 :=
  k0_pay29 (k0_pay5 x1) (k0_pay11 x0) (k0_pay28 (k0_pay9 x0) (k0_pay10 x0))

/-- The sum of squared observation differences. -/
def vCae (x11 x12 : Vec F S1x32x128 .f32) : FVec F S1x1 .f32 := k0_pay30 x11 x12

/-- The accumulator after the point: its contents before plus the tile holding the four numbers. -/
def vAcc (num den sm ca : FVec F S1x1 .f32) (acc : Vec F S8x128 .f32) : FVec F S8x128 .f32 :=
  k0_pay1 sm ca (iota .tc S8x128 32 [1] iota_S8x128_d1_w32) k0_pay31 (k0_pay32 num den) k0_pay33 acc

end Cert.KernelIdeal.Body

end
-- ==== Proof.Pieces.lean ====
/-
  What one grid point leaves in the carried accumulator and, at a core's last point, in the output block: the
  accumulator update of the point's four numbers, over zeros at a core's first point.
-/
import proofs.«159981_j34763465294043_2_alg».proof.Proof.Gen.KernelIdeal.Frame
import proofs.«159981_j34763465294043_2_alg».proof.Proof.Body
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point adds its tile to what the point before left. -/
theorem sout_B (c : Dev nD) (i : grid0.Coords) (arg2 : Memref sig .tc .vmem S1x512x3 .f32) (harg2 : arg2.IsWhole) (arg3 : Memref sig .tc .vmem S1x512x1 .f32) (harg3 : arg3.IsWhole) (arg4 : Memref sig .tc .vmem S1x3x511 .f32) (harg4 : arg4.IsWhole) (arg5 : Memref sig .tc .vmem S1x3x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x1x511 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x3x1 .f32) (harg11 : arg11.IsWhole) (arg12 : Memref sig .tc .vmem S1x3x1 .f32) (harg12 : arg12.IsWhole) (arg13 : Memref sig .tc .vmem S1x32x128 .f32) (harg13 : arg13.IsWhole) (arg14 : Memref sig .tc .vmem S1x32x128 .f32) (harg14 : arg14.IsWhole) (arg15 : Memref sig .tc .vmem S1x8x128 .f32) (harg15 : arg15.IsWhole) (arg16 : Memref sig .tc .vmem S8x128 .f32) (harg16 : arg16.IsWhole) (hc0 : ¬cond0_0 i) (hc1 : ¬cond0_1 i)
    (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x32x128 .f32) (x12 : Vec F S1x32x128 .f32) (xs0 : Vec F S8x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 = Body.vAcc (Body.vNum x0 x1 x2 x3 x4 x5 x6 x7 x8 x9 x10) (Body.vDen x1) (Body.vSmooth x0 x1) (Body.vCae x11 x12) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0)]
  unfold kernelRun0_B
  dsimp only
  sl_unfold_words
  rw [View.canon_unit_zero hz2]
  unfold Body.vAcc Body.vNum Body.vDen Body.vSmooth Body.vCae
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x128) hz2, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x32x128) hz3, View.ld_unit_zero (S := S1x8x128) hz3]

/-- A core's last point does the same to the accumulator … -/
theorem sout_C (c : Dev nD) (i : grid0.Coords) (arg2 : Memref sig .tc .vmem S1x512x3 .f32) (harg2 : arg2.IsWhole) (arg3 : Memref sig .tc .vmem S1x512x1 .f32) (harg3 : arg3.IsWhole) (arg4 : Memref sig .tc .vmem S1x3x511 .f32) (harg4 : arg4.IsWhole) (arg5 : Memref sig .tc .vmem S1x3x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x1x511 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x3x1 .f32) (harg11 : arg11.IsWhole) (arg12 : Memref sig .tc .vmem S1x3x1 .f32) (harg12 : arg12.IsWhole) (arg13 : Memref sig .tc .vmem S1x32x128 .f32) (harg13 : arg13.IsWhole) (arg14 : Memref sig .tc .vmem S1x32x128 .f32) (harg14 : arg14.IsWhole) (arg15 : Memref sig .tc .vmem S1x8x128 .f32) (harg15 : arg15.IsWhole) (arg16 : Memref sig .tc .vmem S8x128 .f32) (harg16 : arg16.IsWhole) (hc0 : ¬cond0_0 i) (hc1 : cond0_1 i)
    (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x32x128 .f32) (x12 : Vec F S1x32x128 .f32) (xs0 : Vec F S8x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 = Body.vAcc (Body.vNum x0 x1 x2 x3 x4 x5 x6 x7 x8 x9 x10) (Body.vDen x1) (Body.vSmooth x0 x1) (Body.vCae x11 x12) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0)]
  unfold kernelRun0_C
  dsimp only
  sl_unfold_words
  rw [View.canon_unit_zero hz2]
  unfold Body.vAcc Body.vNum Body.vDen Body.vSmooth Body.vCae
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x128) hz2, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x32x128) hz3, View.ld_unit_zero (S := S1x8x128) hz3]

/-- … and copies it to the output block. -/
theorem out_C (c : Dev nD) (i : grid0.Coords) (arg2 : Memref sig .tc .vmem S1x512x3 .f32) (harg2 : arg2.IsWhole) (arg3 : Memref sig .tc .vmem S1x512x1 .f32) (harg3 : arg3.IsWhole) (arg4 : Memref sig .tc .vmem S1x3x511 .f32) (harg4 : arg4.IsWhole) (arg5 : Memref sig .tc .vmem S1x3x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x1x511 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x3x1 .f32) (harg11 : arg11.IsWhole) (arg12 : Memref sig .tc .vmem S1x3x1 .f32) (harg12 : arg12.IsWhole) (arg13 : Memref sig .tc .vmem S1x32x128 .f32) (harg13 : arg13.IsWhole) (arg14 : Memref sig .tc .vmem S1x32x128 .f32) (harg14 : arg14.IsWhole) (arg15 : Memref sig .tc .vmem S1x8x128 .f32) (harg15 : arg15.IsWhole) (arg16 : Memref sig .tc .vmem S8x128 .f32) (harg16 : arg16.IsWhole) (hc0 : ¬cond0_0 i) (hc1 : cond0_1 i)
    (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x32x128 .f32) (x12 : Vec F S1x32x128 .f32) (xs0 : Vec F S8x128 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 = k0_pay2 (Body.vAcc (Body.vNum x0 x1 x2 x3 x4 x5 x6 x7 x8 x9 x10) (Body.vDen x1) (Body.vSmooth x0 x1) (Body.vCae x11 x12) xs0) := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0)]
  unfold kernelRun0_C
  dsimp only
  sl_unfold_words
  rw [View.canon_unit_zero hz3, View.readCov_unit_zero (S := S8x128) _ hz2]
  unfold Body.vAcc Body.vNum Body.vDen Body.vSmooth Body.vCae
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x128) hz2, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x32x128) hz3, View.ld_unit_zero (S := S1x8x128) hz3]

/-- A core's first point adds its tile to zeros. -/
theorem sout_A (c : Dev nD) (i : grid0.Coords) (arg2 : Memref sig .tc .vmem S1x512x3 .f32) (harg2 : arg2.IsWhole) (arg3 : Memref sig .tc .vmem S1x512x1 .f32) (harg3 : arg3.IsWhole) (arg4 : Memref sig .tc .vmem S1x3x511 .f32) (harg4 : arg4.IsWhole) (arg5 : Memref sig .tc .vmem S1x3x511 .f32) (harg5 : arg5.IsWhole) (arg6 : Memref sig .tc .vmem S1x1x511 .f32) (harg6 : arg6.IsWhole) (arg7 : Memref sig .tc .vmem S1x1x511 .f32) (harg7 : arg7.IsWhole) (arg8 : Memref sig .tc .vmem S1x1x511 .f32) (harg8 : arg8.IsWhole) (arg9 : Memref sig .tc .vmem S1x3x512 .f32) (harg9 : arg9.IsWhole) (arg10 : Memref sig .tc .vmem S1x1x512 .f32) (harg10 : arg10.IsWhole) (arg11 : Memref sig .tc .vmem S1x3x1 .f32) (harg11 : arg11.IsWhole) (arg12 : Memref sig .tc .vmem S1x3x1 .f32) (harg12 : arg12.IsWhole) (arg13 : Memref sig .tc .vmem S1x32x128 .f32) (harg13 : arg13.IsWhole) (arg14 : Memref sig .tc .vmem S1x32x128 .f32) (harg14 : arg14.IsWhole) (arg15 : Memref sig .tc .vmem S1x8x128 .f32) (harg15 : arg15.IsWhole) (arg16 : Memref sig .tc .vmem S8x128 .f32) (harg16 : arg16.IsWhole) (hc0 : cond0_0 i) (hc1 : ¬cond0_1 i)
    (x0 : Vec F S1x512x3 .f32) (x1 : Vec F S1x512x1 .f32) (x2 : Vec F S1x3x511 .f32) (x3 : Vec F S1x3x511 .f32) (x4 : Vec F S1x1x511 .f32) (x5 : Vec F S1x1x511 .f32) (x6 : Vec F S1x1x511 .f32) (x7 : Vec F S1x3x512 .f32) (x8 : Vec F S1x1x512 .f32) (x9 : Vec F S1x3x1 .f32) (x10 : Vec F S1x3x1 .f32) (x11 : Vec F S1x32x128 .f32) (x12 : Vec F S1x32x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 = Body.vAcc (Body.vNum x0 x1 x2 x3 x4 x5 x6 x7 x8 x9 x10) (Body.vDen x1) (Body.vSmooth x0 x1) (Body.vCae x11 x12) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12)]
  unfold kernelRun0_A
  dsimp only
  sl_unfold_words
  rw [View.canon_cons_unit_zero (S := S8x128) hz2, View.readCov_unit_zero (S := S8x128) _ hz2]
  unfold Body.vAcc Body.vNum Body.vDen Body.vSmooth Body.vCae
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x128) hz2, View.ld_unit_zero (S := S1x512x3) hz3, View.ld_unit_zero (S := S1x512x1) hz3, View.ld_unit_zero (S := S1x3x511) hz3, View.ld_unit_zero (S := S1x1x511) hz3, View.ld_unit_zero (S := S1x3x512) hz3, View.ld_unit_zero (S := S1x1x512) hz3, View.ld_unit_zero (S := S1x3x1) hz3, View.ld_unit_zero (S := S1x32x128) hz3, View.ld_unit_zero (S := S1x8x128) hz3]

end Cert.KernelIdeal.Pieces

end
-- ==== Proof.Blocks.lean ====
/-
  The input blocks of a grid point: block t of each of the thirteen operand arrays is the array's slab at batch
  element t (the grid's two axes enumerate the batch row-major: point t of 32 is batch element t).
-/
import proofs.«159981_j34763465294043_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- A grid point as a batch element. -/
def bt (t : Fin cfg0.N) : Fin 32 := ⟨t.val, lt_of_lt_of_eq t.isLt (show cfg0.N = 32 from N_0)⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Block t of operand 0 is its array's slab at batch element t. -/
theorem iblk0 (c : Dev nD) (t : Fin cfg0.N) (p : Fin 512) (q : Fin 3) :
    (iblk m c 0 t : Vec F S1x512x3 .f32) (ix3 (0 : Fin 1) p q) = V m c main_arg0 (ix3 (bt t) p q) := by
  unfold iblk
  rw [View.read_apply]
  show V m c main_arg0 _ = V m c main_arg0 _
  refine congrArg _ ?_
  funext a
  apply Fin.ext
  match a with
  | ⟨0, _⟩ => show win0_0.index t 0 * 1 + 1 * 0 = t.val; rw [(idx0 t).1]; omega
  | ⟨1, _⟩ => show win0_0.index t 1 * 512 + 1 * p.val = p.val; rw [(idx0 t).2.1]; omega
  | ⟨2, _⟩ => show win0_0.index t 2 * 3 + 1 * q.val = q.val; rw [(idx0 t).2.2]; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Block t of operand 1 is its array's slab at batch element t. -/
theorem iblk1 (c : Dev nD) (t : Fin cfg0.N) (p : Fin 512) (q : Fin 1) :
    (iblk m c 1 t : Vec F S1x512x1 .f32) (ix3 (0 : Fin 1) p q) = V m c main_v32 (ix3 (bt t) p q) := by
  unfold iblk
  rw [View.read_apply]
  show V m c main_v32 _ = V m c main_v32 _
  refine congrArg _ ?_
  funext a
  apply Fin.ext
  match a with
  | ⟨0, _⟩ => show win0_1.index t 0 * 1 + 1 * 0 = t.val; rw [(idx1 t).1]; omega
  | ⟨1, _⟩ => show win0_1.index t 1 * 512 + 1 * p.val = p.val; rw [(idx1 t).2.1]; omega
  | ⟨2, _⟩ => show win0_1.index t 2 * 1 + 1 * q.val = q.val; rw [(idx1 t).2.2]; omega

theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

/-- Block t of operand 2 is its array's slab at batch element t. -/
theorem iblk2 (c : Dev nD) (t : Fin cfg0.N) (p : Fin 3) (q : Fin 511) :
    (iblk m c 2 t : Vec F S1x3x511 .f32) (ix3 (0 : Fin 1) p q) = V m c main_v33 (ix3 (bt t) p q) := by
  unfold iblk
  rw [View.read_apply]
  show V m c main_v33 _ = V m c main_v33 _
  refine congrArg _ ?_
  funext a
  apply Fin.ext
  match a with
  | ⟨0, _⟩ => show win0_2.index t 0 * 1 + 1 * 0 = t.val; rw [(idx2 t).1]; omega
  | ⟨1, _⟩ => show win0_2.index t 1 * 3 + 1 * p.val = p.val; rw [(idx2 t).2.1]; omega
  | ⟨2, _⟩ => show win0_2.index t 2 * 511 + 1 * q.val = q.val; rw [(idx2 t).2.2]; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)

/-- Block t of operand 3 is its array's slab at batch element t. -/
theorem iblk3 (c : Dev nD) (t : Fin cfg0.N) (p : Fin 3) (q : Fin 511) :
    (iblk m c 3 t : Vec F S1x3x511 .f32) (ix3 (0 : Fin 1) p q) = V m c main_v34 (ix3 (bt t) p q) := by
  unfold iblk
  rw [View.read_apply]
  show V m c main_v34 _ = V m c main_v34 _
  refine congrArg _ ?_
  funext a
  apply Fin.ext
  match a with
  | ⟨0, _⟩ => show win0_3.index t 0 * 1 + 1 * 0 = t.val; rw [(idx3 t).1]; omega
  | ⟨1, _⟩ => show win0_3.index t 1 * 3 + 1 * p.val = p.val; rw [(idx3 t).2.1]; omega
  | ⟨2, _⟩ => show win0_3.index t 2 * 511 + 1 * q.val = q.val; rw [(idx3 t).2.2]; omega

theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)

/-- Block t of operand 4 is its array's slab at batch element t. -/
theorem iblk4 (c : Dev nD) (t : Fin cfg0.N) (p : Fin 1) (q : Fin 511) :
    (iblk m c 4 t : Vec F S1x1x511 .f32) (ix3 (0 : Fin 1) p q) = V m c main_v35 (ix3 (bt t) p q) := by
  unfold iblk
  rw [View.read_apply]
  show V m c main_v35 _ = V m c main_v35 _
  refine congrArg _ ?_
  funext a
  apply Fin.ext
  match a with
  | ⟨0, _⟩ => show win0_4.index t 0 * 1 + 1 * 0 = t.val; rw [(idx4 t).1]; omega
  | ⟨1, _⟩ => show win0_4.index t 1 * 1 + 1 * p.val = p.val; rw [(idx4 t).2.1]; omega
  | ⟨2, _⟩ => show win0_4.index t 2 * 511 + 1 * q.val = q.val; rw [(idx4 t).2.2]; omega

theorem idx5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)

/-- Block t of operand 5 is its array's slab at batch element t. -/
theorem iblk5 (c : Dev nD) (t : Fin cfg0.N) (p : Fin 1) (q : Fin 511) :
    (iblk m c 5 t : Vec F S1x1x511 .f32) (ix3 (0 : Fin 1) p q) = V m c main_v36 (ix3 (bt t) p q) := by
  unfold iblk
  rw [View.read_apply]
  show V m c main_v36 _ = V m c main_v36 _
  refine congrArg _ ?_
  funext a
  apply Fin.ext
  match a with
  | ⟨0, _⟩ => show win0_5.index t 0 * 1 + 1 * 0 = t.val; rw [(idx5 t).1]; omega
  | ⟨1, _⟩ => show win0_5.index t 1 * 1 + 1 * p.val = p.val; rw [(idx5 t).2.1]; omega
  | ⟨2, _⟩ => show win0_5.index t 2 * 511 + 1 * q.val = q.val; rw [(idx5 t).2.2]; omega

theorem idx6 : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)

/-- Block t of operand 6 is its array's slab at batch element t. -/
theorem iblk6 (c : Dev nD) (t : Fin cfg0.N) (p : Fin 1) (q : Fin 511) :
    (iblk m c 6 t : Vec F S1x1x511 .f32) (ix3 (0 : Fin 1) p q) = V m c main_v37 (ix3 (bt t) p q) := by
  unfold iblk
  rw [View.read_apply]
  show V m c main_v37 _ = V m c main_v37 _
  refine congrArg _ ?_
  funext a
  apply Fin.ext
  match a with
  | ⟨0, _⟩ => show win0_6.index t 0 * 1 + 1 * 0 = t.val; rw [(idx6 t).1]; omega
  | ⟨1, _⟩ => show win0_6.index t 1 * 1 + 1 * p.val = p.val; rw [(idx6 t).2.1]; omega
  | ⟨2, _⟩ => show win0_6.index t 2 * 511 + 1 * q.val = q.val; rw [(idx6 t).2.2]; omega

theorem idx7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)

/-- Block t of operand 7 is its array's slab at batch element t. -/
theorem iblk7 (c : Dev nD) (t : Fin cfg0.N) (p : Fin 3) (q : Fin 512) :
    (iblk m c 7 t : Vec F S1x3x512 .f32) (ix3 (0 : Fin 1) p q) = V m c main_v38 (ix3 (bt t) p q) := by
  unfold iblk
  rw [View.read_apply]
  show V m c main_v38 _ = V m c main_v38 _
  refine congrArg _ ?_
  funext a
  apply Fin.ext
  match a with
  | ⟨0, _⟩ => show win0_7.index t 0 * 1 + 1 * 0 = t.val; rw [(idx7 t).1]; omega
  | ⟨1, _⟩ => show win0_7.index t 1 * 3 + 1 * p.val = p.val; rw [(idx7 t).2.1]; omega
  | ⟨2, _⟩ => show win0_7.index t 2 * 512 + 1 * q.val = q.val; rw [(idx7 t).2.2]; omega

theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)

/-- Block t of operand 8 is its array's slab at batch element t. -/
theorem iblk8 (c : Dev nD) (t : Fin cfg0.N) (p : Fin 1) (q : Fin 512) :
    (iblk m c 8 t : Vec F S1x1x512 .f32) (ix3 (0 : Fin 1) p q) = V m c main_v39 (ix3 (bt t) p q) := by
  unfold iblk
  rw [View.read_apply]
  show V m c main_v39 _ = V m c main_v39 _
  refine congrArg _ ?_
  funext a
  apply Fin.ext
  match a with
  | ⟨0, _⟩ => show win0_8.index t 0 * 1 + 1 * 0 = t.val; rw [(idx8 t).1]; omega
  | ⟨1, _⟩ => show win0_8.index t 1 * 1 + 1 * p.val = p.val; rw [(idx8 t).2.1]; omega
  | ⟨2, _⟩ => show win0_8.index t 2 * 512 + 1 * q.val = q.val; rw [(idx8 t).2.2]; omega

theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)

/-- Block t of operand 9 is its array's slab at batch element t. -/
theorem iblk9 (c : Dev nD) (t : Fin cfg0.N) (p : Fin 3) (q : Fin 1) :
    (iblk m c 9 t : Vec F S1x3x1 .f32) (ix3 (0 : Fin 1) p q) = V m c main_v40 (ix3 (bt t) p q) := by
  unfold iblk
  rw [View.read_apply]
  show V m c main_v40 _ = V m c main_v40 _
  refine congrArg _ ?_
  funext a
  apply Fin.ext
  match a with
  | ⟨0, _⟩ => show win0_9.index t 0 * 1 + 1 * 0 = t.val; rw [(idx9 t).1]; omega
  | ⟨1, _⟩ => show win0_9.index t 1 * 3 + 1 * p.val = p.val; rw [(idx9 t).2.1]; omega
  | ⟨2, _⟩ => show win0_9.index t 2 * 1 + 1 * q.val = q.val; rw [(idx9 t).2.2]; omega

theorem idx10 : ∀ t : Fin cfg0.N, win0_10.index t (0 : Fin 3) = t.val ∧ win0_10.index t (1 : Fin 3) = 0 ∧ win0_10.index t (2 : Fin 3) = 0 :=
  (by decide +kernel : ∀ t : Fin grid0.N, win0_10.index t (0 : Fin 3) = t.val ∧ win0_10.index t (1 : Fin 3) = 0 ∧ win0_10.index t (2 : Fin 3) = 0)

/-- Block t of operand 10 is its array's slab at batch element t. -/
theorem iblk10 (c : Dev nD) (t : Fin cfg0.N) (p : Fin 3) (q : Fin 1) :
    (iblk m c 10 t : Vec F S1x3x1 .f32) (ix3 (0 : Fin 1) p q) = V m c main_v41 (ix3 (bt t) p q) := by
  unfold iblk
  rw [View.read_apply]
  show V m c main_v41 _ = V m c main_v41 _
  refine congrArg _ ?_
  funext a
  apply Fin.ext
  match a with
  | ⟨0, _⟩ => show win0_10.index t 0 * 1 + 1 * 0 = t.val; rw [(idx10 t).1]; omega
  | ⟨1, _⟩ => show win0_10.index t 1 * 3 + 1 * p.val = p.val; rw [(idx10 t).2.1]; omega
  | ⟨2, _⟩ => show win0_10.index t 2 * 1 + 1 * q.val = q.val; rw [(idx10 t).2.2]; omega

theorem idx11 : ∀ t : Fin cfg0.N, win0_11.index t (0 : Fin 3) = t.val ∧ win0_11.index t (1 : Fin 3) = 0 ∧ win0_11.index t (2 : Fin 3) = 0 :=
  (by decide +kernel : ∀ t : Fin grid0.N, win0_11.index t (0 : Fin 3) = t.val ∧ win0_11.index t (1 : Fin 3) = 0 ∧ win0_11.index t (2 : Fin 3) = 0)

/-- Block t of operand 11 is its array's slab at batch element t. -/
theorem iblk11 (c : Dev nD) (t : Fin cfg0.N) (p : Fin 32) (q : Fin 128) :
    (iblk m c 11 t : Vec F S1x32x128 .f32) (ix3 (0 : Fin 1) p q) = V m c main_v42 (ix3 (bt t) p q) := by
  unfold iblk
  rw [View.read_apply]
  show V m c main_v42 _ = V m c main_v42 _
  refine congrArg _ ?_
  funext a
  apply Fin.ext
  match a with
  | ⟨0, _⟩ => show win0_11.index t 0 * 1 + 1 * 0 = t.val; rw [(idx11 t).1]; omega
  | ⟨1, _⟩ => show win0_11.index t 1 * 32 + 1 * p.val = p.val; rw [(idx11 t).2.1]; omega
  | ⟨2, _⟩ => show win0_11.index t 2 * 128 + 1 * q.val = q.val; rw [(idx11 t).2.2]; omega

theorem idx12 : ∀ t : Fin cfg0.N, win0_12.index t (0 : Fin 3) = t.val ∧ win0_12.index t (1 : Fin 3) = 0 ∧ win0_12.index t (2 : Fin 3) = 0 :=
  (by decide +kernel : ∀ t : Fin grid0.N, win0_12.index t (0 : Fin 3) = t.val ∧ win0_12.index t (1 : Fin 3) = 0 ∧ win0_12.index t (2 : Fin 3) = 0)

/-- Block t of operand 12 is its array's slab at batch element t. -/
theorem iblk12 (c : Dev nD) (t : Fin cfg0.N) (p : Fin 32) (q : Fin 128) :
    (iblk m c 12 t : Vec F S1x32x128 .f32) (ix3 (0 : Fin 1) p q) = V m c main_v43 (ix3 (bt t) p q) := by
  unfold iblk
  rw [View.read_apply]
  show V m c main_v43 _ = V m c main_v43 _
  refine congrArg _ ?_
  funext a
  apply Fin.ext
  match a with
  | ⟨0, _⟩ => show win0_12.index t 0 * 1 + 1 * 0 = t.val; rw [(idx12 t).1]; omega
  | ⟨1, _⟩ => show win0_12.index t 1 * 32 + 1 * p.val = p.val; rw [(idx12 t).2.1]; omega
  | ⟨2, _⟩ => show win0_12.index t 2 * 128 + 1 * q.val = q.val; rw [(idx12 t).2.2]; omega

end Cert.KernelIdeal.Blocks

end
-- ==== Proof.Spec.lean ====
/-
  The mathematics both programs compute, stated once over plain coordinate functions of ONE batch element.

  A batch element consists of a path of 512 points in three dimensions with a 0/1 weight per point, a target polyline
  of 512 points (511 segments) with a 0/1 weight per point and per segment, the reciprocal scales per dimension, and two
  observation blocks.  Per batch element four numbers are formed: the weighted sum over the path of one minus a
  label in [0,1] (a blend of two Gaussian bumps, one of the distance to the nearest segment, one of the distance to
  the nearest target point), the sum of the weights, a smoothness quotient of the path, and a sum of squared
  differences of the observations.  The four results are quotients and a blend of the sums of these over the batch.
  All values are extended reals.
-/
import Idealize.ShloMosaic.PureOps.Ideal
import Idealize.ShloMosaic.Lib.ValueIdx

noncomputable section

namespace Cert.Spec

open Idealize.ShloMosaic
open scoped BigOperators

/-! ## The literals, as the words both programs print -/

/-- 0.0 -/ abbrev ZERO : EReal := Ideal.ofBits .f32 0x00000000#32
/-- 1.0 -/ abbrev ONE : EReal := Ideal.ofBits .f32 0x3F800000#32
/-- 1e6 -/ abbrev BIG : EReal := Ideal.ofBits .f32 0x49742400#32
/-- -0.5 -/ abbrev NEGHALF : EReal := Ideal.ofBits .f32 0xBF000000#32
/-- +inf -/ abbrev INF : EReal := Ideal.ofBits .f32 0x7F800000#32
/-- the f32 nearest 0.6 -/ abbrev W6 : EReal := Ideal.ofBits .f32 0x3F19999A#32
/-- the f32 nearest 0.4 -/ abbrev W4 : EReal := Ideal.ofBits .f32 0x3ECCCCCD#32
/-- the f32 nearest 1e-8 -/ abbrev EPS : EReal := Ideal.ofBits .f32 0x322BCC77#32
/-- the f32 nearest 0.05 -/ abbrev C005 : EReal := Ideal.ofBits .f32 0x3D4CCCCD#32
/-- 32.0 -/ abbrev C32 : EReal := Ideal.ofBits .f32 0x42000000#32
/-- 131072.0 -/ abbrev C131072 : EReal := Ideal.ofBits .f32 0x48000000#32
/-- the f32 nearest 0.8 -/ abbrev W8 : EReal := Ideal.ofBits .f32 0x3F4CCCCD#32
/-- 0.5 -/ abbrev W5 : EReal := Ideal.ofBits .f32 0x3F000000#32

/-! ## One batch element -/

section Batch

variable (P : Fin 512 → Fin 3 → EReal) (M : Fin 512 → EReal)
  (A S : Fin 3 → Fin 511 → EReal) (I D Q : Fin 511 → EReal)
  (T : Fin 3 → Fin 512 → EReal) (R : Fin 512 → EReal) (L Pt : Fin 3 → EReal)

/-- The weighted path point: coordinate `d` of point `n` times the point's weight. -/
def pc (d : Fin 3) (n : Fin 512) : EReal := P n d * M n

/-- The clipped position of the foot of point `n` on segment `m`: the inner product with the segment direction,
    less the base point's, times the reciprocal squared length, clipped to [0,1]. -/
def foot (n : Fin 512) (m : Fin 511) : EReal :=
  min ONE (max ZERO (((((ZERO + pc P M 0 n * S 0 m) + pc P M 1 n * S 1 m) + pc P M 2 n * S 2 m) - D m) * I m))

/-- One coordinate's scaled offset from the foot, squared. -/
def lineSq (d : Fin 3) (n : Fin 512) (m : Fin 511) : EReal :=
  ((pc P M d n - (A d m + foot P M S I D n m * S d m)) * L d) * ((pc P M d n - (A d m + foot P M S I D n m * S d m)) * L d)

/-- The scaled squared distance from point `n` to segment `m`, pushed out by 1e6 where the segment is switched off. -/
def distLine (n : Fin 512) (m : Fin 511) : EReal :=
  (((ZERO + lineSq P M A S I D L 0 n m) + lineSq P M A S I D L 1 n m) + lineSq P M A S I D L 2 n m) + (ONE - Q m) * BIG

/-- The Gaussian bump of the nearest segment. -/
def labLine (n : Fin 512) : EReal :=
  Ideal.exp (NEGHALF * (Finset.univ : Finset (Fin 511)).fold min INF (fun m => distLine P M A S I D Q L n m))

/-- One coordinate's scaled offset from target point `g`, squared. -/
def pointSq (d : Fin 3) (n g : Fin 512) : EReal :=
  ((pc P M d n - T d g) * Pt d) * ((pc P M d n - T d g) * Pt d)

/-- The scaled squared distance from point `n` to target point `g`, pushed out by 1e6 where the target is switched off. -/
def distPoint (n g : Fin 512) : EReal :=
  (((ZERO + pointSq P M T Pt 0 n g) + pointSq P M T Pt 1 n g) + pointSq P M T Pt 2 n g) + (ONE - R g) * BIG

/-- The Gaussian bump of the nearest target point. -/
def labPoint (n : Fin 512) : EReal :=
  Ideal.exp (NEGHALF * (Finset.univ : Finset (Fin 512)).fold min INF (fun g => distPoint P M T R Pt n g))

/-- The blended label, clipped to [0,1]. -/
def label (n : Fin 512) : EReal :=
  min ONE (max ZERO (W6 * labLine P M A S I D Q L n + W4 * labPoint P M T R Pt n))

/-- The weighted sum over the path of one minus the label. -/
def numer : EReal := ∑ n : Fin 512, (ONE - label P M A S I D Q T R L Pt n) * M n

/-- The sum of the path weights. -/
def denom : EReal := ∑ n : Fin 512, M n

/-- The squared length of the step from path point `n` to point `n + 1` (unweighted coordinates). -/
def stepSq (n : Fin 511) : EReal :=
  ((ZERO + (P n.succ 0 - P n.castSucc 0) * (P n.succ 0 - P n.castSucc 0))
    + (P n.succ 1 - P n.castSucc 1) * (P n.succ 1 - P n.castSucc 1))
    + (P n.succ 2 - P n.castSucc 2) * (P n.succ 2 - P n.castSucc 2)

/-- The weight of a step: the product of its two end points' weights. -/
def stepW (n : Fin 511) : EReal := M n.succ * M n.castSucc

/-- The smoothness quotient: the weighted sum of squared steps over the sum of the step weights plus 1e-8. -/
def smooth : EReal :=
  Ideal.div (∑ n : Fin 511, stepSq P n * stepW M n) ((∑ n : Fin 511, stepW M n) + EPS)

end Batch

/-- The sum of squared differences of two 32 by 128 blocks. -/
def cae (O1 O2 : Fin 32 → Fin 128 → EReal) : EReal :=
  ∑ r : Fin 32, ∑ l : Fin 128, (O1 r l - O2 r l) * (O1 r l - O2 r l)

/-! ## The batch elements' data from the argument arrays -/

section Operands

/-- A one-bit word as the number 0 or 1. -/
def bit (w : BitVec 1) : EReal := ((w.toNat : ℝ) : EReal)

variable (a0 : Fin 32 → Fin 512 → Fin 3 → EReal) (pb : Fin 32 → Fin 512 → BitVec 1)
  (a2 : Fin 32 → Fin 512 → Fin 3 → EReal) (tb : Fin 32 → Fin 512 → BitVec 1) (E : Fin 32 → Fin 3 → EReal)
  (a : Fin 32 → Fin 1024 → Fin 4 → EReal)

/-- The path points of batch element `b`. -/
def opP (b : Fin 32) : Fin 512 → Fin 3 → EReal := fun n d => a0 b n d
/-- The path weights: the mask bits as numbers. -/
def opM (b : Fin 32) : Fin 512 → EReal := fun n => bit (pb b n)
/-- The segments' base points: target points 0 … 510, dimension first. -/
def opA (b : Fin 32) : Fin 3 → Fin 511 → EReal := fun d m => a2 b m.castSucc d
/-- The segments' directions: each target point less its predecessor. -/
def opS (b : Fin 32) : Fin 3 → Fin 511 → EReal := fun d m => a2 b m.succ d - a2 b m.castSucc d
/-- The reciprocal squared segment lengths, the length floored at 1e-8. -/
def opI (b : Fin 32) : Fin 511 → EReal := fun m =>
  Ideal.div ONE (max (ZERO + ∑ k : Fin 3, opS a2 b k m * opS a2 b k m) EPS)
/-- The base points' inner products with the directions. -/
def opD (b : Fin 32) : Fin 511 → EReal := fun m => ZERO + ∑ k : Fin 3, opA a2 b k m * opS a2 b k m
/-- A segment counts when both its end points do. -/
def opQ (b : Fin 32) : Fin 511 → EReal := fun m => bit (tb b m.castSucc &&& tb b m.succ)
/-- The target points, dimension first. -/
def opT (b : Fin 32) : Fin 3 → Fin 512 → EReal := fun d g => a2 b g d
/-- The target weights. -/
def opR (b : Fin 32) : Fin 512 → EReal := fun g => bit (tb b g)
/-- The reciprocal scale per dimension: one over a twentieth of the path's extent `E`, floored at 1e-8. -/
def opL (b : Fin 32) : Fin 3 → EReal := fun d => Ideal.div ONE (max (C005 * E b d) EPS)
/-- An observation block as 32 rows of 128: entry (r, l) is entry r·128 + l of the flattened 1024 by 4 block. -/
def opO (b : Fin 32) : Fin 32 → Fin 128 → EReal := fun r l =>
  a b ⟨(r.val * 128 + l.val) / 4, by have := r.isLt; have := l.isLt; omega⟩ ⟨(r.val * 128 + l.val) % 4, Nat.mod_lt _ (by norm_num)⟩

/-- The batch sum of the label numerators. -/
def NUM : EReal := ∑ b : Fin 32, numer (opP a0 b) (opM pb b) (opA a2 b) (opS a2 b) (opI a2 b) (opD a2 b) (opQ tb b)
  (opT a2 b) (opR tb b) (opL E b) (opL E b)
/-- The batch sum of the path weights. -/
def DEN : EReal := ∑ b : Fin 32, denom (opM pb b)
/-- The batch sum of the smoothness quotients. -/
def SM : EReal := ∑ b : Fin 32, smooth (opP a0 b) (opM pb b)

end Operands

/-- The batch sum of the squared observation differences. -/
def CAE (a4 a5 : Fin 32 → Fin 1024 → Fin 4 → EReal) : EReal := ∑ b : Fin 32, cae (opO a4 b) (opO a5 b)

/-! ## The four results from the four sums over the batch -/

/-- The path loss. -/ def lossPath (num den : EReal) : EReal := Ideal.div num den
/-- The smoothness loss. -/ def lossSmooth (sm : EReal) : EReal := Ideal.div sm C32
/-- The reconstruction loss. -/ def lossCae (ca : EReal) : EReal := Ideal.div ca C131072
/-- The total. -/ def total (num den sm ca : EReal) : EReal :=
  (W8 * lossSmooth sm + lossPath num den) + W5 * lossCae ca

end Cert.Spec

end
-- ==== Proof.LibColSum.lean ====
/-
  A column sum read at an index, on the extended reals: the sum over axis 0 of an [a, k] array at column `q` is the
  sum over the rows `p` of the entry `(p, q)`. Stated for the kernel's `vector.multi_reduction <add>` from the zero
  word (which yields the vector [k]) and for the host's `stablehlo.reduce` with an `add` body from a scalar initial
  value (which adds that value once). This is the axis-0 companion of a lane (axis-1) sum: the form a batch
  statistic over the rows of a block, or of the whole array, takes.
-/
import Idealize.ShloMosaic.PureOps.Ideal.Laws
import Idealize.ShloMosaic.Lib.ValueIdx

noncomputable section

namespace Cert.ColSum

open Idealize.ShloMosaic Idealize.ShloMosaic.ValueIdx

/-- The index that a column sum reads at row `p`: column `q` with the row coordinate inserted in front. -/
theorem lift_eq {a k : Nat} (h : Shape.Reduces ⟨2, ![a, k]⟩ [0] ⟨1, ![k]⟩) (q : Fin k) (p : Fin a) :
    h.lift (ix1 q) p = ix2 p q := by
  funext d
  refine Fin.ext ?_
  match d with
  | ⟨0, _⟩ => rfl
  | ⟨1, _⟩ => rfl

/-- A `vector.multi_reduction <add>` over axis 0 of an [a, k] f32 block from the zero word, at column `q`. -/
theorem colSum_apply {a k : Nat} (src : FVec Ideal ⟨2, ![a, k]⟩ .f32) (h : Shape.Reduces ⟨2, ![a, k]⟩ [0] ⟨1, ![k]⟩)
    (hφ : FKind.Formats .f32) (hacc : (0x00000000#32 : BitVec 32) = FKind.add.neutral .f32 hφ) (q : Fin k) :
    multiReduction .add [0] ⟨1, ![k]⟩ src 0x00000000#32 h hφ hacc (ix1 q) = ∑ p : Fin a, src (ix2 p q) := by
  refine (Ideal.multiReduction_add_single src _ h hφ hacc (ix1 q)).trans ?_
  exact Fintype.sum_congr _ _ fun p => congrArg src (lift_eq h q p)

/-- The host's sum over axis 0 of an [a, k] array from the initial value `init`, at column `q`. -/
theorem hostColSum_apply {a k : Nat} (x : (⟨2, ![a, k]⟩ : Shape).Idx → EReal)
    (h' : Shape.ReducesTo ⟨2, ![a, k]⟩ [0] ⟨1, ![k]⟩) (h : Shape.Reduces ⟨2, ![a, k]⟩ [0] ⟨1, ![k]⟩) (init : EReal)
    (q : Fin k) :
    Ideal.hostReduceAdd h' x init (ix1 q) = init + ∑ p : Fin a, x (ix2 p q) := by
  refine (Ideal.hostReduceAdd_single h' h x init (ix1 q)).trans ?_
  exact congrArg (init + ·) (Fintype.sum_congr _ _ fun p => congrArg x (lift_eq h q p))

/-- The printed form of the host's sum: `Host.reduceAdd` of an [a, k] array and a scalar initial value over axis 0, at
    column `q`, is the scalar plus the sum over the rows. -/
theorem hostReduceAdd_col_apply {a k : Nat} (x : FVec Ideal ⟨2, ![a, k]⟩ .f32) (init : FVec Ideal ⟨0, ![]⟩ .f32)
    (h' : Shape.ReducesTo ⟨2, ![a, k]⟩ [0] ⟨1, ![k]⟩) (hu : 0 < (⟨0, ![]⟩ : Shape).numel)
    (h : Shape.Reduces ⟨2, ![a, k]⟩ [0] ⟨1, ![k]⟩) (q : Fin k) :
    Host.reduceAdd x init h' hu (ix1 q) = init ix0 + ∑ p : Fin a, x (ix2 p q) := by
  refine (hostColSum_apply x h' h _ q).trans ?_
  exact congrArg (· + ∑ p : Fin a, x (ix2 p q)) (congrArg init (funext fun d => d.elim0))

end Cert.ColSum
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.KSmall.lean ====
/-
  The three small per-point numbers and the accumulator update of the kernel's body, read at an index.
-/
import proofs.«159981_j34763465294043_2_alg».proof.Proof.Body
import proofs.«159981_j34763465294043_2_alg».proof.Proof.Spec
import Idealize.ShloMosaic.Lib.ValueIdx
import Idealize.ShloMosaic.Lib.Pipeline.Value
import Idealize.ShloMosaic.Lib.WordArith
import Idealize.ShloMosaic.PureOps.Ideal.Laws
import proofs.«159981_j34763465294043_2_alg».proof.Proof.LibColSum
import proofs.«159981_j34763465294043_2_alg».proof.Proof.LibLaneSum

noncomputable section

namespace Cert.KernelIdeal.KSmall

open Cert.KernelIdeal Cert.KernelIdeal.Gen Idealize.ShloMosaic Idealize.ShloMosaic.ValueIdx
open scoped BigOperators

/-! ## The accumulator update -/

/-- Two naturals below 2^32 are equal exactly when their 32-bit words are. -/
theorem ofNat32_eq_iff (a b : Nat) (ha : a < 2 ^ 32) (hb : b < 2 ^ 32) :
    (BitVec.ofNat 32 a = BitVec.ofNat 32 b) ↔ a = b := by
  constructor
  · intro h
    have h' := congrArg BitVec.toNat h
    simp only [BitVec.toNat_ofNat] at h'
    rw [Nat.mod_eq_of_lt ha, Nat.mod_eq_of_lt hb] at h'
    exact h'
  · rintro rfl; rfl

/-- A select on "row 0 and lane c" is the `if`. -/
theorem select_row0_lane {α : Type} (r : Fin 8) (l : Fin 128) (c : Nat) (hc : c < 128) (a b : α) :
    Scalar.select (IntOp.andi (IntOp.cmpi .eq (BitVec.ofNat 32 r.val) (BitVec.ofNat 32 0))
        (IntOp.cmpi .eq (BitVec.ofNat 32 l.val) (BitVec.ofNat 32 c))) a b
      = if r.val = 0 ∧ l.val = c then a else b := by
  have hr := r.isLt
  have hl := l.isLt
  have key : (IntOp.andi (IntOp.cmpi .eq (BitVec.ofNat 32 r.val) (BitVec.ofNat 32 0))
        (IntOp.cmpi .eq (BitVec.ofNat 32 l.val) (BitVec.ofNat 32 c)) = 1#1) ↔ (r.val = 0 ∧ l.val = c) := by
    show (IntOp.andi (BitVec.ofBool (BitVec.ofNat 32 r.val == BitVec.ofNat 32 0))
        (BitVec.ofBool (BitVec.ofNat 32 l.val == BitVec.ofNat 32 c)) = 1#1) ↔ _
    rw [WordArith.andi_ofBool, WordArith.ofBool_eq_one_iff, Bool.and_eq_true, beq_iff_eq, beq_iff_eq,
      ofNat32_eq_iff _ _ (by omega) (by omega), ofNat32_eq_iff _ _ (by omega) (by omega)]
  show (if _ = 1#1 then a else b) = _
  by_cases h : r.val = 0 ∧ l.val = c
  · rw [if_pos h, if_pos (key.2 h)]
  · rw [if_neg h, if_neg (fun h' => h (key.1 h'))]

/-- The row number of the 8 by 128 tile. -/
theorem iota0_apply (r : Fin 8) (l : Fin 128) :
    iota .tc S8x128 32 [0] iota_S8x128_d0_w32 (ix2 r l) = BitVec.ofNat 32 r.val :=
  iota_single_apply .tc S8x128 32 0 iota_S8x128_d0_w32 (ix2 r l)

/-- The lane number of the 8 by 128 tile. -/
theorem iota1_apply (r : Fin 8) (l : Fin 128) :
    iota .tc S8x128 32 [1] iota_S8x128_d1_w32 (ix2 r l) = BitVec.ofNat 32 l.val :=
  iota_single_apply .tc S8x128 32 1 iota_S8x128_d1_w32 (ix2 r l)

/-- A 1 by 1 value spread over the tile is its one entry everywhere. -/
theorem bcast11_apply {α : Type} (v : S1x1.Idx → α) (r : Fin 8) (l : Fin 128) :
    broadcastTo S8x128 v broadcasts_S1x1_S8x128 (ix2 r l) = v (ix2 0 0) :=
  broadcastTo_apply v broadcasts_S1x1_S8x128 (ix2 r l) (ix2 0 0)
    (fun a => match a with | ⟨0, _⟩ => rfl | ⟨1, _⟩ => rfl)

theorem vAcc_apply (num den sm ca : FVec Ideal S1x1 .f32) (acc : Vec Ideal S8x128 .f32) (r : Fin 8) (l : Fin 128) :
    Body.vAcc (F := Ideal) num den sm ca acc (ix2 r l) = acc (ix2 r l) + (if r.val = 0 ∧ l.val = 0 then num (ix2 0 0) else if r.val = 0 ∧ l.val = 1 then den (ix2 0 0) else if r.val = 0 ∧ l.val = 2 then sm (ix2 0 0) else if r.val = 0 ∧ l.val = 3 then ca (ix2 0 0) else 0) := by
  unfold Body.vAcc k0_pay1 k0_pay32 k0_pay31 k0_pay33
  simp only [shapeCast_self]
  simp only [addf_apply, select_apply, andi, cmpi, bcast11_apply, broadcast_apply]
  rw [iota0_apply, iota1_apply, select_row0_lane r l 3 (by omega), select_row0_lane r l 2 (by omega),
    select_row0_lane r l 1 (by omega), select_row0_lane r l 0 (by omega)]
  have hz : (FloatOps.ofBits FTy.f32 0#32 : Ideal .f32) = 0 := Ideal.ofBits_zero_f32
  rw [hz]
  congr 1
  split_ifs <;> first | rfl | (exfalso; omega)

/-! ## Layout readings -/

/-- A [1, n, k] block viewed [n, k]. -/
theorem dropUnit3_apply {α : Type} {n k : Nat} (v : (⟨3, ![1, n, k]⟩ : Shape).Idx → α)
    (h : (⟨3, ![1, n, k]⟩ : Shape).ShapeCasts ⟨2, ![n, k]⟩) (p : Fin n) (q : Fin k) :
    shapeCast ⟨2, ![n, k]⟩ v h (ix2 p q) = v (ix3 0 p q) := by
  refine (shapeCast_dropUnit_apply ![n, k] v h (ix2 p q)).trans ?_
  exact congrArg v (funext fun a => match a with | ⟨0, _⟩ => rfl | ⟨1, _⟩ => rfl | ⟨2, _⟩ => rfl)

/-- A one-entry vector viewed 1 by 1. -/
theorem addUnit1_apply {α : Type} (v : (⟨1, ![1]⟩ : Shape).Idx → α)
    (h : (⟨1, ![1]⟩ : Shape).ShapeCasts ⟨2, ![1, 1]⟩) :
    shapeCast ⟨2, ![1, 1]⟩ v h (ix2 0 0) = v (ix1 0) := by
  refine (shapeCast_addUnit_apply ![1] v h (ix2 0 0)).trans ?_
  exact congrArg v (funext fun a => match a with | ⟨0, _⟩ => rfl)

/-- A vector viewed as a column. -/
theorem col_apply {α : Type} {n : Nat} (v : (⟨1, ![n]⟩ : Shape).Idx → α)
    (h : (⟨1, ![n]⟩ : Shape).ShapeCasts ⟨2, ![n, 1]⟩) (p : Fin n) :
    shapeCast ⟨2, ![n, 1]⟩ v h (ix2 p 0) = v (ix1 p) := by
  refine shapeCast_apply v h (ix2 p 0) (ix1 p) ?_
  rw [Shape.rowMajor_val_one, Shape.rowMajor_val_two]
  show p.val = p.val * 1 + 0
  omega

/-- Rows 1 … 511 of a column. -/
theorem slice_succ_apply {α : Type} (v : S512x1.Idx → α) (n : Fin 511) :
    extractStridedSlice S511x1 ![1, 0] v slices_S512x1_o1_0_S511x1 (ix2 n 0) = v (ix2 n.succ 0) :=
  extractStridedSlice_apply ![1, 0] v slices_S512x1_o1_0_S511x1 (ix2 n 0) (ix2 n.succ 0)
    (fun a => match a with
      | ⟨0, _⟩ => by show n.val + 1 = 1 + n.val; omega
      | ⟨1, _⟩ => by show (0 : Nat) = 0 + 0; rfl)

/-- Rows 0 … 510 of a column. -/
theorem slice_castSucc_apply {α : Type} (v : S512x1.Idx → α) (n : Fin 511) :
    extractStridedSlice S511x1 ![0, 0] v slices_S512x1_o0_0_S511x1 (ix2 n 0) = v (ix2 n.castSucc 0) :=
  extractStridedSlice_apply ![0, 0] v slices_S512x1_o0_0_S511x1 (ix2 n 0) (ix2 n.castSucc 0)
    (fun a => match a with
      | ⟨0, _⟩ => by show n.val = 0 + n.val; omega
      | ⟨1, _⟩ => by show (0 : Nat) = 0 + 0; rfl)

/-- The path weights as a column. -/
theorem pay5_apply (x1 : Vec Ideal S1x512x1 .f32) (n : Fin 512) :
    k0_pay5 (F := Ideal) x1 (ix2 n 0) = x1 (ix3 0 n 0) :=
  dropUnit3_apply x1 shapeCasts_S1x512x1_S512x1 n 0

/-- Coordinate 0 of the path points as a column. -/
theorem pay9_apply (x0 : Vec Ideal S1x512x3 .f32) (n : Fin 512) :
    k0_pay9 (F := Ideal) x0 (ix2 n 0) = x0 (ix3 0 n 0) := by
  show extractStridedSlice S512x1 ![0, 0] (shapeCast S512x3 x0 shapeCasts_S1x512x3_S512x3) slices_S512x3_o0_0_S512x1 (ix2 n 0) = _
  refine (extractStridedSlice_apply ![0, 0] _ slices_S512x3_o0_0_S512x1 (ix2 n 0) (ix2 n 0) (fun a => match a with
    | ⟨0, _⟩ => by show n.val = 0 + n.val; omega
    | ⟨1, _⟩ => by show (0 : Nat) = 0 + 0; rfl)).trans ?_
  exact dropUnit3_apply x0 shapeCasts_S1x512x3_S512x3 n 0

/-- Coordinate 1 of the path points as a column. -/
theorem pay10_apply (x0 : Vec Ideal S1x512x3 .f32) (n : Fin 512) :
    k0_pay10 (F := Ideal) x0 (ix2 n 0) = x0 (ix3 0 n 1) := by
  show extractStridedSlice S512x1 ![0, 1] (shapeCast S512x3 x0 shapeCasts_S1x512x3_S512x3) slices_S512x3_o0_1_S512x1 (ix2 n 0) = _
  refine (extractStridedSlice_apply ![0, 1] _ slices_S512x3_o0_1_S512x1 (ix2 n 0) (ix2 n 1) (fun a => match a with
    | ⟨0, _⟩ => by show n.val = 0 + n.val; omega
    | ⟨1, _⟩ => by show (1 : Nat) = 1 + 0; rfl)).trans ?_
  exact dropUnit3_apply x0 shapeCasts_S1x512x3_S512x3 n 1

/-- Coordinate 2 of the path points as a column. -/
theorem pay11_apply (x0 : Vec Ideal S1x512x3 .f32) (n : Fin 512) :
    k0_pay11 (F := Ideal) x0 (ix2 n 0) = x0 (ix3 0 n 2) := by
  show extractStridedSlice S512x1 ![0, 2] (shapeCast S512x3 x0 shapeCasts_S1x512x3_S512x3) slices_S512x3_o0_2_S512x1 (ix2 n 0) = _
  refine (extractStridedSlice_apply ![0, 2] _ slices_S512x3_o0_2_S512x1 (ix2 n 0) (ix2 n 2) (fun a => match a with
    | ⟨0, _⟩ => by show n.val = 0 + n.val; omega
    | ⟨1, _⟩ => by show (2 : Nat) = 2 + 0; rfl)).trans ?_
  exact dropUnit3_apply x0 shapeCasts_S1x512x3_S512x3 n 2

/-! ## The three numbers -/

theorem vDen_apply (x1 : Vec Ideal S1x512x1 .f32) : Body.vDen (F := Ideal) x1 (ix2 0 0) = Cert.Spec.denom (fun n => x1 (ix3 0 n 0)) := by
  unfold Body.vDen k0_pay27
  refine (addUnit1_apply _ shapeCasts_S1_S1x1).trans ?_
  refine (Cert.ColSum.colSum_apply _ reduces_S512x1_S1 (.inl rfl) rfl 0).trans ?_
  unfold Cert.Spec.denom
  exact Fintype.sum_congr _ _ fun n => pay5_apply x1 n

theorem vCae_apply (x11 x12 : Vec Ideal S1x32x128 .f32) : Body.vCae (F := Ideal) x11 x12 (ix2 0 0) = Cert.Spec.cae (fun r l => x11 (ix3 0 r l)) (fun r l => x12 (ix3 0 r l)) := by
  unfold Body.vCae k0_pay30
  refine (addUnit1_apply _ shapeCasts_S1_S1x1).trans ?_
  refine (Cert.ColSum.colSum_apply _ reduces_S32x1_S1 (.inl rfl) rfl 0).trans ?_
  unfold Cert.Spec.cae
  refine Fintype.sum_congr _ _ fun r => ?_
  refine (col_apply _ shapeCasts_S32_S32x1 r).trans ?_
  refine (Cert.LaneSum.laneSum_apply _ reduces_S32x128_S32 (.inl rfl) rfl r).trans ?_
  refine Fintype.sum_congr _ _ fun l => ?_
  show (shapeCast S32x128 x11 shapeCasts_S1x32x128_S32x128 (ix2 r l) - shapeCast S32x128 x12 shapeCasts_S1x32x128_S32x128 (ix2 r l))
      * (shapeCast S32x128 x11 shapeCasts_S1x32x128_S32x128 (ix2 r l) - shapeCast S32x128 x12 shapeCasts_S1x32x128_S32x128 (ix2 r l)) = _
  rw [dropUnit3_apply x11 shapeCasts_S1x32x128_S32x128 r l, dropUnit3_apply x12 shapeCasts_S1x32x128_S32x128 r l]

/-- A squared step of one coordinate column. -/
theorem stepSq1_apply (v : FVec Ideal S512x1 .f32) (n : Fin 511) :
    mulf (subf (extractStridedSlice S511x1 ![1, 0] v slices_S512x1_o1_0_S511x1) (extractStridedSlice S511x1 ![0, 0] v slices_S512x1_o0_0_S511x1))
        (subf (extractStridedSlice S511x1 ![1, 0] v slices_S512x1_o1_0_S511x1) (extractStridedSlice S511x1 ![0, 0] v slices_S512x1_o0_0_S511x1)) (ix2 n 0)
      = (v (ix2 n.succ 0) - v (ix2 n.castSucc 0)) * (v (ix2 n.succ 0) - v (ix2 n.castSucc 0)) := by
  show (extractStridedSlice S511x1 ![1, 0] v slices_S512x1_o1_0_S511x1 (ix2 n 0) - extractStridedSlice S511x1 ![0, 0] v slices_S512x1_o0_0_S511x1 (ix2 n 0))
      * (extractStridedSlice S511x1 ![1, 0] v slices_S512x1_o1_0_S511x1 (ix2 n 0) - extractStridedSlice S511x1 ![0, 0] v slices_S512x1_o0_0_S511x1 (ix2 n 0)) = _
  rw [slice_succ_apply, slice_castSucc_apply]

/-- A step's weight from the weight column. -/
theorem stepW_apply (v : FVec Ideal S512x1 .f32) (n : Fin 511) :
    mulf (extractStridedSlice S511x1 ![1, 0] v slices_S512x1_o1_0_S511x1) (extractStridedSlice S511x1 ![0, 0] v slices_S512x1_o0_0_S511x1) (ix2 n 0)
      = v (ix2 n.succ 0) * v (ix2 n.castSucc 0) := by
  show extractStridedSlice S511x1 ![1, 0] v slices_S512x1_o1_0_S511x1 (ix2 n 0) * extractStridedSlice S511x1 ![0, 0] v slices_S512x1_o0_0_S511x1 (ix2 n 0) = _
  rw [slice_succ_apply, slice_castSucc_apply]

theorem vSmooth_apply (x0 : Vec Ideal S1x512x3 .f32) (x1 : Vec Ideal S1x512x1 .f32) : Body.vSmooth (F := Ideal) x0 x1 (ix2 0 0) = Cert.Spec.smooth (fun n d => x0 (ix3 0 n d)) (fun n => x1 (ix3 0 n 0)) := by
  unfold Body.vSmooth k0_pay29 k0_pay28
  unfold Cert.Spec.smooth
  refine (divf_apply _ _ _).trans ?_
  congr 1
  · refine (addUnit1_apply _ shapeCasts_S1_S1x1).trans ?_
    refine (Cert.ColSum.colSum_apply _ reduces_S511x1_S1 (.inl rfl) rfl 0).trans ?_
    refine Fintype.sum_congr _ _ fun n => ?_
    refine (mulf_apply _ _ _).trans ?_
    congr 1
    · refine (addf_apply _ _ _).trans ?_
      rw [stepSq1_apply]
      refine congrArg₂ (· + ·) ?_ ?_
      · refine (addf_apply _ _ _).trans ?_
        rw [stepSq1_apply]
        refine congrArg₂ (· + ·) ?_ ?_
        · refine (addf_apply _ _ _).trans ?_
          rw [stepSq1_apply, pay9_apply, pay9_apply]
          rfl
        · rw [pay10_apply, pay10_apply]
      · rw [pay11_apply, pay11_apply]
    · rw [stepW_apply, pay5_apply, pay5_apply]
      rfl
  · refine (addf_apply _ _ _).trans ?_
    refine congrArg₂ (· + ·) ?_ rfl
    refine (addUnit1_apply _ shapeCasts_S1_S1x1).trans ?_
    refine (Cert.ColSum.colSum_apply _ reduces_S511x1_S1 (.inl rfl) rfl 0).trans ?_
    refine Fintype.sum_congr _ _ fun n => ?_
    rw [stepW_apply, pay5_apply, pay5_apply]
    rfl

end Cert.KernelIdeal.KSmall

end
-- ==== Proof.Acc.lean ====
/-
  The accumulator across the grid: each of the two cores runs through sixteen batch elements; at its first point the
  accumulator is zeroed, every point adds its tile, and the core's last point copies the accumulator to the core's
  output block.  So entries (0,0) … (0,3) of output block k hold the sums over batch elements 16k … 16k+15 of the four
  per-element numbers, and every other entry is zero.
-/
import proofs.«159981_j34763465294043_2_alg».proof.Proof.Pieces
import proofs.«159981_j34763465294043_2_alg».proof.Proof.Blocks
import proofs.«159981_j34763465294043_2_alg».proof.Proof.KSmall

noncomputable section

namespace Cert.KernelIdeal.Acc

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ)

/-- The label numerator of grid point t's batch element, as the body computes it from the point's blocks. -/
def num (c : Dev nD) (t : Fin cfg0.N) : FVec Ideal S1x1 .f32 :=
  Body.vNum (iblk m c 0 t) (iblk m c 1 t) (iblk m c 2 t) (iblk m c 3 t) (iblk m c 4 t) (iblk m c 5 t) (iblk m c 6 t)
    (iblk m c 7 t) (iblk m c 8 t) (iblk m c 9 t) (iblk m c 10 t)
/-- Its weight sum. -/
def den (c : Dev nD) (t : Fin cfg0.N) : FVec Ideal S1x1 .f32 := Body.vDen (iblk m c 1 t)
/-- Its smoothness quotient. -/
def smo (c : Dev nD) (t : Fin cfg0.N) : FVec Ideal S1x1 .f32 := Body.vSmooth (iblk m c 0 t) (iblk m c 1 t)
/-- Its squared observation error. -/
def cae (c : Dev nD) (t : Fin cfg0.N) : FVec Ideal S1x1 .f32 := Body.vCae (iblk m c 11 t) (iblk m c 12 t)

/-- One point's update of the accumulator. -/
def step (c : Dev nD) (t : Fin cfg0.N) (acc : Vec Ideal S8x128 .f32) : FVec Ideal S8x128 .f32 :=
  Body.vAcc (num m c t) (den m c t) (smo m c t) (cae m c t) acc

/-- The accumulator after point n: restarted from zeros at each core's first point. -/
def accAt (c : Dev nD) : (n : ℕ) → n < cfg0.N → FVec Ideal S8x128 .f32
  | 0, h => step m c ⟨0, h⟩ (k0_pay3 (F := Ideal))
  | n + 1, h => if (n + 1) % 16 = 0 then step m c ⟨n + 1, h⟩ (k0_pay3 (F := Ideal))
      else step m c ⟨n + 1, h⟩ (accAt c n (Nat.lt_of_succ_lt h))

/-- What the run leaves in the carried accumulator after point n is that. -/
theorem outsAt_snd (c : Dev nD) : ∀ (n : ℕ) (h : n < cfg0.N), (outsAt0 m c n h).2 = accAt m c n h
  | 0, h => by
    rw [outsAt0_A m c ⟨0, h⟩ rfl (by show ¬ 0 % 16 = 15; decide)]
    dsimp only
    rw [Pieces.sout_A]
    rfl
  | n + 1, h => by
    have hN : cfg0.N = 32 := N_0
    by_cases h0 : (n + 1) % 16 = 0
    · rw [outsAt0_A m c ⟨n + 1, h⟩ h0 (by dsimp only; omega)]
      dsimp only
      rw [accAt, if_pos h0, Pieces.sout_A]
      rfl
    · rw [accAt, if_neg h0]
      by_cases h1 : (n + 1) % 16 = 15
      · rw [outsAt0_C m c ⟨n + 1, h⟩ h0 h1]
        dsimp only
        rw [Pieces.sout_C]
        show Body.vAcc _ _ _ _ (outsAt0 m c n _).2 = _
        rw [outsAt_snd c n]
        rfl
      · rw [outsAt0_B m c ⟨n + 1, h⟩ h0 h1]
        dsimp only
        rw [Pieces.sout_B]
        show Body.vAcc _ _ _ _ (outsAt0 m c n _).2 = _
        rw [outsAt_snd c n]
        rfl

/-- At a core's last point the output block receives a copy of the accumulator. -/
theorem outsAt_fst (c : Dev nD) (t : Fin cfg0.N) (h1 : t.val % 16 = 15) :
    (outsAt0 m c t.val t.isLt).1 = k0_pay2 (F := Ideal) (accAt m c t.val t.isLt) := by
  have hN : cfg0.N = 32 := N_0
  obtain ⟨n, hn⟩ := t
  cases n with
  | zero => exact absurd h1 (by show ¬ 0 % 16 = 15; decide)
  | succ n =>
    have h0 : ¬(n + 1) % 16 = 0 := by dsimp only at h1; omega
    rw [outsAt0_C m c ⟨n + 1, hn⟩ h0 h1]
    dsimp only
    rw [Pieces.out_C]
    rw [accAt, if_neg h0]
    show k0_pay2 (F := Ideal) (Body.vAcc _ _ _ _ (outsAt0 m c n _).2) = _
    rw [outsAt_snd m c n]
    rfl

/-! ## Entry by entry -/

/-- The tile of point t: its four numbers in entries (0,0) … (0,3), zero elsewhere. -/
def tile (c : Dev nD) (t : Fin cfg0.N) (r : Fin 8) (l : Fin 128) : EReal :=
  if r.val = 0 ∧ l.val = 0 then num m c t (ix2 0 0) else if r.val = 0 ∧ l.val = 1 then den m c t (ix2 0 0)
  else if r.val = 0 ∧ l.val = 2 then smo m c t (ix2 0 0) else if r.val = 0 ∧ l.val = 3 then cae m c t (ix2 0 0) else 0

/-- The same at any natural number: zero beyond the grid. -/
def tileN (c : Dev nD) (k : ℕ) (r : Fin 8) (l : Fin 128) : EReal :=
  if h : k < cfg0.N then tile m c ⟨k, h⟩ r l else 0

theorem tileN_of_lt (c : Dev nD) (k : ℕ) (h : k < cfg0.N) (r : Fin 8) (l : Fin 128) :
    tileN m c k r l = tile m c ⟨k, h⟩ r l := dif_pos h

theorem step_apply (c : Dev nD) (t : Fin cfg0.N) (acc : Vec Ideal S8x128 .f32) (r : Fin 8) (l : Fin 128) :
    step m c t acc (ix2 r l) = acc (ix2 r l) + tile m c t r l :=
  KSmall.vAcc_apply (num m c t) (den m c t) (smo m c t) (cae m c t) acc r l

theorem zeros_apply (r : Fin 8) (l : Fin 128) : k0_pay3 (F := Ideal) (ix2 r l) = 0 :=
  Ideal.ofBits_zero_f32

/-- After point n the accumulator holds, entry by entry, the sum of the tiles of its core's points so far. -/
theorem accAt_apply (c : Dev nD) (r : Fin 8) (l : Fin 128) : ∀ (n : ℕ) (h : n < cfg0.N),
    accAt m c n h (ix2 r l) = ∑ k ∈ Finset.Ico (n - n % 16) (n + 1), tileN m c k r l
  | 0, h => by
    rw [accAt, step_apply, zeros_apply, zero_add]
    simp [tileN_of_lt m c 0 h]
  | n + 1, h => by
    by_cases h0 : (n + 1) % 16 = 0
    · rw [accAt, if_pos h0, step_apply, zeros_apply, zero_add, h0, Nat.sub_zero, Nat.Ico_succ_singleton, Finset.sum_singleton,
        tileN_of_lt m c (n + 1) h]
    · rw [accAt, if_neg h0, step_apply, accAt_apply c r l n (Nat.lt_of_succ_lt h)]
      have e : n + 1 - (n + 1) % 16 = n - n % 16 := by omega
      rw [e, Finset.sum_Ico_succ_top (by omega : n - n % 16 ≤ n + 1), tileN_of_lt m c (n + 1) h]

end Cert.KernelIdeal.Acc

end
-- ==== Proof.Final.lean ====
/-
  The output array after the run: each core's last grid point writes the core's accumulator into the core's block, so
  entry (k, r, l) of the 2 by 8 by 128 array is the sum of the tiles of batch elements 16k … 16k+15 at (r, l).
-/
import proofs.«159981_j34763465294043_2_alg».proof.Proof.Acc

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- Block k's entry (r, l): the sum of the tiles of the sixteen batch elements of core k. -/
def G (c : Dev nD) : FVec Ideal S2x8x128 .f32 := fun i =>
  ∑ k ∈ Finset.Ico (16 * (i 0).val) (16 * (i 0).val + 16),
    Acc.tileN m c k (⟨(i 1).val, (i 1).isLt⟩ : Fin 8) (⟨(i 2).val, (i 2).isLt⟩ : Fin 128)

theorem idx13 : ∀ t : Fin cfg0.N, win0_13.index t (0 : Fin 3) = t.val / 16 ∧ win0_13.index t (1 : Fin 3) = 0 ∧ win0_13.index t (2 : Fin 3) = 0 :=
  (by decide +kernel : ∀ t : Fin grid0.N, win0_13.index t (0 : Fin 3) = t.val / 16 ∧ win0_13.index t (1 : Fin 3) = 0 ∧ win0_13.index t (2 : Fin 3) = 0)

/-- The output block copy read at an entry. -/
theorem copy_apply (A : FVec Ideal S8x128 .f32) (y : S1x8x128.Idx) :
    k0_pay2 (F := Ideal) A y = A (ix2 (⟨(y 1).val, (y 1).isLt⟩ : Fin 8) (⟨(y 2).val, (y 2).isLt⟩ : Fin 128)) := by
  unfold k0_pay2
  refine (shapeCast_addUnit_apply ![8, 128] A shapeCasts_S8x128_S1x8x128 y).trans ?_
  exact congrArg A (funext fun a => by match a with | ⟨0, _⟩ => rfl | ⟨1, _⟩ => rfl)

/-- What a core's last point writes back is its block of `G`. -/
theorem flushed_eq (c : Dev nD) (t : Fin cfg0.N) (hf : (cfg0.win 13).flush t = true) :
    (dats m 0 c).flushed 13 t = ((cfg0.win 13).blk t).view.read (Elt Ideal) (G m c) := by
  have h15 : t.val % 16 = 15 := (flush0_13 t).mp hf
  have hN : t.val < 32 := lt_of_lt_of_eq t.isLt (show cfg0.N = 32 from N_0)
  show (cfg0.win 13).cut (grid0.coords t) ((dats m 0 c).after 13 t) = _
  rw [after0_13, Acc.outsAt_fst m c t h15]
  funext y
  rw [View.read_apply]
  show k0_pay2 (F := Ideal) (Acc.accAt m c t.val t.isLt) y = G m c (((cfg0.win 13).blk t).view.emb y)
  rw [copy_apply, Acc.accAt_apply]
  have e0 : ((((cfg0.win 13).blk t).view.emb y) 0).val = t.val / 16 := by
    show win0_13.index t 0 * 1 + 1 * (y 0).val = _
    rw [(idx13 t).1]; have : (y 0).val < 1 := (y 0).isLt; omega
  have e1 : ((((cfg0.win 13).blk t).view.emb y) 1).val = (y 1).val := by
    show win0_13.index t 1 * 8 + 1 * (y 1).val = _
    rw [(idx13 t).2.1]; omega
  have e2 : ((((cfg0.win 13).blk t).view.emb y) 2).val = (y 2).val := by
    show win0_13.index t 2 * 128 + 1 * (y 2).val = _
    rw [(idx13 t).2.2]; omega
  generalize ((cfg0.win 13).blk t).view.emb y = E at e0 e1 e2 ⊢
  show _ = ∑ k ∈ Finset.Ico (16 * (E 0).val) (16 * (E 0).val + 16),
    Acc.tileN m c k (⟨(E 1).val, (E 1).isLt⟩ : Fin 8) (⟨(E 2).val, (E 2).isLt⟩ : Fin 128)
  have f1 : (⟨(E 1).val, (E 1).isLt⟩ : Fin 8) = ⟨(y 1).val, (y 1).isLt⟩ := Fin.ext e1
  have f2 : (⟨(E 2).val, (E 2).isLt⟩ : Fin 128) = ⟨(y 2).val, (y 2).isLt⟩ := Fin.ext e2
  have b1 : t.val - t.val % 16 = 16 * (t.val / 16) := by omega
  have b2 : t.val + 1 = 16 * (t.val / 16) + 16 := by omega
  rw [e0, f1, f2, b1, b2]

/-- An index of the array is in point t's block iff each coordinate is in the block's range on its axis. -/
theorem mem_blk (t : Fin cfg0.N) (i : S2x8x128.Idx) :
    i ∈ ((cfg0.win 13).blk t).view.set ↔ ∀ a : Fin 3, win0_13.index t a * S1x8x128.size a ≤ (i a).val ∧ (i a).val < win0_13.index t a * S1x8x128.size a + S1x8x128.size a := by
  show i ∈ ((View.whole main_v44).slice (win0_13.rect t)).set ↔ _
  rw [View.set_slice_whole, Rect.mem_set_unit]
  exact Iff.rfl

/-- The two write-backs cover the array. -/
theorem cover (i : S2x8x128.Idx) : ∃ t : Fin cfg0.N, (cfg0.win 13).flush t = true ∧ i ∈ ((cfg0.win 13).blk t).view.set := by
  have hi0 : (i 0).val < 2 := (i 0).isLt
  have hi1 : (i 1).val < 8 := (i 1).isLt
  have hi2 : (i 2).val < 128 := (i 2).isLt
  have hN : cfg0.N = 32 := N_0
  refine ⟨⟨16 * (i 0).val + 15, by omega⟩, (flush0_13 _).mpr (by dsimp only; omega), ?_⟩
  rw [mem_blk]
  obtain ⟨q0, q1, q2⟩ := idx13 ⟨16 * (i 0).val + 15, by omega⟩
  intro a
  match a with
  | ⟨0, _⟩ => show win0_13.index _ (0 : Fin 3) * 1 ≤ (i 0).val ∧ (i 0).val < win0_13.index _ (0 : Fin 3) * 1 + 1; rw [q0]; dsimp only; omega
  | ⟨1, _⟩ => show win0_13.index _ (1 : Fin 3) * 8 ≤ (i 1).val ∧ (i 1).val < win0_13.index _ (1 : Fin 3) * 8 + 8; rw [q1]; omega
  | ⟨2, _⟩ => show win0_13.index _ (2 : Fin 3) * 128 ≤ (i 2).val ∧ (i 2).val < win0_13.index _ (2 : Fin 3) * 128 + 128; rw [q2]; omega

/-- The output array after the run. -/
theorem final (c : Dev nD) : (dats m 0 c).arrAt 13 cfg0.N = G m c :=
  (dats m 0 c).arrAt_eq_of_cover 13 (G m c) (flushed_eq m c) cover

end Cert.KernelIdeal.Final

end
-- ==== Proof.Tail.lean ====
/-
  The host operations after the pallas_call: the two cores' blocks are added, entries (0,0) … (0,3) of the sum are
  taken out, and the four results are the quotients and the blend of these four numbers.
-/
import proofs.«159981_j34763465294043_2_alg».proof.Proof.Final
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ)

/-- The two blocks added. -/
def R (G : FVec Ideal S2x8x128 .f32) : FVec Ideal S8x128 .f32 :=
  Host.reduceAdd (F := Ideal) G (constant (F := Ideal) S_ .f32 0x00000000#32) reducesTo_S2x8x128_S8x128_d0 h_S_
/-- Entries (0,0) … (0,3) of the sum, as scalars. -/
def pick0 (X : FVec Ideal S8x128 .f32) : FVec Ideal S_ .f32 := shapeCast S_ (extractStridedSlice S1x1 ![0, 0] X slices_S8x128_S1x1_0_0) shapeCasts_S1x1_S_
def pick1 (X : FVec Ideal S8x128 .f32) : FVec Ideal S_ .f32 := shapeCast S_ (extractStridedSlice S1x1 ![0, 1] X slices_S8x128_S1x1_0_1) shapeCasts_S1x1_S_
def pick2 (X : FVec Ideal S8x128 .f32) : FVec Ideal S_ .f32 := shapeCast S_ (extractStridedSlice S1x1 ![0, 2] X slices_S8x128_S1x1_0_2) shapeCasts_S1x1_S_
def pick3 (X : FVec Ideal S8x128 .f32) : FVec Ideal S_ .f32 := shapeCast S_ (extractStridedSlice S1x1 ![0, 3] X slices_S8x128_S1x1_0_3) shapeCasts_S1x1_S_
/-- The path loss, the smoothness loss, the reconstruction loss, the total. -/
def r54 (G : FVec Ideal S2x8x128 .f32) : FVec Ideal S_ .f32 := Host.divf (F := Ideal) (pick0 (R G)) (pick1 (R G))
def r55 (G : FVec Ideal S2x8x128 .f32) : FVec Ideal S_ .f32 := Host.divf (F := Ideal) (pick2 (R G)) (constant (F := Ideal) S_ .f32 0x42000000#32)
def r56 (G : FVec Ideal S2x8x128 .f32) : FVec Ideal S_ .f32 := Host.divf (F := Ideal) (pick3 (R G)) (constant (F := Ideal) S_ .f32 0x48000000#32)
def r60 (G : FVec Ideal S2x8x128 .f32) : FVec Ideal S_ .f32 :=
  addf (addf (mulf (constant (F := Ideal) S_ .f32 0x3F4CCCCD#32) (r55 G)) (r54 G)) (mulf (constant (F := Ideal) S_ .f32 0x3F000000#32) (r56 G))

theorem tail_v54 (c : Dev nD) : Pipeline.afterTail₀ cfgs (dats m) 0 (V0 m) [hostOps1] c main_v54 = r54 (Final.G m c) := by
  unfold Pipeline.afterTail₀
  show StableHlo.after hostOps1 _ (Proc.devRef .tc main_v54) = _
  after_results
  rw [Pipeline.withArrays_arr spec0 launch0.win.arr_inj c _ _ 13, Final.final]
  rfl
theorem tail_v55 (c : Dev nD) : Pipeline.afterTail₀ cfgs (dats m) 0 (V0 m) [hostOps1] c main_v55 = r55 (Final.G m c) := by
  unfold Pipeline.afterTail₀
  show StableHlo.after hostOps1 _ (Proc.devRef .tc main_v55) = _
  after_results
  rw [Pipeline.withArrays_arr spec0 launch0.win.arr_inj c _ _ 13, Final.final]
  rfl
theorem tail_v56 (c : Dev nD) : Pipeline.afterTail₀ cfgs (dats m) 0 (V0 m) [hostOps1] c main_v56 = r56 (Final.G m c) := by
  unfold Pipeline.afterTail₀
  show StableHlo.after hostOps1 _ (Proc.devRef .tc main_v56) = _
  after_results
  rw [Pipeline.withArrays_arr spec0 launch0.win.arr_inj c _ _ 13, Final.final]
  rfl
set_option maxHeartbeats 3200000 in
theorem tail_v60 (c : Dev nD) : Pipeline.afterTail₀ cfgs (dats m) 0 (V0 m) [hostOps1] c main_v60 = r60 (Final.G m c) := by
  unfold Pipeline.afterTail₀
  show StableHlo.after hostOps1 _ (Proc.devRef .tc main_v60) = _
  after_results
  rw [Pipeline.withArrays_arr spec0 launch0.win.arr_inj c _ _ 13, Final.final]
  rfl

/-! ## Read at the one index -/

theorem pick_at (X : FVec Ideal S8x128 .f32) (off : Fin 2 → Nat) (h : S8x128.Slices off S1x1) (j : Fin 128) (hoff : off = ![0, j.val]) :
    shapeCast S_ (extractStridedSlice S1x1 off X h) shapeCasts_S1x1_S_ ix0 = X (ix2 (0 : Fin 8) j) := by
  subst hoff
  refine (shapeCast_apply _ shapeCasts_S1x1_S_ ix0 (ix2 (0 : Fin 1) (0 : Fin 1)) (by
    rw [Shape.rowMajor_val_two]
    have e : ((Shape.rowMajorPi (![] : Fin 0 → Nat)) ix0).val = 0 := Shape.rowMajorPi_zero _ _
    simp [Shape.rowMajor]
    exact e.symm)).trans ?_
  exact extractStridedSlice_apply ![0, j.val] X h (ix2 (0 : Fin 1) (0 : Fin 1)) (ix2 (0 : Fin 8) j) (fun a => by
    match a with
    | ⟨0, _⟩ => rfl
    | ⟨1, _⟩ => show j.val = j.val + 0; omega)

/-- The sum of the two blocks at an entry. -/
theorem R_at (G : FVec Ideal S2x8x128 .f32) (r : Fin 8) (l : Fin 128) :
    R G (ix2 r l) = Cert.Spec.ZERO + ∑ k : Fin 2, G (ix3 k r l) := by
  unfold R
  simp only [Host.reduceAdd, Ideal.hostReduceAdd_def]
  rw [Ideal.hostReduceAdd_single reducesTo_S2x8x128_S8x128_d0 (by decide)]
  refine congrArg (_ + ·) (Finset.sum_congr rfl fun k _ => ?_)
  exact congrArg G (funext fun a => Fin.ext (by match a with | ⟨0, _⟩ => rfl | ⟨1, _⟩ => rfl | ⟨2, _⟩ => rfl))

end Cert.KernelIdeal.Tail

end
-- ==== Proof.PrefixDefs.lean ====
/-
  The thirteen operand arrays as the pallas_call finds them, named: each is a re-laid or derived copy of
  the argument arrays computed by the host operations before the call.
-/
import proofs.«159981_j34763465294043_2_alg».proof.Proof.Gen.KernelIdeal.Frame
import proofs.«159981_j34763465294043_2_alg».proof.Proof.Spec
import Idealize.ShloMosaic.Lib.Pipeline.Value
import Idealize.ShloMosaic.Lib.ValueIdx
import Idealize.ShloMosaic.PureOps.Ideal.Laws

noncomputable section

namespace Cert.KernelIdeal.Prefix

open Cert.KernelIdeal Cert.KernelIdeal.Gen Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-- The argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-- The path's extent per batch element and dimension: maximum less minimum over the points. -/
def ext : FVec Ideal S32x3 .f32 :=
  subf (Host.reduce (FloatOps.maximumf (F := Ideal) (φ := .f32)) (A0 m c : FVec Ideal S32x512x3 .f32) (constant (F := Ideal) S_ .f32 0xFF800000#32) reducesTo_S32x512x3_S32x3_d1 h_S_)
    (Host.reduce (FloatOps.minimumf (F := Ideal) (φ := .f32)) (A0 m c : FVec Ideal S32x512x3 .f32) (constant (F := Ideal) S_ .f32 0x7F800000#32) reducesTo_S32x512x3_S32x3_d1 h_S_)
/-- The reciprocal scale: one over a twentieth of the extent floored at 1e-8. -/
def invSigma : FVec Ideal S32x3 .f32 :=
  Host.divf (F := Ideal) (broadcastInDim S32x3 ![] bcast_S_S32x3 (constant (F := Ideal) S_ .f32 0x3F800000#32))
    (maximumf (mulf (broadcastInDim S32x3 ![] bcast_S_S32x3 (constant (F := Ideal) S_ .f32 0x3D4CCCCD#32)) (ext m c))
      (broadcastInDim S32x3 ![] bcast_S_S32x3 (constant (F := Ideal) S_ .f32 0x322BCC77#32)))
/-- The segments' base points. -/
def base : FVec Ideal S32x511x3 .f32 := extractStridedSlice S32x511x3 ![0, 0, 0] (A2 m c : FVec Ideal S32x512x3 .f32) slices_S32x512x3_S32x511x3_0_0_0
/-- The segments' directions. -/
def dir : FVec Ideal S32x511x3 .f32 :=
  subf (extractStridedSlice S32x511x3 ![0, 1, 0] (A2 m c : FVec Ideal S32x512x3 .f32) slices_S32x512x3_S32x511x3_0_1_0) (base m c)
/-- The reciprocal squared segment lengths. -/
def invLen : FVec Ideal S32x511 .f32 :=
  Host.divf (F := Ideal) (broadcastInDim S32x511 ![] bcast_S_S32x511 (constant (F := Ideal) S_ .f32 0x3F800000#32))
    (maximumf (Host.reduceAdd (F := Ideal) (mulf (dir m c) (dir m c)) (constant (F := Ideal) S_ .f32 0x00000000#32) reducesTo_S32x511x3_S32x511_d2 h_S_)
      (broadcastInDim S32x511 ![] bcast_S_S32x511 (constant (F := Ideal) S_ .f32 0x322BCC77#32)))
/-- The base points' inner products with the directions. -/
def baseDot : FVec Ideal S32x511 .f32 :=
  Host.reduceAdd (F := Ideal) (mulf (base m c) (dir m c)) (constant (F := Ideal) S_ .f32 0x00000000#32) reducesTo_S32x511x3_S32x511_d2 h_S_
/-- The segment weights. -/
def segW : FVec Ideal S32x511 .f32 :=
  uitofp (F := Ideal) .f32 (andi (extractStridedSlice S32x511 ![0, 0] (A3 m c : IVec S32x512 1) slices_S32x512_S32x511_0_0)
    (extractStridedSlice S32x511 ![0, 1] (A3 m c : IVec S32x512 1) slices_S32x512_S32x511_0_1))

/-- A float array by coordinates. -/
def kf3 (x : FVec Ideal S32x512x3 .f32) : Fin 32 → Fin 512 → Fin 3 → EReal := fun b n d => x (ix3 b n d)
/-- A mask by coordinates. -/
def kfb (x : IVec S32x512 1) : Fin 32 → Fin 512 → BitVec 1 := fun b n => x (ix2 b n)
/-- An observation array by coordinates. -/
def kfo (x : FVec Ideal S32x1024x4 .f32) : Fin 32 → Fin 1024 → Fin 4 → EReal := fun b n k => x (ix3 b n k)
/-- The path's extent by coordinates. -/
def kE : Fin 32 → Fin 3 → EReal := fun b d => ext m c (ix2 b d)

end Cert.KernelIdeal.Prefix

end
-- ==== Proof.PrefixTerms.lean ====
/-
  The thirteen operand arrays as the pallas_call finds them, as terms of the argument arrays.
-/
import proofs.«159981_j34763465294043_2_alg».proof.Proof.PrefixDefs
import Idealize.ShloMosaic.Lib.StableHlo.Run

set_option maxHeartbeats 1600000

noncomputable section

namespace Cert.KernelIdeal.Prefix

open Cert.KernelIdeal Cert.KernelIdeal.Gen Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

theorem V_v32 : V m c main_v32
    = broadcastInDim S32x512x1 ![0, 1] bcast_S32x512_S32x512x1_0_1 (uitofp (F := Ideal) .f32 (A1 m c)) := by
  show StableHlo.after hostOps0 (fun b => m (c, b)) (Proc.devRef .tc main_v32) = _
  after_results
  try rfl
theorem V_v33 : V m c main_v33 = transpose S32x3x511 [0, 2, 1] (base m c) transposes_S32x511x3_S32x3x511_0_2_1 := by
  show StableHlo.after hostOps0 (fun b => m (c, b)) (Proc.devRef .tc main_v33) = _
  after_results
  try rfl
theorem V_v34 : V m c main_v34 = transpose S32x3x511 [0, 2, 1] (dir m c) transposes_S32x511x3_S32x3x511_0_2_1 := by
  show StableHlo.after hostOps0 (fun b => m (c, b)) (Proc.devRef .tc main_v34) = _
  after_results
  try rfl
theorem V_v35 : V m c main_v35 = broadcastInDim S32x1x511 ![0, 2] bcast_S32x511_S32x1x511_0_2 (invLen m c) := by
  show StableHlo.after hostOps0 (fun b => m (c, b)) (Proc.devRef .tc main_v35) = _
  after_results
  try rfl
theorem V_v36 : V m c main_v36 = broadcastInDim S32x1x511 ![0, 2] bcast_S32x511_S32x1x511_0_2 (baseDot m c) := by
  show StableHlo.after hostOps0 (fun b => m (c, b)) (Proc.devRef .tc main_v36) = _
  after_results
  try rfl
theorem V_v37 : V m c main_v37 = broadcastInDim S32x1x511 ![0, 2] bcast_S32x511_S32x1x511_0_2 (segW m c) := by
  show StableHlo.after hostOps0 (fun b => m (c, b)) (Proc.devRef .tc main_v37) = _
  after_results
  try rfl
theorem V_v38 : V m c main_v38 = transpose S32x3x512 [0, 2, 1] (A2 m c) transposes_S32x512x3_S32x3x512_0_2_1 := by
  show StableHlo.after hostOps0 (fun b => m (c, b)) (Proc.devRef .tc main_v38) = _
  after_results
  try rfl
theorem V_v39 : V m c main_v39
    = broadcastInDim S32x1x512 ![0, 2] bcast_S32x512_S32x1x512_0_2 (uitofp (F := Ideal) .f32 (A3 m c)) := by
  show StableHlo.after hostOps0 (fun b => m (c, b)) (Proc.devRef .tc main_v39) = _
  after_results
  try rfl
theorem V_v40 : V m c main_v40 = broadcastInDim S32x3x1 ![0, 1] bcast_S32x3_S32x3x1_0_1 (invSigma m c) := by
  show StableHlo.after hostOps0 (fun b => m (c, b)) (Proc.devRef .tc main_v40) = _
  after_results
  try rfl
theorem V_v41 : V m c main_v41 = broadcastInDim S32x3x1 ![0, 1] bcast_S32x3_S32x3x1_0_1 (invSigma m c) := by
  show StableHlo.after hostOps0 (fun b => m (c, b)) (Proc.devRef .tc main_v41) = _
  after_results
  try rfl
theorem V_v42 : V m c main_v42 = shapeCast S32x32x128 (A4 m c) shapeCasts_S32x1024x4_S32x32x128 := by
  show StableHlo.after hostOps0 (fun b => m (c, b)) (Proc.devRef .tc main_v42) = _
  after_results
  try rfl
theorem V_v43 : V m c main_v43 = shapeCast S32x32x128 (A5 m c) shapeCasts_S32x1024x4_S32x32x128 := by
  show StableHlo.after hostOps0 (fun b => m (c, b)) (Proc.devRef .tc main_v43) = _
  after_results
  try rfl

end Cert.KernelIdeal.Prefix

end
-- ==== Proof.PrefixScales.lean ====
/-
  Five of the operand arrays read at an index: the path weights, the target weights, the reciprocal scales and the two
  observation blocks are the per-batch-element operands of the mathematics.
-/
import proofs.«159981_j34763465294043_2_alg».proof.Proof.PrefixDefs

noncomputable section

namespace Cert.KernelIdeal.Prefix

open Cert.KernelIdeal Cert.KernelIdeal.Gen Idealize.ShloMosaic Idealize.ShloMosaic.TcCoe Idealize.SL.Sem Idealize.ShloMosaic.ValueIdx Cert.Spec

variable (m : (ℓ : Loc nD τ sig) → Buf (Elt Ideal) ℓ) (c : Dev nD)

namespace Scales

/-- A scalar spread over a 32 by 3 array is the scalar at every entry. -/
theorem splat_S32x3 (w : BitVec 32) (b : Fin 32) (d : Fin 3) :
    broadcastInDim S32x3 ![] bcast_S_S32x3 (constant (F := Ideal) S_ .f32 w) (ix2 b d) = Ideal.ofBits .f32 w :=
  (broadcastInDim_apply _ bcast_S_S32x3 (constant (F := Ideal) S_ .f32 w) (ix2 b d) (fun a => a.elim0)
    (fun a => a.elim0)).trans rfl

/-- The reciprocal scale at (b, d). -/
theorem invSigma_at (b : Fin 32) (d : Fin 3) : invSigma m c (ix2 b d) = opL (kE m c) b d := by
  have h1 := splat_S32x3 0x3F800000#32 b d
  have h2 := splat_S32x3 0x3D4CCCCD#32 b d
  have h3 := splat_S32x3 0x322BCC77#32 b d
  unfold invSigma opL kE
  simp only [Host.divf, maximumf, mulf]
  rw [h1, h2, h3]
  rfl

/-- An observation array viewed as 32 rows of 128 per batch element. -/
theorem obs_at (x : FVec Ideal S32x1024x4 .f32) (b : Fin 32) (r : Fin 32) (l : Fin 128) :
    shapeCast S32x32x128 x shapeCasts_S32x1024x4_S32x32x128 (ix3 b r l) = opO (kfo x) b r l := by
  have hr := r.isLt
  have hl := l.isLt
  refine (shapeCast_apply x shapeCasts_S32x1024x4_S32x32x128 (ix3 b r l)
    (ix3 b ⟨(r.val * 128 + l.val) / 4, by omega⟩ ⟨(r.val * 128 + l.val) % 4, Nat.mod_lt _ (by norm_num)⟩) ?_).trans rfl
  rw [Shape.rowMajor_val_three, Shape.rowMajor_val_three]
  show (b.val * 1024 + (r.val * 128 + l.val) / 4) * 4 + (r.val * 128 + l.val) % 4 = (b.val * 32 + r.val) * 128 + l.val
  omega

end Scales

theorem w32_at (b : Fin 32) (n : Fin 512) : broadcastInDim S32x512x1 ![0, 1] bcast_S32x512_S32x512x1_0_1 (uitofp (F := Ideal) .f32 (A1 m c)) (ix3 b n 0) = opM (kfb (A1 m c)) b n :=
  (broadcastInDim_apply _ bcast_S32x512_S32x512x1_0_1 (uitofp (F := Ideal) .f32 (A1 m c)) (ix3 b n 0) (ix2 b n) (fun a => match a with
    | ⟨0, _⟩ => by show b.val = if (32 : Nat) = 1 then 0 else b.val; rw [if_neg (by decide)]
    | ⟨1, _⟩ => by show n.val = if (512 : Nat) = 1 then 0 else n.val; rw [if_neg (by decide)])).trans rfl

theorem w39_at (b : Fin 32) (g : Fin 512) : broadcastInDim S32x1x512 ![0, 2] bcast_S32x512_S32x1x512_0_2 (uitofp (F := Ideal) .f32 (A3 m c)) (ix3 b 0 g) = opR (kfb (A3 m c)) b g :=
  (broadcastInDim_apply _ bcast_S32x512_S32x1x512_0_2 (uitofp (F := Ideal) .f32 (A3 m c)) (ix3 b 0 g) (ix2 b g) (fun a => match a with
    | ⟨0, _⟩ => by show b.val = if (32 : Nat) = 1 then 0 else b.val; rw [if_neg (by decide)]
    | ⟨1, _⟩ => by show g.val = if (512 : Nat) = 1 then 0 else g.val; rw [if_neg (by decide)])).trans rfl

theorem w40_at (b : Fin 32) (d : Fin 3) : broadcastInDim S32x3x1 ![0, 1] bcast_S32x3_S32x3x1_0_1 (invSigma m c) (ix3 b d 0) = opL (kE m c) b d :=
  (broadcastInDim_apply _ bcast_S32x3_S32x3x1_0_1 (invSigma m c) (ix3 b d 0) (ix2 b d) (fun a => match a with
    | ⟨0, _⟩ => by show b.val = if (32 : Nat) = 1 then 0 else b.val; rw [if_neg (by decide)]
    | ⟨1, _⟩ => by show d.val = if (3 : Nat) = 1 then 0 else d.val; rw [if_neg (by decide)])).trans (Scales.invSigma_at m c b d)

theorem w42_at (b : Fin 32) (r : Fin 32) (l : Fin 128) : shapeCast S32x32x128 (A4 m c) shapeCasts_S32x1024x4_S32x32x128 (ix3 b r l) = opO (kfo (A4 m c)) b r l :=
  Scales.obs_at (A4 m c) b r l

theorem w43_at (b : Fin 32) (r : Fin 32) (l : Fin 128) : shapeCast S32x32x128 (A5 m c) shapeCasts_S32x1024x4_S32x32x128 (ix3 b r l) = opO (kfo (A5 m c)) b r l :=
  Scales.obs_at (A5 m c) b r l

end Cert.KernelIdeal.Prefix

end
-- ==== Proof.PrefixLayout.lean ====
/-
  Four of the operand arrays read at an index: the segments' base points and directions and the target points,
  each with the dimension moved in front of the position, and the base points' inner products with the directions.
-/
import proofs.«159981_j34763465294043_2_alg».proof.Proof.PrefixDefs

noncomputable section

namespace Cert.KernelIdeal.Prefix

open Cert.KernelIdeal Cert.KernelIdeal.Gen Idealize.ShloMosaic Idealize.ShloMosaic.TcCoe Idealize.SL.Sem Idealize.ShloMosaic.ValueIdx Cert.Spec
open scoped BigOperators

variable (m : (ℓ : Loc nD τ sig) → Buf (Elt Ideal) ℓ) (c : Dev nD)

/-- A segment's base point is the target point of the same position. -/
theorem base_at (b : Fin 32) (mm : Fin 511) (d : Fin 3) :
    base m c (ix3 b mm d) = kf3 (A2 m c) b mm.castSucc d := by
  unfold base
  exact extractStridedSlice_apply ![0, 0, 0] _ slices_S32x512x3_S32x511x3_0_0_0 (ix3 b mm d) (ix3 b mm.castSucc d)
    (fun a => match a with
      | ⟨0, _⟩ => by show b.val = 0 + b.val; omega
      | ⟨1, _⟩ => by show mm.val = 0 + mm.val; omega
      | ⟨2, _⟩ => by show d.val = 0 + d.val; omega)

/-- A segment's direction is the next target point less the target point of the same position. -/
theorem dir_at (b : Fin 32) (mm : Fin 511) (d : Fin 3) :
    dir m c (ix3 b mm d) = kf3 (A2 m c) b mm.succ d - kf3 (A2 m c) b mm.castSucc d := by
  unfold dir
  rw [subf_apply, base_at, extractStridedSlice_apply ![0, 1, 0] _ slices_S32x512x3_S32x511x3_0_1_0 (ix3 b mm d) (ix3 b mm.succ d)
    (fun a => match a with
      | ⟨0, _⟩ => by show b.val = 0 + b.val; omega
      | ⟨1, _⟩ => by show mm.val + 1 = 1 + mm.val; omega
      | ⟨2, _⟩ => by show d.val = 0 + d.val; omega)]
  rfl

namespace Layout

/-- A float sum over the last axis of a 32 by 511 by 3 array at (b, mm): the initial value plus the three entries. -/
theorem sum_axis2 (y0 : FVec Ideal S32x511x3 .f32) (z : FVec Ideal S_ .f32) (b : Fin 32) (mm : Fin 511) :
    Host.reduceAdd (F := Ideal) y0 z reducesTo_S32x511x3_S32x511_d2 h_S_ (ix2 b mm)
      = z (Shape.Idx.first h_S_) + ∑ k : Fin 3, y0 (ix3 b mm k) := by
  simp only [Host.reduceAdd, Ideal.hostReduceAdd_def]
  rw [Ideal.hostReduceAdd_single reducesTo_S32x511x3_S32x511_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

/-- The base points' inner products with the directions at (b, mm). -/
theorem baseDot_at (b : Fin 32) (mm : Fin 511) : baseDot m c (ix2 b mm) = opD (kf3 (A2 m c)) b mm := by
  unfold baseDot
  rw [sum_axis2]
  simp only [mulf_apply, base_at, dir_at]
  rfl

end Layout

/-- The segments' base points, dimension first. -/
theorem w33_at (b : Fin 32) (d : Fin 3) (mm : Fin 511) :
    transpose S32x3x511 [0, 2, 1] (base m c) transposes_S32x511x3_S32x3x511_0_2_1 (ix3 b d mm)
      = opA (kf3 (A2 m c)) b d mm := by
  rw [transpose_apply [0, 2, 1] (base m c) transposes_S32x511x3_S32x3x511_0_2_1 (ix3 b d mm) (ix3 b mm d)
    (fun a => match a with | ⟨0, _⟩ => rfl | ⟨1, _⟩ => rfl | ⟨2, _⟩ => rfl), base_at]
  rfl

/-- The segments' directions, dimension first. -/
theorem w34_at (b : Fin 32) (d : Fin 3) (mm : Fin 511) :
    transpose S32x3x511 [0, 2, 1] (dir m c) transposes_S32x511x3_S32x3x511_0_2_1 (ix3 b d mm)
      = opS (kf3 (A2 m c)) b d mm := by
  rw [transpose_apply [0, 2, 1] (dir m c) transposes_S32x511x3_S32x3x511_0_2_1 (ix3 b d mm) (ix3 b mm d)
    (fun a => match a with | ⟨0, _⟩ => rfl | ⟨1, _⟩ => rfl | ⟨2, _⟩ => rfl), dir_at]
  rfl

/-- The target points, dimension first. -/
theorem w38_at (b : Fin 32) (d : Fin 3) (g : Fin 512) :
    transpose S32x3x512 [0, 2, 1] (A2 m c) transposes_S32x512x3_S32x3x512_0_2_1 (ix3 b d g)
      = opT (kf3 (A2 m c)) b d g := by
  rw [transpose_apply [0, 2, 1] (A2 m c : FVec Ideal S32x512x3 .f32) transposes_S32x512x3_S32x3x512_0_2_1 (ix3 b d g)
    (ix3 b g d) (fun a => match a with | ⟨0, _⟩ => rfl | ⟨1, _⟩ => rfl | ⟨2, _⟩ => rfl)]
  rfl

/-- The base points' inner products with the directions, as a row per batch element. -/
theorem w36_at (b : Fin 32) (mm : Fin 511) :
    broadcastInDim S32x1x511 ![0, 2] bcast_S32x511_S32x1x511_0_2 (baseDot m c) (ix3 b 0 mm)
      = opD (kf3 (A2 m c)) b mm := by
  rw [broadcastInDim_apply ![0, 2] bcast_S32x511_S32x1x511_0_2 (baseDot m c) (ix3 b 0 mm) (ix2 b mm)
    (fun a => match a with
      | ⟨0, _⟩ => by show b.val = if (32 : Nat) = 1 then 0 else b.val; rw [if_neg (by decide)]
      | ⟨1, _⟩ => by show mm.val = if (511 : Nat) = 1 then 0 else mm.val; rw [if_neg (by decide)]),
    Layout.baseDot_at]

end Cert.KernelIdeal.Prefix

end
-- ==== Proof.PrefixSegments.lean ====
/-
  Two of the operand arrays the call finds, read at an index: the reciprocal squared segment lengths and the segment
  weights, each a 32 by 511 array laid out as 32 by 1 by 511.  A segment's direction is its end point less its base
  point; its squared length is the sum over the three dimensions of the squared direction, floored at 1e-8; a segment
  counts when both its end points do.
-/
import proofs.«159981_j34763465294043_2_alg».proof.Proof.PrefixDefs

noncomputable section

namespace Cert.KernelIdeal.Prefix

open Cert.KernelIdeal Cert.KernelIdeal.Gen Idealize.ShloMosaic Idealize.ShloMosaic.TcCoe Idealize.SL.Sem Idealize.ShloMosaic.ValueIdx Cert.Spec
open scoped BigOperators

variable (m : (ℓ : Loc nD τ sig) → Buf (Elt Ideal) ℓ) (c : Dev nD)

namespace Segments

/-- A 32 by 511 array laid out as 32 by 1 by 511, read at (b, 0, mm), is the array at (b, mm). -/
theorem row_at {α : Type} (y : S32x511.Idx → α) (b : Fin 32) (mm : Fin 511) :
    broadcastInDim S32x1x511 ![0, 2] bcast_S32x511_S32x1x511_0_2 y (ix3 b 0 mm) = y (ix2 b mm) :=
  broadcastInDim_apply _ bcast_S32x511_S32x1x511_0_2 y (ix3 b 0 mm) (ix2 b mm) (fun a => match a with
    | ⟨0, _⟩ => by show b.val = if (32 : Nat) = 1 then 0 else b.val; rw [if_neg (by decide)]
    | ⟨1, _⟩ => by show mm.val = if (511 : Nat) = 1 then 0 else mm.val; rw [if_neg (by decide)])

/-- A scalar spread over a 32 by 511 array reads, everywhere, what its word denotes. -/
theorem splat_at (w : BitVec 32) (i : S32x511.Idx) :
    broadcastInDim S32x511 ![] bcast_S_S32x511 (constant (F := Ideal) S_ .f32 w) i = Ideal.ofBits .f32 w :=
  broadcastInDim_apply _ bcast_S_S32x511 _ i (fun a => a.elim0) (fun a => a.elim0)

/-- A segment's base point is the target point of the same number. -/
theorem base_at (b : Fin 32) (mm : Fin 511) (d : Fin 3) :
    base m c (ix3 b mm d) = kf3 (A2 m c) b mm.castSucc d := by
  unfold base
  exact extractStridedSlice_apply ![0, 0, 0] _ slices_S32x512x3_S32x511x3_0_0_0 (ix3 b mm d) (ix3 b mm.castSucc d) (fun a => match a with
    | ⟨0, _⟩ => by show b.val = 0 + b.val; omega
    | ⟨1, _⟩ => by show mm.val = 0 + mm.val; omega
    | ⟨2, _⟩ => by show d.val = 0 + d.val; omega)

/-- A segment's direction is its end point less its base point. -/
theorem dir_at (b : Fin 32) (mm : Fin 511) (d : Fin 3) :
    dir m c (ix3 b mm d) = kf3 (A2 m c) b mm.succ d - kf3 (A2 m c) b mm.castSucc d := by
  have h1 : extractStridedSlice S32x511x3 ![0, 1, 0] (A2 m c : FVec Ideal S32x512x3 .f32) slices_S32x512x3_S32x511x3_0_1_0 (ix3 b mm d)
      = kf3 (A2 m c) b mm.succ d :=
    extractStridedSlice_apply ![0, 1, 0] _ slices_S32x512x3_S32x511x3_0_1_0 (ix3 b mm d) (ix3 b mm.succ d) (fun a => match a with
      | ⟨0, _⟩ => by show b.val = 0 + b.val; omega
      | ⟨1, _⟩ => by show mm.val + 1 = 1 + mm.val; omega
      | ⟨2, _⟩ => by show d.val = 0 + d.val; omega)
  exact congrArg₂ (fun u v : EReal => u - v) h1 (base_at m c b mm d)

/-- The squared length of a segment: the sum over the dimensions of the squared direction, from the zero word. -/
theorem sumsq_at (b : Fin 32) (mm : Fin 511) :
    Host.reduceAdd (F := Ideal) (mulf (dir m c) (dir m c)) (constant (F := Ideal) S_ .f32 0x00000000#32) reducesTo_S32x511x3_S32x511_d2 h_S_ (ix2 b mm)
      = ZERO + ∑ k : Fin 3, opS (kf3 (A2 m c)) b k mm * opS (kf3 (A2 m c)) b k mm := by
  generalize hy : mulf (dir m c) (dir m c) = y0
  simp only [Host.reduceAdd, Ideal.hostReduceAdd_def]
  rw [Ideal.hostReduceAdd_single reducesTo_S32x511x3_S32x511_d2 (by decide)]
  refine congrArg (_ + ·) (Finset.sum_congr rfl fun k _ => ?_)
  refine (congrArg y0 (show _ = ix3 b mm (⟨k.val, k.isLt⟩ : Fin 3) from
    funext fun a => Fin.ext (by match a with | ⟨0, _⟩ => rfl | ⟨1, _⟩ => rfl | ⟨2, _⟩ => rfl))).trans ?_
  rw [← hy]
  show dir m c (ix3 b mm (⟨k.val, k.isLt⟩ : Fin 3)) * dir m c (ix3 b mm (⟨k.val, k.isLt⟩ : Fin 3)) = _
  rw [dir_at]
  rfl

/-- The reciprocal squared segment length. -/
theorem invLen_at (b : Fin 32) (mm : Fin 511) : invLen m c (ix2 b mm) = opI (kf3 (A2 m c)) b mm := by
  unfold invLen
  show Ideal.div (broadcastInDim S32x511 ![] bcast_S_S32x511 (constant (F := Ideal) S_ .f32 0x3F800000#32) (ix2 b mm))
      (max (Host.reduceAdd (F := Ideal) (mulf (dir m c) (dir m c)) (constant (F := Ideal) S_ .f32 0x00000000#32) reducesTo_S32x511x3_S32x511_d2 h_S_ (ix2 b mm))
        (broadcastInDim S32x511 ![] bcast_S_S32x511 (constant (F := Ideal) S_ .f32 0x322BCC77#32) (ix2 b mm))) = _
  rw [splat_at, splat_at, sumsq_at]
  rfl

/-- The weight of a segment: both its end points count. -/
theorem segW_at (b : Fin 32) (mm : Fin 511) : segW m c (ix2 b mm) = opQ (kfb (A3 m c)) b mm := by
  have h0 : extractStridedSlice S32x511 ![0, 0] (A3 m c : IVec S32x512 1) slices_S32x512_S32x511_0_0 (ix2 b mm)
      = kfb (A3 m c) b mm.castSucc :=
    extractStridedSlice_apply ![0, 0] _ slices_S32x512_S32x511_0_0 (ix2 b mm) (ix2 b mm.castSucc) (fun a => match a with
      | ⟨0, _⟩ => by show b.val = 0 + b.val; omega
      | ⟨1, _⟩ => by show mm.val = 0 + mm.val; omega)
  have h1 : extractStridedSlice S32x511 ![0, 1] (A3 m c : IVec S32x512 1) slices_S32x512_S32x511_0_1 (ix2 b mm)
      = kfb (A3 m c) b mm.succ :=
    extractStridedSlice_apply ![0, 1] _ slices_S32x512_S32x511_0_1 (ix2 b mm) (ix2 b mm.succ) (fun a => match a with
      | ⟨0, _⟩ => by show b.val = 0 + b.val; omega
      | ⟨1, _⟩ => by show mm.val + 1 = 1 + mm.val; omega)
  exact congrArg₂ (fun u v : BitVec 1 => bit (u &&& v)) h0 h1

end Segments

/-- The reciprocal squared segment lengths as the call finds them. -/
theorem w35_at (b : Fin 32) (mm : Fin 511) :
    broadcastInDim S32x1x511 ![0, 2] bcast_S32x511_S32x1x511_0_2 (invLen m c) (ix3 b 0 mm) = opI (kf3 (A2 m c)) b mm := by
  rw [Segments.row_at, Segments.invLen_at]

/-- The segment weights as the call finds them. -/
theorem w37_at (b : Fin 32) (mm : Fin 511) :
    broadcastInDim S32x1x511 ![0, 2] bcast_S32x511_S32x1x511_0_2 (segW m c) (ix3 b 0 mm) = opQ (kfb (A3 m c)) b mm := by
  rw [Segments.row_at, Segments.segW_at]

end Cert.KernelIdeal.Prefix

end
-- ==== Proof.KNum.lean ====
/-
  The label numerator of one batch element, read at its one index: the composition of the body's pure values over the
  point's input blocks equals the weighted sum over the path of one minus the label. Layout operations (casts that
  drop a leading unit axis, one column or one row of a matrix, a column or a row repeated over a matrix, a vector as a
  one-column matrix) are read at indices written by coordinates; the two minima along the rows and the sum down the
  one column are read as a fold of min and a finite sum.
-/
import proofs.«159981_j34763465294043_2_alg».proof.Proof.Body
import proofs.«159981_j34763465294043_2_alg».proof.Proof.Spec
import proofs.«159981_j34763465294043_2_alg».proof.Proof.LibColSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KNum

open Cert.KernelIdeal Cert.KernelIdeal.Gen Idealize.ShloMosaic Idealize.ShloMosaic.ValueIdx

/-! ## Layout operations at an index -/

section Layout
variable {α : Type}

/-- A column `[a, 1]` repeated over `[a, b]` reads, at `(p, q)`, the column at row `p`. -/
theorem bcol_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` as the one-column matrix `[a, 1]` reads, at `(i, 0)`, the vector at `i`. -/
theorem cast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one entry of a `[1, 1]` matrix taken out is the matrix at `(0, 0)`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => ?_)
  match ax with
  | ⟨0, _⟩ => rfl
  | ⟨1, _⟩ => rfl

end Layout

/-! ## The input blocks as matrices -/

section Blocks

theorem pay4_apply (x0 : Vec Ideal S1x512x3 .f32) (n : Fin 512) (d : Fin 3) :
    k0_pay4 (F := Ideal) x0 (ix2 n d) = x0 (ix3 (0 : Fin 1) n d) :=
  shapeCast_1ab_ab_apply x0 _ n d

theorem pay5_apply (x1 : Vec Ideal S1x512x1 .f32) (n : Fin 512) (u : Fin 1) :
    k0_pay5 (F := Ideal) x1 (ix2 n u) = x1 (ix3 (0 : Fin 1) n u) :=
  shapeCast_1ab_ab_apply x1 _ n u

theorem pay6_apply (x0 : Vec Ideal S1x512x3 .f32) (x1 : Vec Ideal S1x512x1 .f32) (n : Fin 512) :
    k0_pay6 (F := Ideal) x0 x1 (ix2 n (0 : Fin 1)) = x0 (ix3 (0 : Fin 1) n (0 : Fin 3)) * x1 (ix3 (0 : Fin 1) n (0 : Fin 1)) := by
  show extractStridedSlice S512x1 ![0, 0] (k0_pay4 x0) _ (ix2 n (0 : Fin 1)) * k0_pay5 x1 (ix2 n (0 : Fin 1)) = _
  rw [slice2_axis1_apply 0 (k0_pay4 x0) _ n (0 : Fin 1) (0 : Fin 3) rfl, pay4_apply, pay5_apply]

theorem pay7_apply (x0 : Vec Ideal S1x512x3 .f32) (x1 : Vec Ideal S1x512x1 .f32) (n : Fin 512) :
    k0_pay7 (F := Ideal) x0 x1 (ix2 n (0 : Fin 1)) = x0 (ix3 (0 : Fin 1) n (1 : Fin 3)) * x1 (ix3 (0 : Fin 1) n (0 : Fin 1)) := by
  show extractStridedSlice S512x1 ![0, 1] (k0_pay4 x0) _ (ix2 n (0 : Fin 1)) * k0_pay5 x1 (ix2 n (0 : Fin 1)) = _
  rw [slice2_axis1_apply 1 (k0_pay4 x0) _ n (0 : Fin 1) (1 : Fin 3) rfl, pay4_apply, pay5_apply]

theorem pay8_apply (x0 : Vec Ideal S1x512x3 .f32) (x1 : Vec Ideal S1x512x1 .f32) (n : Fin 512) :
    k0_pay8 (F := Ideal) x0 x1 (ix2 n (0 : Fin 1)) = x0 (ix3 (0 : Fin 1) n (2 : Fin 3)) * x1 (ix3 (0 : Fin 1) n (0 : Fin 1)) := by
  show extractStridedSlice S512x1 ![0, 2] (k0_pay4 x0) _ (ix2 n (0 : Fin 1)) * k0_pay5 x1 (ix2 n (0 : Fin 1)) = _
  rw [slice2_axis1_apply 2 (k0_pay4 x0) _ n (0 : Fin 1) (2 : Fin 3) rfl, pay4_apply, pay5_apply]

theorem pay12_apply (x : Vec Ideal S1x3x511 .f32) (d : Fin 3) (m : Fin 511) :
    k0_pay12 (F := Ideal) x (ix2 d m) = x (ix3 (0 : Fin 1) d m) :=
  shapeCast_1ab_ab_apply x _ d m

theorem pay13_apply (x : Vec Ideal S1x3x511 .f32) (d : Fin 3) (m : Fin 511) :
    k0_pay13 (F := Ideal) x (ix2 d m) = x (ix3 (0 : Fin 1) d m) :=
  shapeCast_1ab_ab_apply x _ d m

theorem pay14_apply (x : Vec Ideal S1x1x511 .f32) (u : Fin 1) (m : Fin 511) :
    k0_pay14 (F := Ideal) x (ix2 u m) = x (ix3 (0 : Fin 1) u m) :=
  shapeCast_1ab_ab_apply x _ u m

theorem pay15_apply (x : Vec Ideal S1x1x511 .f32) (u : Fin 1) (m : Fin 511) :
    k0_pay15 (F := Ideal) x (ix2 u m) = x (ix3 (0 : Fin 1) u m) :=
  shapeCast_1ab_ab_apply x _ u m

theorem pay16_apply (x : Vec Ideal S1x1x511 .f32) (u : Fin 1) (m : Fin 511) :
    k0_pay16 (F := Ideal) x (ix2 u m) = x (ix3 (0 : Fin 1) u m) :=
  shapeCast_1ab_ab_apply x _ u m

theorem pay17_apply (x : Vec Ideal S1x3x1 .f32) (d : Fin 3) (u : Fin 1) :
    k0_pay17 (F := Ideal) x (ix2 d u) = x (ix3 (0 : Fin 1) d u) :=
  shapeCast_1ab_ab_apply x _ d u

theorem pay18_apply (x : Vec Ideal S1x3x1 .f32) (d : Fin 3) (u : Fin 1) :
    k0_pay18 (F := Ideal) x (ix2 d u) = x (ix3 (0 : Fin 1) d u) :=
  shapeCast_1ab_ab_apply x _ d u

theorem pay21_apply (v17 : FVec Ideal S3x511 .f32) (m : Fin 511) :
    k0_pay21 (F := Ideal) v17 (ix2 (0 : Fin 1) m) = v17 (ix2 (2 : Fin 3) m) :=
  slice2_axis0_apply 2 v17 slices_S3x511_o2_0_S1x511 (0 : Fin 1) m (2 : Fin 3) rfl

theorem pay23_apply (x : Vec Ideal S1x3x512 .f32) (d : Fin 3) (g : Fin 512) :
    k0_pay23 (F := Ideal) x (ix2 d g) = x (ix3 (0 : Fin 1) d g) :=
  shapeCast_1ab_ab_apply x _ d g

theorem pay24_apply (x : Vec Ideal S1x1x512 .f32) (u : Fin 1) (g : Fin 512) :
    k0_pay24 (F := Ideal) x (ix2 u g) = x (ix3 (0 : Fin 1) u g) :=
  shapeCast_1ab_ab_apply x _ u g

end Blocks

/-! ## Rows of a three-row matrix, and the minimum along a row -/

section Rows
variable {α : Type}

theorem row0_apply {b : ℕ} (X : (⟨2, ![3, b]⟩ : Shape).Idx → α) (hs : (⟨2, ![3, b]⟩ : Shape).Slices ![0, 0] ⟨2, ![1, b]⟩)
    (q : Fin b) : extractStridedSlice ⟨2, ![1, b]⟩ ![0, 0] X hs (ix2 (0 : Fin 1) q) = X (ix2 (0 : Fin 3) q) :=
  slice2_axis0_apply 0 X hs (0 : Fin 1) q (0 : Fin 3) rfl

theorem row1_apply {b : ℕ} (X : (⟨2, ![3, b]⟩ : Shape).Idx → α) (hs : (⟨2, ![3, b]⟩ : Shape).Slices ![1, 0] ⟨2, ![1, b]⟩)
    (q : Fin b) : extractStridedSlice ⟨2, ![1, b]⟩ ![1, 0] X hs (ix2 (0 : Fin 1) q) = X (ix2 (1 : Fin 3) q) :=
  slice2_axis0_apply 1 X hs (0 : Fin 1) q (1 : Fin 3) rfl

theorem row2_apply {b : ℕ} (X : (⟨2, ![3, b]⟩ : Shape).Idx → α) (hs : (⟨2, ![3, b]⟩ : Shape).Slices ![2, 0] ⟨2, ![1, b]⟩)
    (q : Fin b) : extractStridedSlice ⟨2, ![1, b]⟩ ![2, 0] X hs (ix2 (0 : Fin 1) q) = X (ix2 (2 : Fin 3) q) :=
  slice2_axis0_apply 2 X hs (0 : Fin 1) q (2 : Fin 3) rfl

end Rows

/-- The exponential of a vector at an index. -/
theorem expf_apply {s : Shape} {φ : FTy} (a : FVec Ideal s φ) (i : s.Idx) : exp a i = Ideal.exp (a i) := rfl

/-- The minimum along the second axis of an [a, k] block of exact values, started from the word of +∞, at row p: the
    running minimum over the lane coordinate of the block's entries in that row. -/
theorem laneMin_apply {a k : ℕ} (src : FVec Ideal ⟨2, ![a, k]⟩ .f32)
    (h : (⟨2, ![a, k]⟩ : Shape).Reduces [1] ⟨1, ![a]⟩) (hφ : FKind.Formats .f32)
    (hacc : (0x7F800000#32 : BitVec 32) = 0x7F800000#32) (p : Fin a) :
    multiReduction .minimumf [1] ⟨1, ![a]⟩ src 0x7F800000#32 h hφ hacc (ix1 p)
      = (Finset.univ : Finset (Fin k)).fold min Spec.INF (fun d => src (ix2 p d)) := by
  refine (multiReduction_minimumf_eq_fold src _ h hφ hacc (ix1 p)).trans ?_
  refine (h.fold_filter_drop_single _ _ src (ix1 p)).trans ?_
  exact Finset.fold_congr fun d _ => congrArg src (funext fun ax => by
    match ax with
    | ⟨0, _⟩ => rfl
    | ⟨1, _⟩ => rfl)

/-! ## The foot of a point on a segment -/

theorem pay19_apply (v8 v10 v12 : FVec Ideal S512x1 .f32) (v19 : FVec Ideal S3x511 .f32) (v21 v23 : FVec Ideal S1x511 .f32)
    (n : Fin 512) (m : Fin 511) :
    k0_pay19 (F := Ideal) v8 v10 v12 v19 v21 v23 (ix2 n m)
      = min Spec.ONE (max Spec.ZERO (((((Spec.ZERO + v8 (ix2 n (0 : Fin 1)) * v19 (ix2 (0 : Fin 3) m))
          + v10 (ix2 n (0 : Fin 1)) * v19 (ix2 (1 : Fin 3) m)) + v12 (ix2 n (0 : Fin 1)) * v19 (ix2 (2 : Fin 3) m))
          - v23 (ix2 (0 : Fin 1) m)) * v21 (ix2 (0 : Fin 1) m))) := by
  simp only [k0_pay19, minimumf_apply, maximumf_apply, mulf_apply, addf_apply, subf_apply, broadcast_apply,
    bcol_apply, row0_apply, row1_apply, row2_apply, broadcastTo_1b_ab_apply]
  rfl

/-! ## The squared distance to a segment -/

theorem pay20_apply (v8 v10 v12 : FVec Ideal S512x1 .f32) (v17 v19 : FVec Ideal S3x511 .f32) (v21 v23 : FVec Ideal S1x511 .f32)
    (v27 : FVec Ideal S3x1 .f32) (n : Fin 512) (m : Fin 511) :
    k0_pay20 (F := Ideal) v8 v10 v12 v17 v19 v21 v23 v27 (ix2 n m)
      = (Spec.ZERO
          + ((v8 (ix2 n (0 : Fin 1)) - (v17 (ix2 (0 : Fin 3) m) + k0_pay19 v8 v10 v12 v19 v21 v23 (ix2 n m) * v19 (ix2 (0 : Fin 3) m)))
              * v27 (ix2 (0 : Fin 3) (0 : Fin 1)))
            * ((v8 (ix2 n (0 : Fin 1)) - (v17 (ix2 (0 : Fin 3) m) + k0_pay19 v8 v10 v12 v19 v21 v23 (ix2 n m) * v19 (ix2 (0 : Fin 3) m)))
              * v27 (ix2 (0 : Fin 3) (0 : Fin 1))))
        + ((v10 (ix2 n (0 : Fin 1)) - (v17 (ix2 (1 : Fin 3) m) + k0_pay19 v8 v10 v12 v19 v21 v23 (ix2 n m) * v19 (ix2 (1 : Fin 3) m)))
              * v27 (ix2 (1 : Fin 3) (0 : Fin 1)))
            * ((v10 (ix2 n (0 : Fin 1)) - (v17 (ix2 (1 : Fin 3) m) + k0_pay19 v8 v10 v12 v19 v21 v23 (ix2 n m) * v19 (ix2 (1 : Fin 3) m)))
              * v27 (ix2 (1 : Fin 3) (0 : Fin 1))) := by
  simp only [k0_pay20, mulf_apply, addf_apply, subf_apply, broadcast_apply,
    bcol_apply, row0_apply, row1_apply, row2_apply, broadcastTo_1b_ab_apply, extractAt_11]
  rfl

/-! ## The bump of the nearest segment -/

theorem pay22_apply (v12 : FVec Ideal S512x1 .f32) (v19 : FVec Ideal S3x511 .f32) (v25 : FVec Ideal S1x511 .f32)
    (v27 : FVec Ideal S3x1 .f32) (v53 v82 : FVec Ideal S512x511 .f32) (v83 : FVec Ideal S1x511 .f32) (n : Fin 512) :
    k0_pay22 (F := Ideal) v12 v19 v25 v27 v53 v82 v83 (ix2 n (0 : Fin 1))
      = Ideal.exp (Spec.NEGHALF * (Finset.univ : Finset (Fin 511)).fold min Spec.INF (fun m =>
          (v82 (ix2 n m)
            + ((v12 (ix2 n (0 : Fin 1)) - (v83 (ix2 (0 : Fin 1) m) + v53 (ix2 n m) * v19 (ix2 (2 : Fin 3) m)))
                * v27 (ix2 (2 : Fin 3) (0 : Fin 1)))
              * ((v12 (ix2 n (0 : Fin 1)) - (v83 (ix2 (0 : Fin 1) m) + v53 (ix2 n m) * v19 (ix2 (2 : Fin 3) m)))
                * v27 (ix2 (2 : Fin 3) (0 : Fin 1))))
          + (Spec.ONE - v25 (ix2 (0 : Fin 1) m)) * Spec.BIG)) := by
  unfold k0_pay22
  refine (expf_apply _ _).trans (congrArg Ideal.exp ?_)
  refine (mulf_apply _ _ _).trans (congrArg (Spec.NEGHALF * ·) ?_)
  refine (cast_a_a1_apply _ _ n (0 : Fin 1)).trans ?_
  refine (laneMin_apply _ _ _ _ n).trans ?_
  refine Finset.fold_congr fun m _ => ?_
  simp only [mulf_apply, broadcast_apply, addf_apply, subf_apply,
    bcol_apply, row0_apply, row1_apply, row2_apply, broadcastTo_1b_ab_apply, extractAt_11]
  rfl

/-! ## The squared distance to a target point -/

theorem pay25_apply (v8 v10 : FVec Ideal S512x1 .f32) (v29 : FVec Ideal S3x1 .f32) (x7 : Vec Ideal S1x3x512 .f32)
    (n g : Fin 512) :
    k0_pay25 (F := Ideal) v8 v10 v29 x7 (ix2 n g)
      = (Spec.ZERO
          + ((v8 (ix2 n (0 : Fin 1)) - x7 (ix3 (0 : Fin 1) (0 : Fin 3) g)) * v29 (ix2 (0 : Fin 3) (0 : Fin 1)))
            * ((v8 (ix2 n (0 : Fin 1)) - x7 (ix3 (0 : Fin 1) (0 : Fin 3) g)) * v29 (ix2 (0 : Fin 3) (0 : Fin 1))))
        + ((v10 (ix2 n (0 : Fin 1)) - x7 (ix3 (0 : Fin 1) (1 : Fin 3) g)) * v29 (ix2 (1 : Fin 3) (0 : Fin 1)))
            * ((v10 (ix2 n (0 : Fin 1)) - x7 (ix3 (0 : Fin 1) (1 : Fin 3) g)) * v29 (ix2 (1 : Fin 3) (0 : Fin 1))) := by
  simp only [k0_pay25, mulf_apply, addf_apply, subf_apply, broadcast_apply,
    bcol_apply, row0_apply, row1_apply, row2_apply, broadcastTo_1b_ab_apply, extractAt_11, pay23_apply]
  rfl

/-! ## The label numerator over the intermediate values -/

theorem pay26_apply (v6 v12 : FVec Ideal S512x1 .f32) (v29 : FVec Ideal S3x1 .f32) (v107 : FVec Ideal S512x1 .f32)
    (v109 : FVec Ideal S3x512 .f32) (v111 : FVec Ideal S1x512 .f32) (v132 : FVec Ideal S512x512 .f32) :
    k0_pay26 (F := Ideal) v6 v12 v29 v107 v109 v111 v132 (ix2 (0 : Fin 1) (0 : Fin 1))
      = ∑ n : Fin 512, (Spec.ONE - min Spec.ONE (max Spec.ZERO (Spec.W6 * v107 (ix2 n (0 : Fin 1))
          + Spec.W4 * Ideal.exp (Spec.NEGHALF * (Finset.univ : Finset (Fin 512)).fold min Spec.INF (fun g =>
              (v132 (ix2 n g)
                + ((v12 (ix2 n (0 : Fin 1)) - v109 (ix2 (2 : Fin 3) g)) * v29 (ix2 (2 : Fin 3) (0 : Fin 1)))
                  * ((v12 (ix2 n (0 : Fin 1)) - v109 (ix2 (2 : Fin 3) g)) * v29 (ix2 (2 : Fin 3) (0 : Fin 1))))
              + (Spec.ONE - v111 (ix2 (0 : Fin 1) g)) * Spec.BIG))))) * v6 (ix2 n (0 : Fin 1)) := by
  unfold k0_pay26
  refine (cast_a_a1_apply _ _ (0 : Fin 1) (0 : Fin 1)).trans ?_
  refine (Cert.ColSum.colSum_apply _ _ _ _ (0 : Fin 1)).trans ?_
  refine Finset.sum_congr rfl fun n _ => ?_
  refine (mulf_apply _ _ _).trans (congrArg (· * v6 (ix2 n (0 : Fin 1))) ?_)
  refine (subf_apply _ _ _).trans (congrArg (Spec.ONE - ·) ?_)
  refine (minimumf_apply _ _ _).trans (congrArg (min Spec.ONE ·) ?_)
  refine (maximumf_apply _ _ _).trans (congrArg (max Spec.ZERO ·) ?_)
  refine (addf_apply _ _ _).trans (congrArg (Spec.W6 * v107 (ix2 n (0 : Fin 1)) + ·) ?_)
  refine (mulf_apply _ _ _).trans (congrArg (Spec.W4 * ·) ?_)
  refine (expf_apply _ _).trans (congrArg Ideal.exp ?_)
  refine (mulf_apply _ _ _).trans (congrArg (Spec.NEGHALF * ·) ?_)
  refine (cast_a_a1_apply _ _ n (0 : Fin 1)).trans ?_
  refine (laneMin_apply _ _ _ _ n).trans ?_
  refine Finset.fold_congr fun g _ => ?_
  simp only [mulf_apply, broadcast_apply, addf_apply, subf_apply,
    bcol_apply, row0_apply, row1_apply, row2_apply, broadcastTo_1b_ab_apply, extractAt_11]
  rfl

/-! ## The composition over the input blocks -/

section Final

variable (x0 : Vec Ideal S1x512x3 .f32) (x1 : Vec Ideal S1x512x1 .f32) (x2 x3 : Vec Ideal S1x3x511 .f32)
  (x4 x5 x6 : Vec Ideal S1x1x511 .f32) (x7 : Vec Ideal S1x3x512 .f32) (x8 : Vec Ideal S1x1x512 .f32)
  (x9 x10 : Vec Ideal S1x3x1 .f32)

local notation "cP" => (fun (n : Fin 512) (d : Fin 3) => x0 (ix3 (0 : Fin 1) n d))
local notation "cM" => (fun (n : Fin 512) => x1 (ix3 (0 : Fin 1) n (0 : Fin 1)))
local notation "cA" => (fun (d : Fin 3) (m : Fin 511) => x2 (ix3 (0 : Fin 1) d m))
local notation "cS" => (fun (d : Fin 3) (m : Fin 511) => x3 (ix3 (0 : Fin 1) d m))
local notation "cI" => (fun (m : Fin 511) => x4 (ix3 (0 : Fin 1) (0 : Fin 1) m))
local notation "cD" => (fun (m : Fin 511) => x5 (ix3 (0 : Fin 1) (0 : Fin 1) m))
local notation "cQ" => (fun (m : Fin 511) => x6 (ix3 (0 : Fin 1) (0 : Fin 1) m))
local notation "cT" => (fun (d : Fin 3) (g : Fin 512) => x7 (ix3 (0 : Fin 1) d g))
local notation "cR" => (fun (g : Fin 512) => x8 (ix3 (0 : Fin 1) (0 : Fin 1) g))
local notation "cL" => (fun (d : Fin 3) => x9 (ix3 (0 : Fin 1) d (0 : Fin 1)))
local notation "cPt" => (fun (d : Fin 3) => x10 (ix3 (0 : Fin 1) d (0 : Fin 1)))

theorem foot_eq (n : Fin 512) (m : Fin 511) :
    k0_pay19 (F := Ideal) (k0_pay6 x0 x1) (k0_pay7 x0 x1) (k0_pay8 x0 x1) (k0_pay13 x3) (k0_pay14 x4) (k0_pay15 x5) (ix2 n m)
      = Spec.foot cP cM cS cI cD n m := by
  simp only [pay19_apply, pay6_apply, pay7_apply, pay8_apply, pay13_apply, pay14_apply, pay15_apply]
  rfl

theorem dist2_eq (n : Fin 512) (m : Fin 511) :
    k0_pay20 (F := Ideal) (k0_pay6 x0 x1) (k0_pay7 x0 x1) (k0_pay8 x0 x1) (k0_pay12 x2) (k0_pay13 x3) (k0_pay14 x4)
        (k0_pay15 x5) (k0_pay17 x9) (ix2 n m)
      = (Spec.ZERO + Spec.lineSq cP cM cA cS cI cD cL 0 n m) + Spec.lineSq cP cM cA cS cI cD cL 1 n m := by
  simp only [pay20_apply, foot_eq, pay6_apply, pay7_apply, pay12_apply, pay13_apply, pay17_apply]
  rfl

theorem labLine_eq (n : Fin 512) :
    k0_pay22 (F := Ideal) (k0_pay8 x0 x1) (k0_pay13 x3) (k0_pay16 x6) (k0_pay17 x9)
        (k0_pay19 (k0_pay6 x0 x1) (k0_pay7 x0 x1) (k0_pay8 x0 x1) (k0_pay13 x3) (k0_pay14 x4) (k0_pay15 x5))
        (k0_pay20 (k0_pay6 x0 x1) (k0_pay7 x0 x1) (k0_pay8 x0 x1) (k0_pay12 x2) (k0_pay13 x3) (k0_pay14 x4) (k0_pay15 x5)
          (k0_pay17 x9))
        (k0_pay21 (k0_pay12 x2)) (ix2 n (0 : Fin 1))
      = Spec.labLine cP cM cA cS cI cD cQ cL n := by
  refine (pay22_apply _ _ _ _ _ _ _ n).trans ?_
  unfold Spec.labLine
  refine congrArg Ideal.exp (congrArg (Spec.NEGHALF * ·) (Finset.fold_congr fun m _ => ?_))
  simp only [dist2_eq, foot_eq, pay8_apply, pay21_apply, pay12_apply, pay13_apply, pay16_apply, pay17_apply]
  rfl

theorem dist2p_eq (n g : Fin 512) :
    k0_pay25 (F := Ideal) (k0_pay6 x0 x1) (k0_pay7 x0 x1) (k0_pay18 x10) x7 (ix2 n g)
      = (Spec.ZERO + Spec.pointSq cP cM cT cPt 0 n g) + Spec.pointSq cP cM cT cPt 1 n g := by
  simp only [pay25_apply, pay6_apply, pay7_apply, pay18_apply]
  rfl

theorem labPoint_eq (n : Fin 512) :
    Ideal.exp (Spec.NEGHALF * (Finset.univ : Finset (Fin 512)).fold min Spec.INF (fun g =>
        (k0_pay25 (F := Ideal) (k0_pay6 x0 x1) (k0_pay7 x0 x1) (k0_pay18 x10) x7 (ix2 n g)
          + ((k0_pay8 (F := Ideal) x0 x1 (ix2 n (0 : Fin 1)) - k0_pay23 (F := Ideal) x7 (ix2 (2 : Fin 3) g))
              * k0_pay18 (F := Ideal) x10 (ix2 (2 : Fin 3) (0 : Fin 1)))
            * ((k0_pay8 (F := Ideal) x0 x1 (ix2 n (0 : Fin 1)) - k0_pay23 (F := Ideal) x7 (ix2 (2 : Fin 3) g))
              * k0_pay18 (F := Ideal) x10 (ix2 (2 : Fin 3) (0 : Fin 1))))
        + (Spec.ONE - k0_pay24 (F := Ideal) x8 (ix2 (0 : Fin 1) g)) * Spec.BIG))
      = Spec.labPoint cP cM cT cR cPt n := by
  unfold Spec.labPoint
  refine congrArg Ideal.exp (congrArg (Spec.NEGHALF * ·) (Finset.fold_congr fun g _ => ?_))
  simp only [dist2p_eq, pay8_apply, pay23_apply, pay24_apply, pay18_apply]
  rfl

end Final

/-- The label numerator of one batch element at its one index: the weighted sum over the path of one minus the label. -/
theorem vNum_apply (x0 : Vec Ideal S1x512x3 .f32) (x1 : Vec Ideal S1x512x1 .f32) (x2 x3 : Vec Ideal S1x3x511 .f32)
    (x4 x5 x6 : Vec Ideal S1x1x511 .f32) (x7 : Vec Ideal S1x3x512 .f32) (x8 : Vec Ideal S1x1x512 .f32) (x9 x10 : Vec Ideal S1x3x1 .f32) :
    Body.vNum (F := Ideal) x0 x1 x2 x3 x4 x5 x6 x7 x8 x9 x10 (ix2 0 0)
      = Cert.Spec.numer (fun n d => x0 (ix3 0 n d)) (fun n => x1 (ix3 0 n 0)) (fun d m => x2 (ix3 0 d m)) (fun d m => x3 (ix3 0 d m))
          (fun m => x4 (ix3 0 0 m)) (fun m => x5 (ix3 0 0 m)) (fun m => x6 (ix3 0 0 m)) (fun d g => x7 (ix3 0 d g)) (fun g => x8 (ix3 0 0 g))
          (fun d => x9 (ix3 0 d 0)) (fun d => x10 (ix3 0 d 0)) := by
  unfold Body.vNum
  refine (pay26_apply _ _ _ _ _ _ _).trans ?_
  unfold Cert.Spec.numer
  refine Finset.sum_congr rfl fun n _ => ?_
  rw [labLine_eq, labPoint_eq, pay5_apply]
  rfl

end Cert.KernelIdeal.KNum

end
-- ==== Proof.PointValues.lean ====
/-
  Per grid point, the body's four numbers are the mathematics' functions of the argument arrays at the point's batch
  element: each input block is the slab of its operand array at that batch element, and each operand array read at an
  index is the corresponding operand of the mathematics.
-/
import proofs.«159981_j34763465294043_2_alg».proof.Proof.Acc
import proofs.«159981_j34763465294043_2_alg».proof.Proof.PrefixTerms
import proofs.«159981_j34763465294043_2_alg».proof.Proof.PrefixScales
import proofs.«159981_j34763465294043_2_alg».proof.Proof.PrefixLayout
import proofs.«159981_j34763465294043_2_alg».proof.Proof.PrefixSegments
import proofs.«159981_j34763465294043_2_alg».proof.Proof.KNum

noncomputable section

namespace Cert.KernelIdeal.PointValues

open Cert.KernelIdeal Cert.KernelIdeal.Gen Cert.KernelIdeal.Prefix Cert.KernelIdeal.Blocks Idealize.ShloMosaic Idealize.ShloMosaic.TcCoe Idealize.SL.Sem Idealize.ShloMosaic.ValueIdx Cert.Spec

variable (m : (ℓ : Loc nD τ sig) → Buf (Elt Ideal) ℓ) (c : Dev nD)

/-! ## The point's blocks as the operands of its batch element -/

/-- The path points. -/
theorem blk0_eq (t : Fin cfg0.N) :
    (fun n d => (iblk m c 0 t : Vec Ideal S1x512x3 .f32) (ix3 0 n d)) = opP (kf3 (A0 m c)) (bt t) :=
  funext fun n => funext fun d => (iblk0 m c t n d).trans ((congrFun (V_main_arg0 m c) _).trans rfl)

/-- The path weights. -/
theorem blk1_eq (t : Fin cfg0.N) :
    (fun n => (iblk m c 1 t : Vec Ideal S1x512x1 .f32) (ix3 0 n 0)) = opM (kfb (A1 m c)) (bt t) :=
  funext fun n => (iblk1 m c t n 0).trans ((congrFun (V_v32 m c) _).trans (w32_at m c (bt t) n))

/-- The first observation block. -/
theorem blk11_eq (t : Fin cfg0.N) :
    (fun r l => (iblk m c 11 t : Vec Ideal S1x32x128 .f32) (ix3 0 r l)) = opO (kfo (A4 m c)) (bt t) :=
  funext fun r => funext fun l => (iblk11 m c t r l).trans ((congrFun (V_v42 m c) _).trans (w42_at m c (bt t) r l))

/-- The second observation block. -/
theorem blk12_eq (t : Fin cfg0.N) :
    (fun r l => (iblk m c 12 t : Vec Ideal S1x32x128 .f32) (ix3 0 r l)) = opO (kfo (A5 m c)) (bt t) :=
  funext fun r => funext fun l => (iblk12 m c t r l).trans ((congrFun (V_v43 m c) _).trans (w43_at m c (bt t) r l))

/-- The segments' base points. -/
theorem blk2_eq (t : Fin cfg0.N) :
    (fun d mm => (iblk m c 2 t : Vec Ideal S1x3x511 .f32) (ix3 0 d mm)) = opA (kf3 (A2 m c)) (bt t) :=
  funext fun d => funext fun mm => (iblk2 m c t d mm).trans ((congrFun (V_v33 m c) _).trans (w33_at m c (bt t) d mm))

/-- The segments' directions. -/
theorem blk3_eq (t : Fin cfg0.N) :
    (fun d mm => (iblk m c 3 t : Vec Ideal S1x3x511 .f32) (ix3 0 d mm)) = opS (kf3 (A2 m c)) (bt t) :=
  funext fun d => funext fun mm => (iblk3 m c t d mm).trans ((congrFun (V_v34 m c) _).trans (w34_at m c (bt t) d mm))

/-- The reciprocal squared segment lengths. -/
theorem blk4_eq (t : Fin cfg0.N) :
    (fun mm => (iblk m c 4 t : Vec Ideal S1x1x511 .f32) (ix3 0 0 mm)) = opI (kf3 (A2 m c)) (bt t) :=
  funext fun mm => (iblk4 m c t 0 mm).trans ((congrFun (V_v35 m c) _).trans (w35_at m c (bt t) mm))

/-- The base points' inner products with the directions. -/
theorem blk5_eq (t : Fin cfg0.N) :
    (fun mm => (iblk m c 5 t : Vec Ideal S1x1x511 .f32) (ix3 0 0 mm)) = opD (kf3 (A2 m c)) (bt t) :=
  funext fun mm => (iblk5 m c t 0 mm).trans ((congrFun (V_v36 m c) _).trans (w36_at m c (bt t) mm))

/-- The segment weights. -/
theorem blk6_eq (t : Fin cfg0.N) :
    (fun mm => (iblk m c 6 t : Vec Ideal S1x1x511 .f32) (ix3 0 0 mm)) = opQ (kfb (A3 m c)) (bt t) :=
  funext fun mm => (iblk6 m c t 0 mm).trans ((congrFun (V_v37 m c) _).trans (w37_at m c (bt t) mm))

/-- The target points. -/
theorem blk7_eq (t : Fin cfg0.N) :
    (fun d g => (iblk m c 7 t : Vec Ideal S1x3x512 .f32) (ix3 0 d g)) = opT (kf3 (A2 m c)) (bt t) :=
  funext fun d => funext fun g => (iblk7 m c t d g).trans ((congrFun (V_v38 m c) _).trans (w38_at m c (bt t) d g))

/-- The target weights. -/
theorem blk8_eq (t : Fin cfg0.N) :
    (fun g => (iblk m c 8 t : Vec Ideal S1x1x512 .f32) (ix3 0 0 g)) = opR (kfb (A3 m c)) (bt t) :=
  funext fun g => (iblk8 m c t 0 g).trans ((congrFun (V_v39 m c) _).trans (w39_at m c (bt t) g))

/-- The reciprocal scales, first copy. -/
theorem blk9_eq (t : Fin cfg0.N) :
    (fun d => (iblk m c 9 t : Vec Ideal S1x3x1 .f32) (ix3 0 d 0)) = opL (kE m c) (bt t) :=
  funext fun d => (iblk9 m c t d 0).trans ((congrFun (V_v40 m c) _).trans (w40_at m c (bt t) d))

/-- The reciprocal scales, second copy. -/
theorem blk10_eq (t : Fin cfg0.N) :
    (fun d => (iblk m c 10 t : Vec Ideal S1x3x1 .f32) (ix3 0 d 0)) = opL (kE m c) (bt t) :=
  funext fun d => (iblk10 m c t d 0).trans ((congrFun (V_v41 m c) _).trans (w40_at m c (bt t) d))

/-! ## The four numbers -/

theorem den_eq (t : Fin cfg0.N) : Acc.den m c t (ix2 0 0) = denom (opM (kfb (A1 m c)) (bt t)) := by
  unfold Acc.den
  exact (KSmall.vDen_apply (iblk m c 1 t)).trans (congrArg denom (blk1_eq m c t))

theorem smo_eq (t : Fin cfg0.N) : Acc.smo m c t (ix2 0 0) = smooth (opP (kf3 (A0 m c)) (bt t)) (opM (kfb (A1 m c)) (bt t)) := by
  unfold Acc.smo
  exact (KSmall.vSmooth_apply (iblk m c 0 t) (iblk m c 1 t)).trans (congrArg₂ smooth (blk0_eq m c t) (blk1_eq m c t))

theorem cae_eq (t : Fin cfg0.N) : Acc.cae m c t (ix2 0 0) = cae (opO (kfo (A4 m c)) (bt t)) (opO (kfo (A5 m c)) (bt t)) := by
  unfold Acc.cae
  exact (KSmall.vCae_apply (iblk m c 11 t) (iblk m c 12 t)).trans (congrArg₂ cae (blk11_eq m c t) (blk12_eq m c t))

theorem num_eq (t : Fin cfg0.N) : Acc.num m c t (ix2 0 0) = numer (opP (kf3 (A0 m c)) (bt t)) (opM (kfb (A1 m c)) (bt t)) (opA (kf3 (A2 m c)) (bt t)) (opS (kf3 (A2 m c)) (bt t)) (opI (kf3 (A2 m c)) (bt t)) (opD (kf3 (A2 m c)) (bt t)) (opQ (kfb (A3 m c)) (bt t)) (opT (kf3 (A2 m c)) (bt t)) (opR (kfb (A3 m c)) (bt t)) (opL (kE m c) (bt t)) (opL (kE m c) (bt t)) := by
  unfold Acc.num
  refine (KNum.vNum_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t)).trans ?_
  rw [blk0_eq m c t, blk1_eq m c t, blk2_eq m c t, blk3_eq m c t, blk4_eq m c t, blk5_eq m c t, blk6_eq m c t,
    blk7_eq m c t, blk8_eq m c t, blk9_eq m c t, blk10_eq m c t]

end Cert.KernelIdeal.PointValues

end
-- ==== Proof.Result.lean ====
/-
  The kernel program's four results as the Spec's functions of the argument arrays: the sum of the two cores'
  blocks at entries (0,0) … (0,3) is the sum over all 32 batch elements of the four per-element numbers.
-/
import proofs.«159981_j34763465294043_2_alg».proof.Proof.Tail
import proofs.«159981_j34763465294043_2_alg».proof.Proof.PointValues

noncomputable section

namespace Cert.KernelIdeal.Result

open Cert.KernelIdeal Cert.KernelIdeal.Gen Cert.KernelIdeal.Prefix Cert.KernelIdeal.Blocks Idealize.ShloMosaic Idealize.ShloMosaic.TcCoe Idealize.SL.Sem Idealize.ShloMosaic.ValueIdx Cert.Spec
open scoped BigOperators

variable (m : (ℓ : Loc nD τ sig) → Buf (Elt Ideal) ℓ) (c : Dev nD)

/-- A sum over the grid's points of a function of the point's batch element is the sum over the batch. -/
theorem sum_points (f : Fin 32 → EReal) : ∑ t : Fin cfg0.N, f (bt t) = ∑ b : Fin 32, f b :=
  Fintype.sum_equiv (finCongr (show cfg0.N = 32 from N_0)) _ _ (fun _ => rfl)

/-- Entry (0, j) of the sum of the two blocks is the sum over all points of the tiles' entry (0, j). -/
theorem R_G_at (j : Fin 128) : Tail.R (Final.G m c) (ix2 0 j) = ∑ t : Fin cfg0.N, Acc.tile m c t 0 j := by
  have hN : cfg0.N = 32 := N_0
  rw [Tail.R_at, Fin.sum_univ_two]
  show ZERO + ((∑ k ∈ Finset.Ico (16 * 0) (16 * 0 + 16), Acc.tileN m c k (0 : Fin 8) j)
    + (∑ k ∈ Finset.Ico (16 * 1) (16 * 1 + 16), Acc.tileN m c k (0 : Fin 8) j)) = _
  rw [show ZERO = 0 from Ideal.ofBits_zero_f32, zero_add, Finset.sum_Ico_consecutive _ (by norm_num) (by norm_num)]
  rw [show (16 * 0 : ℕ) = 0 from rfl, show (16 * 1 + 16 : ℕ) = cfg0.N from hN.symm, ← Finset.range_eq_Ico,
    ← Fin.sum_univ_eq_sum_range (fun k => Acc.tileN m c k (0 : Fin 8) j)]
  exact Finset.sum_congr rfl fun t _ => Acc.tileN_of_lt m c t.val t.isLt 0 j

theorem tile00 (t : Fin cfg0.N) : Acc.tile m c t 0 0 = Acc.num m c t (ix2 0 0) := by unfold Acc.tile; simp
theorem tile01 (t : Fin cfg0.N) : Acc.tile m c t 0 1 = Acc.den m c t (ix2 0 0) := by unfold Acc.tile; simp
theorem tile02 (t : Fin cfg0.N) : Acc.tile m c t 0 2 = Acc.smo m c t (ix2 0 0) := by unfold Acc.tile; simp
theorem tile03 (t : Fin cfg0.N) : Acc.tile m c t 0 3 = Acc.cae m c t (ix2 0 0) := by unfold Acc.tile; simp

/-- The four batch sums. -/
theorem sumNum : Tail.R (Final.G m c) (ix2 0 0) = NUM (kf3 (A0 m c)) (kfb (A1 m c)) (kf3 (A2 m c)) (kfb (A3 m c)) (kE m c) := by
  rw [R_G_at]
  simp only [tile00, PointValues.num_eq]
  exact sum_points (fun b => numer (opP (kf3 (A0 m c)) b) (opM (kfb (A1 m c)) b) (opA (kf3 (A2 m c)) b) (opS (kf3 (A2 m c)) b)
    (opI (kf3 (A2 m c)) b) (opD (kf3 (A2 m c)) b) (opQ (kfb (A3 m c)) b) (opT (kf3 (A2 m c)) b) (opR (kfb (A3 m c)) b)
    (opL (kE m c) b) (opL (kE m c) b))
theorem sumDen : Tail.R (Final.G m c) (ix2 0 1) = DEN (kfb (A1 m c)) := by
  rw [R_G_at]
  simp only [tile01, PointValues.den_eq]
  exact sum_points (fun b => denom (opM (kfb (A1 m c)) b))
theorem sumSm : Tail.R (Final.G m c) (ix2 0 2) = SM (kf3 (A0 m c)) (kfb (A1 m c)) := by
  rw [R_G_at]
  simp only [tile02, PointValues.smo_eq]
  exact sum_points (fun b => smooth (opP (kf3 (A0 m c)) b) (opM (kfb (A1 m c)) b))
theorem sumCae : Tail.R (Final.G m c) (ix2 0 3) = CAE (kfo (A4 m c)) (kfo (A5 m c)) := by
  rw [R_G_at]
  simp only [tile03, PointValues.cae_eq]
  exact sum_points (fun b => cae (opO (kfo (A4 m c)) b) (opO (kfo (A5 m c)) b))

/-- A quotient of two picked entries, over any 8 by 128 tile. -/
theorem div_pick (X : FVec Ideal S8x128 .f32) (o1 o2 : Fin 2 → Nat) (h1 : S8x128.Slices o1 S1x1) (h2 : S8x128.Slices o2 S1x1)
    (j1 j2 : Fin 128) (e1 : o1 = ![0, j1.val]) (e2 : o2 = ![0, j2.val]) :
    Host.divf (F := Ideal) (shapeCast S_ (extractStridedSlice S1x1 o1 X h1) shapeCasts_S1x1_S_)
      (shapeCast S_ (extractStridedSlice S1x1 o2 X h2) shapeCasts_S1x1_S_) ix0 = Ideal.div (X (ix2 0 j1)) (X (ix2 0 j2)) := by
  have a1 := Tail.pick_at X o1 h1 j1 e1
  have a2 := Tail.pick_at X o2 h2 j2 e2
  generalize shapeCast S_ (extractStridedSlice S1x1 o1 X h1) shapeCasts_S1x1_S_ = p1 at a1 ⊢
  generalize shapeCast S_ (extractStridedSlice S1x1 o2 X h2) shapeCasts_S1x1_S_ = p2 at a2 ⊢
  rw [← a1, ← a2]
  rfl
/-- A quotient of a picked entry by a literal. -/
theorem div_pick_const (X : FVec Ideal S8x128 .f32) (o1 : Fin 2 → Nat) (h1 : S8x128.Slices o1 S1x1) (j1 : Fin 128)
    (e1 : o1 = ![0, j1.val]) (w : BitVec 32) :
    Host.divf (F := Ideal) (shapeCast S_ (extractStridedSlice S1x1 o1 X h1) shapeCasts_S1x1_S_)
      (constant (F := Ideal) S_ .f32 w) ix0 = Ideal.div (X (ix2 0 j1)) (Ideal.ofBits .f32 w) := by
  have a1 := Tail.pick_at X o1 h1 j1 e1
  generalize shapeCast S_ (extractStridedSlice S1x1 o1 X h1) shapeCasts_S1x1_S_ = p1 at a1 ⊢
  rw [← a1]
  rfl
/-- The blend of three scalars. -/
theorem blend (a b d : FVec Ideal S_ .f32) :
    addf (addf (mulf (constant (F := Ideal) S_ .f32 0x3F4CCCCD#32) b) a) (mulf (constant (F := Ideal) S_ .f32 0x3F000000#32) d) ix0
      = (W8 * b ix0 + a ix0) + W5 * d ix0 := rfl

/-- The path loss. -/
theorem k54 : Tail.r54 (Final.G m c)
    = fun _ => lossPath (NUM (kf3 (A0 m c)) (kfb (A1 m c)) (kf3 (A2 m c)) (kfb (A3 m c)) (kE m c)) (DEN (kfb (A1 m c))) :=
  funext fun j => by
    obtain rfl : j = ix0 := eq_ix0 j
    unfold Tail.r54 Tail.pick0 Tail.pick1 lossPath
    rw [div_pick (Tail.R (Final.G m c)) ![0, 0] ![0, 1] slices_S8x128_S1x1_0_0 slices_S8x128_S1x1_0_1 0 1 rfl rfl, sumNum, sumDen]
/-- The smoothness loss. -/
theorem k55 : Tail.r55 (Final.G m c) = fun _ => lossSmooth (SM (kf3 (A0 m c)) (kfb (A1 m c))) :=
  funext fun j => by
    obtain rfl : j = ix0 := eq_ix0 j
    unfold Tail.r55 Tail.pick2 lossSmooth
    rw [div_pick_const (Tail.R (Final.G m c)) ![0, 2] slices_S8x128_S1x1_0_2 2 rfl, sumSm]
/-- The reconstruction loss. -/
theorem k56 : Tail.r56 (Final.G m c) = fun _ => lossCae (CAE (kfo (A4 m c)) (kfo (A5 m c))) :=
  funext fun j => by
    obtain rfl : j = ix0 := eq_ix0 j
    unfold Tail.r56 Tail.pick3 lossCae
    rw [div_pick_const (Tail.R (Final.G m c)) ![0, 3] slices_S8x128_S1x1_0_3 3 rfl, sumCae]
/-- The total. -/
theorem k60 : Tail.r60 (Final.G m c)
    = fun _ => total (NUM (kf3 (A0 m c)) (kfb (A1 m c)) (kf3 (A2 m c)) (kfb (A3 m c)) (kE m c)) (DEN (kfb (A1 m c)))
        (SM (kf3 (A0 m c)) (kfb (A1 m c))) (CAE (kfo (A4 m c)) (kfo (A5 m c))) :=
  funext fun j => by
    obtain rfl : j = ix0 := eq_ix0 j
    unfold Tail.r60 total
    rw [blend, k54, k55, k56]

end Cert.KernelIdeal.Result

end
-- ==== Proof.KernelRun.lean ====
/-
  The idealized kernel program's run, read: every weakly fair execution ends with the four results at the Spec's
  functions of the argument arrays, and the arguments unchanged.
-/
import proofs.«159981_j34763465294043_2_alg».proof.Proof.Result

noncomputable section

namespace Cert.KernelIdeal.KRun

open Cert.KernelIdeal Cert.KernelIdeal.Gen Cert.KernelIdeal.Prefix Idealize.ShloMosaic Idealize.ShloMosaic.TcCoe Idealize.SL.Sem Idealize.ShloMosaic.ValueIdx Cert.Spec

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v60) = (fun _ => total (NUM (kf3 (A0 m c)) (kfb (A1 m c)) (kf3 (A2 m c)) (kfb (A3 m c)) (kE m c)) (DEN (kfb (A1 m c))) (SM (kf3 (A0 m c)) (kfb (A1 m c))) (CAE (kfo (A4 m c)) (kfo (A5 m c))))
      ∧ r.2.mem ((c.tc : Thread nD τ).loc main_v54) = (fun _ => lossPath (NUM (kf3 (A0 m c)) (kfb (A1 m c)) (kf3 (A2 m c)) (kfb (A3 m c)) (kE m c)) (DEN (kfb (A1 m c))))
      ∧ r.2.mem ((c.tc : Thread nD τ).loc main_v55) = (fun _ => lossSmooth (SM (kf3 (A0 m c)) (kfb (A1 m c))))
      ∧ r.2.mem ((c.tc : Thread nD τ).loc main_v56) = (fun _ => lossCae (CAE (kfo (A4 m c)) (kfo (A5 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v60 (Pipeline.mem_restRefs_of main_v60 (by decide) (by decide))).trans ((Tail.tail_v60 m c).trans (Result.k60 m c)),
      ((h c).2 main_v54 (Pipeline.mem_restRefs_of main_v54 (by decide) (by decide))).trans ((Tail.tail_v54 m c).trans (Result.k54 m c)),
      ((h c).2 main_v55 (Pipeline.mem_restRefs_of main_v55 (by decide) (by decide))).trans ((Tail.tail_v55 m c).trans (Result.k55 m c)),
      ((h c).2 main_v56 (Pipeline.mem_restRefs_of main_v56 (by decide) (by decide))).trans ((Tail.tail_v56 m c).trans (Result.k56 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefArgs.lean ====
/-
  The reference's argument arrays as plain coordinate functions, and the path's extent per batch element and
  dimension (its maximum less its minimum over the 512 points) as the reference computes it.
-/
import proofs.«159981_j34763465294043_2_alg».proof.Proof.Gen.ReferenceIdeal.Read
import proofs.«159981_j34763465294043_2_alg».proof.Proof.Spec

noncomputable section

namespace Cert.RefSide

open Cert.ReferenceIdeal Idealize.ShloMosaic Idealize.ShloMosaic.ValueIdx

/-- A 32 by 512 by 3 float array. -/
abbrev A3 := (⟨S32x512x3, .f32⟩ : BufTy).Contents (Elt Ideal)
/-- A 32 by 512 array of one-bit words. -/
abbrev B2 := (⟨S32x512, .i1⟩ : BufTy).Contents (Elt Ideal)
/-- A 32 by 1024 by 4 float array. -/
abbrev O3 := (⟨S32x1024x4, .f32⟩ : BufTy).Contents (Elt Ideal)

/-- A float array by coordinates. -/
def f3 (x : A3) : Fin 32 → Fin 512 → Fin 3 → EReal := fun b n d => x (ix3 b n d)
/-- A mask by coordinates. -/
def fb (x : B2) : Fin 32 → Fin 512 → BitVec 1 := fun b n => x (ix2 b n)
/-- An observation array by coordinates. -/
def fo (x : O3) : Fin 32 → Fin 1024 → Fin 4 → EReal := fun b n k => x (ix3 b n k)
/-- The path's extent: the maximum less the minimum over the points, per batch element and dimension. -/
def fE (x0 : A3) : Fin 32 → Fin 3 → EReal := fun b d => Read.val_main_v2 (F := Ideal) x0 (ix2 b d)

end Cert.RefSide

end
-- ==== Proof.RefLine.lean ====
/-
  The reference's line label read at an index.

  Every stage of the reference program on the way to the line label is read at literal coordinates: the weighted path
  point, the segments' base points and directions, the floored squared lengths, the base points' inner products, the
  clipped foot, the scaled squared offsets, the push of the switched-off segments and the Gaussian bump; the maximum
  over the segments of the bump is the bump of the minimum of the distances, because the exponential is monotone and
  the product with a negative real antitone on the extended reals and there is at least one segment.
-/
import proofs.«159981_j34763465294043_2_alg».proof.Proof.RefArgs
import Idealize.ShloMosaic.PureOps.Reduce
import Idealize.ShloMosaic.PureOps.Ideal.Laws

noncomputable section

namespace Cert.RefSide

open Cert.ReferenceIdeal Idealize.ShloMosaic Idealize.ShloMosaic.ValueIdx Cert.Spec
open scoped BigOperators

namespace Line

/-! ## Extended-real facts -/

/-- The word of 0.0 is zero. -/
theorem zero_val : ZERO = 0 := Ideal.ofBits_zero_f32

/-- The word of 1.0 is one. -/
theorem one_val : ONE = 1 := by
  show Ideal.ofBits .f32 0x3F800000#32 = 1
  simp [Ideal.ofBits, Ideal.ieee, -EReal.coe_mul]; norm_num

/-- The word of +inf is the top element. -/
theorem inf_val : INF = ⊤ := by
  show Ideal.ofBits .f32 0x7F800000#32 = ⊤
  simp [Ideal.ofBits, Ideal.ieee]

/-- The word of -inf is the bottom element. -/
theorem neg_inf_val : Ideal.ofBits .f32 0xFF800000#32 = ⊥ := by
  simp [Ideal.ofBits, Ideal.ieee]

/-- The floor 1e-8 is a positive real. -/
theorem eps_pos : (0 : EReal) < EPS := by
  have h : ∃ r : ℝ, 0 < r ∧ Ideal.ofBits .f32 0x322BCC77#32 = (r : EReal) := by
    simp [Ideal.ofBits, Ideal.ieee, -EReal.coe_mul]
  obtain ⟨r, hr, e⟩ := h
  show (0 : EReal) < Ideal.ofBits .f32 0x322BCC77#32
  rw [e]; exact_mod_cast hr

/-- The factor -0.5 is a negative real. -/
theorem neghalf_val : ∃ r : ℝ, r < 0 ∧ NEGHALF = (r : EReal) := by
  refine ⟨-(8388608 * (2 ^ 24)⁻¹), by norm_num, ?_⟩
  show Ideal.ofBits .f32 0xBF000000#32 = _
  simp [Ideal.ofBits, Ideal.ieee, -EReal.coe_mul]

/-- A product with the reciprocal of a nonzero extended real is the quotient. -/
theorem mul_div_one (x s : EReal) (hs : s ≠ 0) : x * Ideal.div ONE s = Ideal.div x s := by
  unfold Ideal.div
  rw [if_neg hs, if_neg hs, one_val, one_mul]

/-- A value floored at 1e-8 is not zero. -/
theorem floor_ne_zero (x : EReal) : max x EPS ≠ 0 :=
  ne_of_gt (lt_of_lt_of_le eps_pos (le_max_right x EPS))

/-- A sum over three terms from the zero word, term by term. -/
theorem zsum3 (f : Fin 3 → EReal) : ZERO + ∑ k : Fin 3, f k = ((ZERO + f 0) + f 1) + f 2 := by
  rw [Fin.sum_univ_three, zero_val, zero_add, zero_add]

/-- A sum over three terms, term by term from the zero word. -/
theorem sum3 (f : Fin 3 → EReal) : ∑ k : Fin 3, f k = ((ZERO + f 0) + f 1) + f 2 := by
  rw [Fin.sum_univ_three, zero_val, zero_add]

/-- The exponential is monotone on the extended reals. -/
theorem exp_mono : Monotone Ideal.exp := by
  intro x y h
  induction x using EReal.rec with
  | bot =>
    induction y using EReal.rec with
    | bot => exact le_rfl
    | top => exact le_top
    | coe r => show (0 : EReal) ≤ ((Real.exp r : ℝ) : EReal); exact_mod_cast (Real.exp_pos r).le
  | top =>
    rw [top_le_iff.mp h]
  | coe r =>
    induction y using EReal.rec with
    | bot => exact absurd h (by simp)
    | top => exact le_top
    | coe q =>
      show ((Real.exp r : ℝ) : EReal) ≤ ((Real.exp q : ℝ) : EReal)
      exact_mod_cast Real.exp_le_exp.mpr (by exact_mod_cast h)

/-- The product with a negative real reverses the order of the extended reals. -/
theorem mul_neg_anti (c : ℝ) (hc : c < 0) : Antitone (fun x : EReal => (c : EReal) * x) := by
  intro x y h
  show (c : EReal) * y ≤ (c : EReal) * x
  have h1 : ((-c : ℝ) : EReal) * x ≤ ((-c : ℝ) : EReal) * y :=
    mul_le_mul_of_nonneg_left h (by exact_mod_cast (neg_pos.mpr hc).le)
  rw [EReal.coe_neg, EReal.neg_mul, EReal.neg_mul] at h1
  exact EReal.neg_le_neg_iff.mp h1

/-- An antitone map takes a minimum folded from the top element over a nonempty finite family to the maximum,
    folded from the bottom element, of the images. -/
theorem antitone_fold_min {ι : Type*} (s : Finset ι) (hs : s.Nonempty) (g : EReal → EReal) (hg : Antitone g)
    (f : ι → EReal) : g (s.fold min ⊤ f) = s.fold max ⊥ (fun m => g (f m)) := by
  have h1 : s.fold min ⊤ f = s.inf' hs f := by rw [Finset.inf'_eq_inf]; rfl
  have h2 : s.fold max ⊥ (fun m => g (f m)) = s.sup' hs (fun m => g (f m)) := by rw [Finset.sup'_eq_sup]; rfl
  rw [h1, h2]
  obtain ⟨m0, hm0, e⟩ := Finset.exists_mem_eq_inf' hs f
  apply le_antisymm
  · rw [e]; exact Finset.le_sup' (fun m => g (f m)) hm0
  · exact Finset.sup'_le hs _ (fun m hm => hg (Finset.inf'_le f hm))

/-- The complement of a one-bit word, as a number, is one minus the word. -/
theorem bit_not (w : BitVec 1) : bit (~~~w) = ONE - bit w := by
  have h : (1 : EReal) - 1 = 0 := by rw [← EReal.coe_one, ← EReal.coe_sub, sub_self, EReal.coe_zero]
  rw [one_val]
  rcases BitVec.eq_zero_or_eq_one w with hw | hw
  · subst hw
    show (((1 : Nat) : ℝ) : EReal) = 1 - (((0 : Nat) : ℝ) : EReal)
    simp
  · subst hw
    show (((0 : Nat) : ℝ) : EReal) = 1 - (((1 : Nat) : ℝ) : EReal)
    simp [h]

/-! ## The stages' index maps at literal coordinates -/

theorem i23 (b : Fin 32) (n : Fin 512) (d : Fin 3) : Read.idx_main_v23 (ix3 b n d) = ix3 b n (0 : Fin 1) := by
  funext a
  match a with
  | ⟨0, _⟩ => rfl
  | ⟨1, _⟩ => rfl
  | ⟨2, _⟩ => rfl

theorem i21 (b : Fin 32) (n : Fin 512) (z : Fin 1) : Read.idx_main_v21 (ix3 b n z) = ix2 b n := by
  funext a
  match a with
  | ⟨0, _⟩ => rfl
  | ⟨1, _⟩ => rfl

theorem i11 (b : Fin 32) (m : Fin 511) (d : Fin 3) : Read.idx_main_v11 (ix3 b m d) = ix3 b m.castSucc d := by
  funext a
  match a with
  | ⟨0, _⟩ => rfl
  | ⟨1, _⟩ => rfl
  | ⟨2, _⟩ => rfl

theorem i12 (b : Fin 32) (m : Fin 511) (d : Fin 3) : Read.idx_main_v12 (ix3 b m d) = ix3 b m.succ d := by
  funext a
  match a with
  | ⟨0, _⟩ => rfl
  | ⟨1, _⟩ => exact Fin.ext (by show 1 + m.val = m.val + 1; omega)
  | ⟨2, _⟩ => rfl

theorem i15 (b : Fin 32) (m : Fin 511) (k : Fin 3) : Read.idx_main_v15 (ix2 b m) k = ix3 b m k := by
  funext a
  match a with
  | ⟨0, _⟩ => rfl
  | ⟨1, _⟩ => rfl
  | ⟨2, _⟩ => rfl

theorem i27 (b : Fin 32) (m : Fin 511) (k : Fin 3) : Read.idx_main_v27 (ix2 b m) k = ix3 b m k := by
  funext a
  match a with
  | ⟨0, _⟩ => rfl
  | ⟨1, _⟩ => rfl
  | ⟨2, _⟩ => rfl

theorem i18 (b : Fin 32) (m : Fin 511) : Read.idx_main_v18 (ix2 b m) = ix2 b m.castSucc := by
  funext a
  match a with
  | ⟨0, _⟩ => rfl
  | ⟨1, _⟩ => rfl

theorem i19 (b : Fin 32) (m : Fin 511) : Read.idx_main_v19 (ix2 b m) = ix2 b m.succ := by
  funext a
  match a with
  | ⟨0, _⟩ => rfl
  | ⟨1, _⟩ => exact Fin.ext (by show 1 + m.val = m.val + 1; omega)

theorem il25 (b : Fin 32) (n : Fin 512) (m : Fin 511) (k : Fin 3) : Read.lidx_main_v25 (ix3 b n m) k = ix3 b n k := by
  funext a
  match a with
  | ⟨0, _⟩ => rfl
  | ⟨1, _⟩ => rfl
  | ⟨2, _⟩ => rfl

theorem ir25 (b : Fin 32) (n : Fin 512) (m : Fin 511) (k : Fin 3) : Read.ridx_main_v25 (ix3 b n m) k = ix3 b m k := by
  funext a
  match a with
  | ⟨0, _⟩ => rfl
  | ⟨1, _⟩ => rfl
  | ⟨2, _⟩ => rfl

theorem i29 (b : Fin 32) (n : Fin 512) (m : Fin 511) : Read.idx_main_v29 (ix3 b n m) = ix3 b (0 : Fin 1) m := by
  funext a
  match a with
  | ⟨0, _⟩ => rfl
  | ⟨1, _⟩ => rfl
  | ⟨2, _⟩ => rfl

theorem i28 (b : Fin 32) (z : Fin 1) (m : Fin 511) : Read.idx_main_v28 (ix3 b z m) = ix2 b m := by
  funext a
  match a with
  | ⟨0, _⟩ => rfl
  | ⟨1, _⟩ => rfl

theorem i32 (b : Fin 32) (n : Fin 512) (m : Fin 511) : Read.idx_main_v32 (ix3 b n m) = ix3 b (0 : Fin 1) m := by
  funext a
  match a with
  | ⟨0, _⟩ => rfl
  | ⟨1, _⟩ => rfl
  | ⟨2, _⟩ => rfl

theorem i31 (b : Fin 32) (z : Fin 1) (m : Fin 511) : Read.idx_main_v31 (ix3 b z m) = ix2 b m := by
  funext a
  match a with
  | ⟨0, _⟩ => rfl
  | ⟨1, _⟩ => rfl

theorem i38 (b : Fin 32) (n : Fin 512) (m : Fin 511) (d : Fin 3) : Read.idx_main_v38 (ix4 b n m d) = ix4 b n m (0 : Fin 1) := by
  funext a
  match a with
  | ⟨0, _⟩ => rfl
  | ⟨1, _⟩ => rfl
  | ⟨2, _⟩ => rfl
  | ⟨3, _⟩ => rfl

theorem i36 (b : Fin 32) (n : Fin 512) (m : Fin 511) (z : Fin 1) : Read.idx_main_v36 (ix4 b n m z) = ix3 b n m := by
  funext a
  match a with
  | ⟨0, _⟩ => rfl
  | ⟨1, _⟩ => rfl
  | ⟨2, _⟩ => rfl

theorem i39 (b : Fin 32) (n : Fin 512) (m : Fin 511) (d : Fin 3) : Read.idx_main_v39 (ix4 b n m d) = ix4 b (0 : Fin 1) m d := by
  funext a
  match a with
  | ⟨0, _⟩ => rfl
  | ⟨1, _⟩ => rfl
  | ⟨2, _⟩ => rfl
  | ⟨3, _⟩ => rfl

theorem i37 (b : Fin 32) (z : Fin 1) (m : Fin 511) (d : Fin 3) : Read.idx_main_v37 (ix4 b z m d) = ix3 b m d := by
  funext a
  match a with
  | ⟨0, _⟩ => rfl
  | ⟨1, _⟩ => rfl
  | ⟨2, _⟩ => rfl

theorem i41 (b : Fin 32) (n : Fin 512) (m : Fin 511) (d : Fin 3) : Read.idx_main_v41 (ix4 b n m d) = ix4 b (0 : Fin 1) m d := by
  funext a
  match a with
  | ⟨0, _⟩ => rfl
  | ⟨1, _⟩ => rfl
  | ⟨2, _⟩ => rfl
  | ⟨3, _⟩ => rfl

theorem i35 (b : Fin 32) (z : Fin 1) (m : Fin 511) (d : Fin 3) : Read.idx_main_v35 (ix4 b z m d) = ix3 b m d := by
  funext a
  match a with
  | ⟨0, _⟩ => rfl
  | ⟨1, _⟩ => rfl
  | ⟨2, _⟩ => rfl

theorem i44 (b : Fin 32) (n : Fin 512) (m : Fin 511) (d : Fin 3) : Read.idx_main_v44 (ix4 b n m d) = ix4 b n (0 : Fin 1) d := by
  funext a
  match a with
  | ⟨0, _⟩ => rfl
  | ⟨1, _⟩ => rfl
  | ⟨2, _⟩ => rfl
  | ⟨3, _⟩ => rfl

theorem i43 (b : Fin 32) (n : Fin 512) (z : Fin 1) (d : Fin 3) : Read.idx_main_v43 (ix4 b n z d) = ix3 b n d := by
  funext a
  match a with
  | ⟨0, _⟩ => rfl
  | ⟨1, _⟩ => rfl
  | ⟨2, _⟩ => rfl

theorem i47 (b : Fin 32) (n : Fin 512) (m : Fin 511) (d : Fin 3) : Read.idx_main_v47 (ix4 b n m d) = ix4 b (0 : Fin 1) (0 : Fin 1) d := by
  funext a
  match a with
  | ⟨0, _⟩ => rfl
  | ⟨1, _⟩ => rfl
  | ⟨2, _⟩ => rfl
  | ⟨3, _⟩ => rfl

theorem i46 (b : Fin 32) (z w : Fin 1) (d : Fin 3) : Read.idx_main_v46 (ix4 b z w d) = ix2 b d := by
  funext a
  match a with
  | ⟨0, _⟩ => rfl
  | ⟨1, _⟩ => rfl

theorem i50 (b : Fin 32) (n : Fin 512) (m : Fin 511) (k : Fin 3) : Read.idx_main_v50 (ix3 b n m) k = ix4 b n m k := by
  funext a
  match a with
  | ⟨0, _⟩ => rfl
  | ⟨1, _⟩ => rfl
  | ⟨2, _⟩ => rfl
  | ⟨3, _⟩ => rfl

theorem i56 (b : Fin 32) (n : Fin 512) (m : Fin 511) : Read.idx_main_v56 (ix3 b n m) = ix3 b (0 : Fin 1) m := by
  funext a
  match a with
  | ⟨0, _⟩ => rfl
  | ⟨1, _⟩ => rfl
  | ⟨2, _⟩ => rfl

theorem i53 (b : Fin 32) (z : Fin 1) (m : Fin 511) : Read.idx_main_v53 (ix3 b z m) = ix2 b m := by
  funext a
  match a with
  | ⟨0, _⟩ => rfl
  | ⟨1, _⟩ => rfl

/-! ## The stages read at literal coordinates -/

section Stages

variable (x0 : A3) (x1 : B2) (x2 : A3) (x3 : B2) (b : Fin 32)

/-- The weighted path point. -/
theorem r24 (n : Fin 512) (d : Fin 3) :
    Read.val_main_v24 (F := Ideal) x0 x1 (ix3 b n d) = pc (opP (f3 x0) b) (opM (fb x1) b) d n := by
  rw [Read.val_main_v24_apply, Read.val_main_v23_apply, Read.val_main_v22_apply, Read.val_main_v21_apply, i23, i21]
  rfl

/-- A segment's base point. -/
theorem r11 (m : Fin 511) (d : Fin 3) :
    Read.val_main_v11 (F := Ideal) x2 (ix3 b m d) = opA (f3 x2) b d m := by
  rw [Read.val_main_v11_apply, i11]; rfl

/-- A segment's direction. -/
theorem r13 (m : Fin 511) (d : Fin 3) :
    Read.val_main_v13 (F := Ideal) x2 (ix3 b m d) = opS (f3 x2) b d m := by
  rw [Read.val_main_v13_apply, Read.val_main_v12_apply, Read.val_main_v11_apply, i11, i12]; rfl

/-- The floored squared segment length. -/
theorem r17 (m : Fin 511) :
    Read.val_main_v17 (F := Ideal) x2 (ix2 b m)
      = max (ZERO + ∑ k : Fin 3, opS (f3 x2) b k m * opS (f3 x2) b k m) EPS := by
  rw [Read.val_main_v17_apply, Read.val_main_v15_apply, Read.val_main_v16_apply]
  simp only [Read.val_main_v14_apply, i15, r13]
  rfl

/-- The base point's inner product with the direction. -/
theorem r27 (m : Fin 511) :
    Read.val_main_v27 (F := Ideal) x2 (ix2 b m) = opD (f3 x2) b m := by
  rw [Read.val_main_v27_apply]
  simp only [Read.val_main_v26_apply, i27, r13, r11]
  rfl

/-- The path point's inner product with the direction. -/
theorem r25 (n : Fin 512) (m : Fin 511) :
    Read.val_main_v25 (F := Ideal) x0 x1 x2 (ix3 b n m)
      = ∑ k : Fin 3, pc (opP (f3 x0) b) (opM (fb x1) b) k n * opS (f3 x2) b k m := by
  rw [Read.val_main_v25_apply]
  simp only [il25, ir25, r24, r13]

/-- The position of the foot before clipping. -/
theorem r33 (n : Fin 512) (m : Fin 511) :
    Read.val_main_v33 (F := Ideal) x0 x1 x2 (ix3 b n m)
      = Ideal.div ((∑ k : Fin 3, pc (opP (f3 x0) b) (opM (fb x1) b) k n * opS (f3 x2) b k m) - opD (f3 x2) b m)
          (max (ZERO + ∑ k : Fin 3, opS (f3 x2) b k m * opS (f3 x2) b k m) EPS) := by
  rw [Read.val_main_v33_apply, Read.val_main_v30_apply, Read.val_main_v29_apply, Read.val_main_v28_apply,
    Read.val_main_v32_apply, Read.val_main_v31_apply, i29, i28, i32, i31, r25, r27, r17]
  rfl

/-- The clipped position of the foot. -/
theorem r34 (n : Fin 512) (m : Fin 511) :
    Read.val_main_v34 (F := Ideal) x0 x1 x2 (ix3 b n m)
      = foot (opP (f3 x0) b) (opM (fb x1) b) (opS (f3 x2) b) (opI (f3 x2) b) (opD (f3 x2) b) n m := by
  rw [Read.val_main_v34_apply, Read.val_main_call0_v2_apply, Read.val_main_call0_v4_apply,
    Read.val_main_call0_v1_apply, r33]
  unfold foot opI
  rw [mul_div_one _ _ (floor_ne_zero _), sum3 (fun k => pc (opP (f3 x0) b) (opM (fb x1) b) k n * opS (f3 x2) b k m)]
  rfl

/-- The scale of a dimension. -/
theorem r6 (d : Fin 3) :
    Read.val_main_v6 (F := Ideal) x0 (ix2 b d) = max (C005 * fE x0 b d) EPS := by
  rw [Read.val_main_v6_apply, Read.val_main_v4_apply, Read.val_main_v3_apply, Read.val_main_v5_apply]
  rfl

/-- One coordinate's offset from the foot. -/
theorem r45 (n : Fin 512) (m : Fin 511) (d : Fin 3) :
    Read.val_main_v45 (F := Ideal) x0 x1 x2 (ix4 b n m d)
      = pc (opP (f3 x0) b) (opM (fb x1) b) d n
          - (opA (f3 x2) b d m
              + foot (opP (f3 x0) b) (opM (fb x1) b) (opS (f3 x2) b) (opI (f3 x2) b) (opD (f3 x2) b) n m
                * opS (f3 x2) b d m) := by
  rw [Read.val_main_v45_apply, Read.val_main_v44_apply, Read.val_main_v43_apply, Read.val_main_v42_apply,
    Read.val_main_v41_apply, Read.val_main_v35_apply, Read.val_main_v40_apply, Read.val_main_v38_apply,
    Read.val_main_v36_apply, Read.val_main_v39_apply, Read.val_main_v37_apply, i44, i43, i41, i35, i38, i36, i39, i37,
    r24, r11, r34, r13]
  rfl

/-- One coordinate's scaled offset from the foot, squared. -/
theorem r49 (n : Fin 512) (m : Fin 511) (d : Fin 3) :
    Read.val_main_v49 (F := Ideal) x0 x1 x2 (ix4 b n m d)
      = lineSq (opP (f3 x0) b) (opM (fb x1) b) (opA (f3 x2) b) (opS (f3 x2) b) (opI (f3 x2) b) (opD (f3 x2) b)
          (opL (fE x0) b) d n m := by
  rw [Read.val_main_v49_apply, Read.val_main_v48_apply, Read.val_main_v47_apply, Read.val_main_v46_apply, i47, i46,
    r45, r6]
  unfold lineSq opL
  rw [mul_div_one _ _ (floor_ne_zero _)]
  rfl

/-- The push of a switched-off segment. -/
theorem r56 (n : Fin 512) (m : Fin 511) :
    Read.val_main_v56 (F := Ideal) x3 (ix3 b n m) = (ONE - opQ (fb x3) b m) * BIG := by
  rw [Read.val_main_v56_apply, Read.val_main_v55_apply, Read.val_main_v53_apply, Read.val_main_v52_apply,
    Read.val_main_v51_apply, Read.val_main_v20_apply, Read.val_main_v18_apply, Read.val_main_v19_apply,
    Read.val_main_v54_apply, i56, i53, i18, i19]
  unfold opQ
  rw [← bit_not]
  rfl

/-- The scaled squared distance to a segment, pushed out where the segment is switched off. -/
theorem r57 (n : Fin 512) (m : Fin 511) :
    Read.val_main_v57 (F := Ideal) x0 x1 x2 x3 (ix3 b n m)
      = distLine (opP (f3 x0) b) (opM (fb x1) b) (opA (f3 x2) b) (opS (f3 x2) b) (opI (f3 x2) b) (opD (f3 x2) b)
          (opQ (fb x3) b) (opL (fE x0) b) n m := by
  rw [Read.val_main_v57_apply, Read.val_main_v50_apply, r56]
  simp only [i50, r49]
  unfold distLine
  exact congrArg (· + (ONE - opQ (fb x3) b m) * BIG)
    (zsum3 (fun k => lineSq (opP (f3 x0) b) (opM (fb x1) b) (opA (f3 x2) b) (opS (f3 x2) b) (opI (f3 x2) b)
      (opD (f3 x2) b) (opL (fE x0) b) k n m))

/-- The Gaussian bump of one segment. -/
theorem r60 (n : Fin 512) (m : Fin 511) :
    Read.val_main_v60 (F := Ideal) x0 x1 x2 x3 (ix3 b n m)
      = Ideal.exp (NEGHALF * distLine (opP (f3 x0) b) (opM (fb x1) b) (opA (f3 x2) b) (opS (f3 x2) b)
          (opI (f3 x2) b) (opD (f3 x2) b) (opQ (fb x3) b) (opL (fE x0) b) n m) := by
  rw [Read.val_main_v60_apply, Read.val_main_v59_apply, Read.val_main_v58_apply, r57]
  rfl

end Stages

/-! ## The maximum over the segments -/

/-- The reduced index (b, n) with segment `k` put back is (b, n, k). -/
theorem lift61 (h : S32x512x511.Reduces [2] S32x512) (b : Fin 32) (n : Fin 512) (k : Fin (S32x512x511.size 2)) :
    h.lift (ix2 b n) k = ix3 b n (⟨k.val, k.isLt⟩ : Fin 511) := by
  funext c; apply Fin.ext
  fin_cases c <;> rfl

end Line

open Line in
/-- The reference's line label: the Gaussian bump of the nearest segment. -/
theorem ref_line (x0 : A3) (x1 : B2) (x2 : A3) (x3 : B2) (b : Fin 32) (n : Fin 512) :
    Read.val_main_v61 (F := Ideal) x0 x1 x2 x3 (ix2 b n)
      = labLine (opP (f3 x0) b) (opM (fb x1) b) (opA (f3 x2) b) (opS (f3 x2) b) (opI (f3 x2) b) (opD (f3 x2) b)
          (opQ (fb x3) b) (opL (fE x0) b) n := by
  have h : S32x512x511.Reduces [2] S32x512 := by decide
  unfold Read.val_main_v61
  rw [Host.reduce_eq_fold_single FloatOps.maximumf _ _ Gen.reducesTo_S32x512x511_S32x512_d2 h Gen.h_S_]
  have hf : (Read.val_main_v60 (F := Ideal) x0 x1 x2 x3 ∘ h.lift (ix2 b n))
      = fun m : Fin 511 => Ideal.exp (NEGHALF * distLine (opP (f3 x0) b) (opM (fb x1) b) (opA (f3 x2) b)
          (opS (f3 x2) b) (opI (f3 x2) b) (opD (f3 x2) b) (opQ (fb x3) b) (opL (fE x0) b) n m) :=
    funext fun k => by
      show Read.val_main_v60 (F := Ideal) x0 x1 x2 x3 (h.lift (ix2 b n) k) = _
      rw [lift61 h b n k, r60]
      rfl
  refine (congrArg (fun f => Finset.fold max (Ideal.ofBits .f32 0xFF800000#32) f (Finset.univ : Finset (Fin 511))) hf).trans ?_
  obtain ⟨c, hc, e⟩ := neghalf_val
  unfold labLine
  rw [neg_inf_val, inf_val, e]
  exact (antitone_fold_min Finset.univ Finset.univ_nonempty (fun x => Ideal.exp ((c : EReal) * x))
    (exp_mono.comp_antitone (mul_neg_anti c hc)) _).symm

end Cert.RefSide

end
-- ==== Proof.RefPoint.lean ====
/-
  The reference's nearest-target-point label, its clipped blend with the segment label, its path loss and its total,
  read from its stages.  The reference divides each offset by the scale max (0.05 · extent) 1e-8; the common
  arrangement multiplies by the reciprocal of that scale; the two agree on every extended real because the scale is
  at least 1e-8, hence not zero.  A switched-off target is pushed out by 1e6 times the complemented mask bit, which is
  one minus the bit.
-/
import proofs.«159981_j34763465294043_2_alg».proof.Proof.RefArgs
import Idealize.ShloMosaic.PureOps.Reduce
import Idealize.ShloMosaic.PureOps.IdealRules

noncomputable section

namespace Cert.RefSide

open Cert.ReferenceIdeal Idealize.ShloMosaic Idealize.ShloMosaic.ValueIdx Cert.Spec
open scoped BigOperators

/-- Two indices with the same coordinates are equal. -/
local macro "idx_eq" : tactic => `(tactic| (funext c; fin_cases c <;> rfl))

/-! ## The literals -/

theorem one_eq : ONE = 1 := IdealRules.sign_bit.ideal_onePat .f32

theorem zero_eq : ZERO = 0 := Ideal.ofBits_zero_f32

/-- The word of 1e-8 denotes a positive number. -/
theorem eps_pos : (0 : EReal) < EPS := by
  simp [Ideal.ofBits, Ideal.ieee, -EReal.coe_mul]

/-- Dividing by a scale floored at 1e-8 is multiplying by its reciprocal: the scale is not zero. -/
theorem div_floor (x c : EReal) : Ideal.div x (max c EPS) = x * Ideal.div ONE (max c EPS) := by
  have h0 : max c EPS ≠ 0 := (lt_of_lt_of_le eps_pos (le_max_right _ _)).ne'
  unfold Ideal.div
  rw [if_neg h0, if_neg h0, one_eq, one_mul]

/-- The complement of a one-bit word, as a number, is one minus the word. -/
theorem bit_not (w : BitVec 1) : bit (~~~w) = ONE - bit w := by
  rw [one_eq]
  rcases BitVec.eq_zero_or_eq_one w with rfl | rfl
  · show (((1 : ℕ) : ℝ) : EReal) = 1 - (((0 : ℕ) : ℝ) : EReal)
    simp
  · show (((0 : ℕ) : ℝ) : EReal) = 1 - (((1 : ℕ) : ℝ) : EReal)
    rw [Nat.cast_zero, Nat.cast_one, EReal.coe_zero, EReal.coe_one,
      EReal.sub_self (by decide : (1 : EReal) ≠ ⊤) (by decide : (1 : EReal) ≠ ⊥)]

/-! ## The total -/

/-- The total is the blend of the three losses, in the reference's association. -/
theorem ref_total (x0 : A3) (x1 : B2) (x2 : A3) (x3 : B2) (x4 x5 : O3) :
    Read.val_main_v120 (F := Ideal) x0 x1 x2 x3 x4 x5 ix0
      = (W8 * Read.val_main_v112 (F := Ideal) x0 x1 ix0 + Read.val_main_v95 (F := Ideal) x0 x1 x2 x3 ix0) + W5 * Read.val_main_v116 (F := Ideal) x4 x5 ix0 := rfl

/-! ## The nearest target point -/

/-- The weighted path point. -/
theorem pc_at (x0 : A3) (x1 : B2) (b : Fin 32) (n : Fin 512) (k : Fin 3) :
    Read.val_main_v24 (F := Ideal) x0 x1 (ix3 b n k) = pc (opP (f3 x0) b) (opM (fb x1) b) k n := by
  rw [Read.val_main_v24_apply, Read.val_main_v23_apply, Read.val_main_v22_apply, Read.val_main_v21_apply,
    show Read.idx_main_v21 (Read.idx_main_v23 (ix3 b n k)) = ix2 b n from by idx_eq]
  rfl

/-- The scale per batch element and dimension. -/
theorem sigma_at (x0 : A3) (b : Fin 32) (k : Fin 3) :
    Read.val_main_v10 (F := Ideal) x0 (ix2 b k) = max (C005 * fE x0 b k) EPS := by
  rw [Read.val_main_v10_apply, Read.val_main_v8_apply, Read.val_main_v7_apply, Read.val_main_v9_apply]
  rfl

/-- One coordinate's scaled offset from a target point. -/
theorem quot_at (x0 : A3) (x1 : B2) (x2 : A3) (b : Fin 32) (n g : Fin 512) (k : Fin 3) :
    Read.val_main_v69 (F := Ideal) x0 x1 x2 (ix4 b n g k)
      = (pc (opP (f3 x0) b) (opM (fb x1) b) k n - opT (f3 x2) b k g) * opL (fE x0) b k := by
  rw [Read.val_main_v69_apply, Read.val_main_v66_apply, Read.val_main_v64_apply, Read.val_main_v62_apply,
    Read.val_main_v65_apply, Read.val_main_v63_apply, Read.val_main_v68_apply, Read.val_main_v67_apply,
    show Read.idx_main_v62 (Read.idx_main_v64 (ix4 b n g k)) = ix3 b n k from by idx_eq,
    show Read.idx_main_v63 (Read.idx_main_v65 (ix4 b n g k)) = ix3 b g k from by idx_eq,
    show Read.idx_main_v67 (Read.idx_main_v68 (ix4 b n g k)) = ix2 b k from by idx_eq,
    pc_at, sigma_at]
  exact div_floor _ _

/-- Its square. -/
theorem sq_at (x0 : A3) (x1 : B2) (x2 : A3) (b : Fin 32) (n g : Fin 512) (k : Fin 3) :
    Read.val_main_v70 (F := Ideal) x0 x1 x2 (Read.idx_main_v71 (ix3 b n g) k)
      = pointSq (opP (f3 x0) b) (opM (fb x1) b) (opT (f3 x2) b) (opL (fE x0) b) k n g := by
  rw [show Read.idx_main_v71 (ix3 b n g) k = ix4 b n g k from by idx_eq, Read.val_main_v70_apply, quot_at]
  rfl

/-- The push of a switched-off target. -/
theorem push_at (x3 : B2) (b : Fin 32) (n g : Fin 512) :
    Read.val_main_v77 (F := Ideal) x3 (ix3 b n g) = (ONE - opR (fb x3) b g) * BIG := by
  rw [Read.val_main_v77_apply, Read.val_main_v76_apply, Read.val_main_v74_apply, Read.val_main_v75_apply,
    Read.val_main_v73_apply, Read.val_main_v72_apply,
    show Read.idx_main_v74 (Read.idx_main_v77 (ix3 b n g)) = ix2 b g from by idx_eq]
  show bit (~~~(x3 (ix2 b g))) * BIG = _
  rw [bit_not]
  rfl

/-- The pushed squared distance to a target point. -/
theorem dist_at (x0 : A3) (x1 : B2) (x2 : A3) (x3 : B2) (b : Fin 32) (n g : Fin 512) :
    Read.val_main_v78 (F := Ideal) x0 x1 x2 x3 (ix3 b n g)
      = distPoint (opP (f3 x0) b) (opM (fb x1) b) (opT (f3 x2) b) (opR (fb x3) b) (opL (fE x0) b) n g := by
  rw [Read.val_main_v78_apply, Read.val_main_v71_apply, Fin.sum_univ_three, sq_at, sq_at, sq_at, push_at]
  unfold distPoint
  rw [← add_assoc, ← add_assoc]
  rfl

/-- The reduced index (b, n) with coordinate `k` of the third axis put back is (b, n, k). -/
theorem lift_ix3 (h : (⟨3, ![32, 512, 512]⟩ : Shape).Reduces [2] (⟨2, ![32, 512]⟩ : Shape)) (b : Fin 32) (n : Fin 512)
    (k : Fin ((⟨3, ![32, 512, 512]⟩ : Shape).size 2)) :
    h.lift (ix2 b n) k = ix3 b n (⟨k.val, k.isLt⟩ : Fin 512) := by
  funext c; apply Fin.ext
  fin_cases c <;> rfl

/-- The minimum over the targets, from +inf. -/
theorem min_at (x0 : A3) (x1 : B2) (x2 : A3) (x3 : B2) (b : Fin 32) (n : Fin 512) :
    Read.val_main_v79 (F := Ideal) x0 x1 x2 x3 (ix2 b n)
      = (Finset.univ : Finset (Fin 512)).fold min INF (fun g => Read.val_main_v78 (F := Ideal) x0 x1 x2 x3 (ix3 b n g)) := by
  have h : (⟨3, ![32, 512, 512]⟩ : Shape).Reduces [2] (⟨2, ![32, 512]⟩ : Shape) := by decide
  unfold Read.val_main_v79
  rw [Host.reduce_eq_fold_single FloatOps.minimumf _ _ Gen.reducesTo_S32x512x512_S32x512_d2 h Gen.h_S_]
  have hf : (Read.val_main_v78 (F := Ideal) x0 x1 x2 x3 ∘ h.lift (ix2 b n))
      = fun g : Fin 512 => Read.val_main_v78 (F := Ideal) x0 x1 x2 x3 (ix3 b n g) :=
    funext fun k => congrArg (Read.val_main_v78 (F := Ideal) x0 x1 x2 x3) (lift_ix3 h b n k)
  exact congrArg (fun f => Finset.fold min INF f (Finset.univ : Finset (Fin 512))) hf

/-- The reference's point label is the Gaussian bump of the nearest target point. -/
theorem ref_point (x0 : A3) (x1 : B2) (x2 : A3) (x3 : B2) (b : Fin 32) (n : Fin 512) :
    Read.val_main_v82 (F := Ideal) x0 x1 x2 x3 (ix2 b n)
      = labPoint (opP (f3 x0) b) (opM (fb x1) b) (opT (f3 x2) b) (opR (fb x3) b) (opL (fE x0) b) n := by
  rw [Read.val_main_v82_apply, Read.val_main_v81_apply, Read.val_main_v80_apply, min_at]
  simp only [dist_at]
  rfl

/-! ## The path loss -/

/-- The clipped blend of the two labels. -/
theorem label_at (x0 : A3) (x1 : B2) (x2 : A3) (x3 : B2)
    (hline : ∀ (b : Fin 32) (n : Fin 512), Read.val_main_v61 (F := Ideal) x0 x1 x2 x3 (ix2 b n)
      = labLine (opP (f3 x0) b) (opM (fb x1) b) (opA (f3 x2) b) (opS (f3 x2) b) (opI (f3 x2) b) (opD (f3 x2) b) (opQ (fb x3) b) (opL (fE x0) b) n)
    (b : Fin 32) (n : Fin 512) :
    Read.val_main_v88 (F := Ideal) x0 x1 x2 x3 (ix2 b n)
      = label (opP (f3 x0) b) (opM (fb x1) b) (opA (f3 x2) b) (opS (f3 x2) b) (opI (f3 x2) b) (opD (f3 x2) b) (opQ (fb x3) b)
          (opT (f3 x2) b) (opR (fb x3) b) (opL (fE x0) b) (opL (fE x0) b) n := by
  rw [Read.val_main_v88_apply, Read.val_main_call1_v4_apply, Read.val_main_call1_v2_apply, Read.val_main_call1_v1_apply,
    Read.val_main_v87_apply, Read.val_main_v84_apply, Read.val_main_v86_apply, Read.val_main_v83_apply,
    Read.val_main_v85_apply, hline, ref_point]
  rfl

/-- The reference's path loss is the quotient of the two batch sums. -/
theorem ref_path (x0 : A3) (x1 : B2) (x2 : A3) (x3 : B2)
    (hline : ∀ (b : Fin 32) (n : Fin 512), Read.val_main_v61 (F := Ideal) x0 x1 x2 x3 (ix2 b n)
      = labLine (opP (f3 x0) b) (opM (fb x1) b) (opA (f3 x2) b) (opS (f3 x2) b) (opI (f3 x2) b) (opD (f3 x2) b) (opQ (fb x3) b) (opL (fE x0) b) n) :
    Read.val_main_v95 (F := Ideal) x0 x1 x2 x3 ix0 = lossPath (NUM (f3 x0) (fb x1) (f3 x2) (fb x3) (fE x0)) (DEN (fb x1)) := by
  have hnum : ∑ j : S32x512.Idx, Read.val_main_v92 (F := Ideal) x0 x1 x2 x3 j
      = NUM (f3 x0) (fb x1) (f3 x2) (fb x3) (fE x0) := by
    rw [sum_idx2]
    unfold NUM numer
    refine Finset.sum_congr rfl fun b _ => Finset.sum_congr rfl fun n _ => ?_
    rw [Read.val_main_v92_apply, Read.val_main_v91_apply, Read.val_main_v90_apply, label_at x0 x1 x2 x3 hline]
    rfl
  have hden : ∑ j : S32x512.Idx, Read.val_main_v89 (F := Ideal) x1 j = DEN (fb x1) := by
    rw [sum_idx2]
    rfl
  rw [Read.val_main_v95_apply, Read.val_main_v93_apply, Read.val_main_v94_apply, hnum, hden]
  show Ideal.div (ZERO + _) (ZERO + _) = _
  rw [zero_eq, zero_add, zero_add]
  rfl

end Cert.RefSide

end
-- ==== Proof.RefSmall.lean ====
/-
  The reference's smoothness loss and reconstruction loss as the batch sums of the per-element quantities.
-/
import proofs.«159981_j34763465294043_2_alg».proof.Proof.RefArgs

noncomputable section

namespace Cert.RefSide

open Cert.ReferenceIdeal Cert.ReferenceIdeal.Gen Idealize.ShloMosaic Idealize.ShloMosaic.ValueIdx Cert.Spec
open scoped BigOperators

/-! ## Sums over index sets as sums over coordinates -/

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Fintype.sum_congr _ _ fun a => ?_
  rw [Fintype.sum_prod_type]
  rfl

/-! ## The smoothness loss -/

/-- The number of the AND of two mask bits is the product of their numbers. -/
theorem bit_and (x y : BitVec 1) : bit (IntOp.andi x y) = bit x * bit y := by
  rcases BitVec.eq_zero_or_eq_one x with rfl | rfl <;> rcases BitVec.eq_zero_or_eq_one y with rfl | rfl <;>
    simp [bit, IntOp.andi]

/-- A step of the path, one coordinate. -/
theorem v98_at (x0 : A3) (b : Fin 32) (n : Fin 511) (d : Fin 3) :
    Read.val_main_v98 (F := Ideal) x0 (ix3 b n d) = x0 (ix3 b n.succ d) - x0 (ix3 b n.castSucc d) := by
  rw [Read.val_main_v98_apply, Read.val_main_v96_apply, Read.val_main_v97_apply]
  show x0 _ - x0 _ = _
  refine congrArg₂ (· - ·) (congrArg x0 ?_) (congrArg x0 ?_)
  · funext a
    match a with
    | ⟨0, _⟩ => rfl
    | ⟨1, _⟩ => exact Fin.ext (by show 1 + n.val = n.val + 1; omega)
    | ⟨2, _⟩ => rfl
  · funext a
    match a with
    | ⟨0, _⟩ => rfl
    | ⟨1, _⟩ => rfl
    | ⟨2, _⟩ => rfl

/-- The squared length of a step. -/
theorem v104_at (x0 : A3) (b : Fin 32) (n : Fin 511) :
    Read.val_main_v104 (F := Ideal) x0 (ix2 b n) = stepSq (opP (f3 x0) b) n := by
  rw [Read.val_main_v104_apply, Fin.sum_univ_three]
  have hz : (Read.val_main_cst_25 (F := Ideal)) (Shape.Idx.first h_S_) = ZERO := rfl
  rw [hz]
  have e : ∀ d : Fin 3, Read.val_main_v103 (F := Ideal) x0 (Read.idx_main_v104 (ix2 b n) d)
      = (x0 (ix3 b n.succ d) - x0 (ix3 b n.castSucc d)) * (x0 (ix3 b n.succ d) - x0 (ix3 b n.castSucc d)) := by
    intro d
    have hi : Read.idx_main_v104 (ix2 b n) d = ix3 b n d := by
      funext a
      match a with
      | ⟨0, _⟩ => rfl
      | ⟨1, _⟩ => rfl
      | ⟨2, _⟩ => rfl
    rw [hi, Read.val_main_v103_apply, v98_at]
    rfl
  rw [e 0, e 1, e 2]
  unfold stepSq opP f3
  rw [← add_assoc, ← add_assoc]

/-- The weight of a step. -/
theorem v102_at (x1 : B2) (b : Fin 32) (n : Fin 511) :
    Read.val_main_v102 (F := Ideal) x1 (ix2 b n) = stepW (opM (fb x1) b) n := by
  rw [Read.val_main_v102_apply, Read.val_main_v101_apply, Read.val_main_v99_apply, Read.val_main_v100_apply]
  have e1 : Read.idx_main_v99 (ix2 b n) = ix2 b n.succ := by
    funext a
    match a with
    | ⟨0, _⟩ => rfl
    | ⟨1, _⟩ => exact Fin.ext (by show 1 + n.val = n.val + 1; omega)
  have e2 : Read.idx_main_v100 (ix2 b n) = ix2 b n.castSucc := by
    funext a
    match a with
    | ⟨0, _⟩ => rfl
    | ⟨1, _⟩ => rfl
  rw [e1, e2]
  exact bit_and _ _

/-- One batch element's smoothness quotient. -/
theorem v110_at (x0 : A3) (x1 : B2) (b : Fin 32) :
    Read.val_main_v110 (F := Ideal) x0 x1 (ix1 b) = smooth (opP (f3 x0) b) (opM (fb x1) b) := by
  rw [Read.val_main_v110_apply, Read.val_main_v106_apply, Read.val_main_v109_apply, Read.val_main_v107_apply,
    Read.val_main_v108_apply]
  unfold smooth
  have hz26 : (Read.val_main_cst_26 (F := Ideal)) (Shape.Idx.first h_S_) = 0 := Ideal.ofBits_zero_f32
  have hz27 : (Read.val_main_cst_27 (F := Ideal)) (Shape.Idx.first h_S_) = 0 := Ideal.ofBits_zero_f32
  rw [hz26, hz27, zero_add, zero_add]
  have i106 : ∀ k, Read.idx_main_v106 (ix1 b) k = ix2 b k := fun k => by
    funext a
    match a with
    | ⟨0, _⟩ => rfl
    | ⟨1, _⟩ => rfl
  have i107 : ∀ k, Read.idx_main_v107 (ix1 b) k = ix2 b k := fun k => by
    funext a
    match a with
    | ⟨0, _⟩ => rfl
    | ⟨1, _⟩ => rfl
  show Ideal.div _ (_ + _) = Ideal.div _ (_ + _)
  refine congrArg₂ Ideal.div ?_ (congrArg₂ (· + ·) ?_ rfl)
  · refine Fintype.sum_congr _ _ fun k => ?_
    rw [i106, Read.val_main_v105_apply, v104_at, v102_at]
    rfl
  · refine Fintype.sum_congr _ _ fun k => ?_
    rw [i107, v102_at]

theorem ref_smooth (x0 : A3) (x1 : B2) : Read.val_main_v112 (F := Ideal) x0 x1 ix0 = lossSmooth (SM (f3 x0) (fb x1)) := by
  rw [Read.val_main_v112_apply, Read.val_main_v111_apply]
  unfold lossSmooth SM
  have hz : (Read.val_main_cst_29 (F := Ideal)) (Shape.Idx.first h_S_) = 0 := Ideal.ofBits_zero_f32
  rw [hz, zero_add, sum_idx1]
  show Ideal.div _ _ = Ideal.div _ _
  refine congrArg₂ Ideal.div ?_ rfl
  exact Fintype.sum_congr _ _ fun b => v110_at x0 x1 b

/-! ## The reconstruction loss -/

/-- Entry (r, l) of a 32 by 128 block is entry ((r·128 + l) / 4, (r·128 + l) % 4) of the 1024 by 4 block. -/
def obsEquiv : Fin 32 × Fin 128 ≃ Fin 1024 × Fin 4 where
  toFun p := (⟨(p.1.val * 128 + p.2.val) / 4, by have := p.1.isLt; have := p.2.isLt; omega⟩,
    ⟨(p.1.val * 128 + p.2.val) % 4, Nat.mod_lt _ (by norm_num)⟩)
  invFun p := (⟨(p.1.val * 4 + p.2.val) / 128, by have := p.1.isLt; have := p.2.isLt; omega⟩,
    ⟨(p.1.val * 4 + p.2.val) % 128, Nat.mod_lt _ (by norm_num)⟩)
  left_inv p := by
    have h1 := p.1.isLt
    have h2 := p.2.isLt
    refine Prod.ext (Fin.ext ?_) (Fin.ext ?_)
    · show ((p.1.val * 128 + p.2.val) / 4 * 4 + (p.1.val * 128 + p.2.val) % 4) / 128 = p.1.val
      omega
    · show ((p.1.val * 128 + p.2.val) / 4 * 4 + (p.1.val * 128 + p.2.val) % 4) % 128 = p.2.val
      omega
  right_inv p := by
    have h1 := p.1.isLt
    have h2 := p.2.isLt
    refine Prod.ext (Fin.ext ?_) (Fin.ext ?_)
    · show ((p.1.val * 4 + p.2.val) / 128 * 128 + (p.1.val * 4 + p.2.val) % 128) / 4 = p.1.val
      omega
    · show ((p.1.val * 4 + p.2.val) / 128 * 128 + (p.1.val * 4 + p.2.val) % 128) % 4 = p.2.val
      omega

/-- A sum over the 1024 by 4 entries is the sum over the 32 by 128 entries. -/
theorem sum_obs {M : Type*} [AddCommMonoid M] (g : Fin 1024 → Fin 4 → M) :
    ∑ m, ∑ q, g m q = ∑ r : Fin 32, ∑ l : Fin 128,
      g ⟨(r.val * 128 + l.val) / 4, by have := r.isLt; have := l.isLt; omega⟩
        ⟨(r.val * 128 + l.val) % 4, Nat.mod_lt _ (by norm_num)⟩ :=
  calc ∑ m, ∑ q, g m q = ∑ p : Fin 1024 × Fin 4, g p.1 p.2 := (Fintype.sum_prod_type' g).symm
    _ = ∑ p : Fin 32 × Fin 128, g (obsEquiv p).1 (obsEquiv p).2 := (Equiv.sum_comp obsEquiv (fun p => g p.1 p.2)).symm
    _ = ∑ r : Fin 32, ∑ l : Fin 128, g (obsEquiv (r, l)).1 (obsEquiv (r, l)).2 := Fintype.sum_prod_type _
    _ = _ := rfl

theorem ref_cae (x4 x5 : O3) : Read.val_main_v116 (F := Ideal) x4 x5 ix0 = lossCae (CAE (fo x4) (fo x5)) := by
  rw [Read.val_main_v116_apply, Read.val_main_v115_apply]
  unfold lossCae CAE
  have hz : (Read.val_main_cst_31 (F := Ideal)) (Shape.Idx.first h_S_) = 0 := Ideal.ofBits_zero_f32
  rw [hz, zero_add, sum_idx3]
  show Ideal.div _ _ = Ideal.div _ _
  refine congrArg₂ Ideal.div ?_ rfl
  refine Fintype.sum_congr _ _ fun b => ?_
  rw [sum_obs]
  rfl

end Cert.RefSide

end
-- ==== Proof.RefResult.lean ====
/-
  The reference's four results as the Spec's functions of the argument arrays.
-/
import proofs.«159981_j34763465294043_2_alg».proof.Proof.RefLine
import proofs.«159981_j34763465294043_2_alg».proof.Proof.RefPoint
import proofs.«159981_j34763465294043_2_alg».proof.Proof.RefSmall

noncomputable section

namespace Cert.RefSide

open Cert.ReferenceIdeal Idealize.ShloMosaic Idealize.ShloMosaic.ValueIdx Cert.Spec

/-- The path loss. -/
theorem ref_v95 (x0 : A3) (x1 : B2) (x2 : A3) (x3 : B2) :
    Read.val_main_v95 (F := Ideal) x0 x1 x2 x3
      = fun _ => lossPath (NUM (f3 x0) (fb x1) (f3 x2) (fb x3) (fE x0)) (DEN (fb x1)) :=
  funext fun j => by
    obtain rfl : j = ix0 := eq_ix0 j
    exact ref_path x0 x1 x2 x3 (ref_line x0 x1 x2 x3)

/-- The smoothness loss. -/
theorem ref_v112 (x0 : A3) (x1 : B2) :
    Read.val_main_v112 (F := Ideal) x0 x1 = fun _ => lossSmooth (SM (f3 x0) (fb x1)) :=
  funext fun j => by
    obtain rfl : j = ix0 := eq_ix0 j
    exact ref_smooth x0 x1

/-- The reconstruction loss. -/
theorem ref_v116 (x4 x5 : O3) :
    Read.val_main_v116 (F := Ideal) x4 x5 = fun _ => lossCae (CAE (fo x4) (fo x5)) :=
  funext fun j => by
    obtain rfl : j = ix0 := eq_ix0 j
    exact ref_cae x4 x5

/-- The total. -/
theorem ref_v120 (x0 : A3) (x1 : B2) (x2 : A3) (x3 : B2) (x4 x5 : O3) :
    Read.val_main_v120 (F := Ideal) x0 x1 x2 x3 x4 x5
      = fun _ => total (NUM (f3 x0) (fb x1) (f3 x2) (fb x3) (fE x0)) (DEN (fb x1)) (SM (f3 x0) (fb x1)) (CAE (fo x4) (fo x5)) :=
  funext fun j => by
    obtain rfl : j = ix0 := eq_ix0 j
    rw [ref_total, ref_path x0 x1 x2 x3 (ref_line x0 x1 x2 x3), ref_smooth, ref_cae]
    rfl

end Cert.RefSide

end
-- ==== Proof.Agree.lean ====
/-
  The two programs' views of the argument arrays agree: the arrays by coordinates, and the path's extent.
-/
import proofs.«159981_j34763465294043_2_alg».proof.Proof.RefArgs
import proofs.«159981_j34763465294043_2_alg».proof.Proof.PrefixDefs

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

theorem f3_eq (x : FVec Ideal Cert.KernelIdeal.S32x512x3 .f32) : Cert.RefSide.f3 x = Cert.KernelIdeal.Prefix.kf3 x := rfl
theorem fb_eq (x : IVec Cert.KernelIdeal.S32x512 1) : Cert.RefSide.fb x = Cert.KernelIdeal.Prefix.kfb x := rfl
theorem fo_eq (x : FVec Ideal Cert.KernelIdeal.S32x1024x4 .f32) : Cert.RefSide.fo x = Cert.KernelIdeal.Prefix.kfo x := rfl
theorem fE_eq : Cert.RefSide.fE (Cert.KernelIdeal.Prefix.A0 m c) = Cert.KernelIdeal.Prefix.kE m c := rfl

end Cert.Bridge

end
-- ==== Proof.lean ====
/-
  The certificate: the kernel program, its idealization and the idealized reference all run to the end leaving
  their arguments unchanged; the ideal pass rewrote nothing; and at the ideal instance both idealized programs end with
  the same four numbers — the quotients and the blend of four sums over the 32 batch elements (the label
  numerators, the path weights, the smoothness quotients, the squared observation differences), which the kernel
  accumulates per core over a 2 by 16 grid and the reference sums at once.
-/
import proofs.«159981_j34763465294043_2_alg».proof.Defs
import proofs.«159981_j34763465294043_2_alg».proof.Proof.Gen.Kernel
import proofs.«159981_j34763465294043_2_alg».proof.Proof.Gen.Kernel.Skeleton
import proofs.«159981_j34763465294043_2_alg».proof.Proof.Gen.Kernel.Launch
import proofs.«159981_j34763465294043_2_alg».proof.Proof.Gen.Kernel.Points
import proofs.«159981_j34763465294043_2_alg».proof.Proof.Gen.Kernel.Frame
import proofs.«159981_j34763465294043_2_alg».proof.Proof.Gen.KernelIdeal
import proofs.«159981_j34763465294043_2_alg».proof.Proof.Gen.KernelIdeal.Skeleton
import proofs.«159981_j34763465294043_2_alg».proof.Proof.Gen.KernelIdeal.Launch
import proofs.«159981_j34763465294043_2_alg».proof.Proof.Gen.KernelIdeal.Points
import proofs.«159981_j34763465294043_2_alg».proof.Proof.Gen.KernelIdeal.Frame
import proofs.«159981_j34763465294043_2_alg».proof.Proof.Gen.ReferenceIdeal
import proofs.«159981_j34763465294043_2_alg».proof.Proof.Gen.Pre_finite_inputs
import proofs.«159981_j34763465294043_2_alg».proof.Proof.Gen.ReferenceIdeal.Run
import proofs.«159981_j34763465294043_2_alg».proof.Proof.Gen.ReferenceIdeal.Read
import proofs.«159981_j34763465294043_2_alg».proof.Proof.KernelRun
import proofs.«159981_j34763465294043_2_alg».proof.Proof.RefResult
import proofs.«159981_j34763465294043_2_alg».proof.Proof.Agree
import Idealize.ShloMosaic.Adequacy
import Idealize.ShloMosaic.Init

set_option maxHeartbeats 800000

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both idealized programs end at the Spec's four results of argument arrays that agree. -/
theorem algebraic : Cert.algebraic_KernelIdeal_ReferenceIdeal := by
  intro m ρ m' ρ' _ hagree
  refine ⟨_, _, _, _, Cert.KernelIdeal.KRun.run m ρ, ?_⟩
  refine (θ_run Cert.ReferenceIdeal.defs _ _).mono (fun _ h c => ?_) (Cert.ReferenceIdeal.Value.run (F := Ideal) m' ρ')
  obtain ⟨h120, h95, h112, h116, hargs⟩ := h c
  obtain ⟨e0, e1, e2, e3, e4, e5⟩ := hagree c
  refine ⟨h120.trans ?_, h95.trans ?_, h112.trans ?_, h116.trans ?_, hargs⟩
  · rw [Cert.ReferenceIdeal.Read.val_main_v120_eq, Cert.RefSide.ref_v120, e0, e1, e2, e3, e4, e5]
    rfl
  · rw [Cert.ReferenceIdeal.Read.val_main_v95_eq, Cert.RefSide.ref_v95, e0, e1, e2, e3]
    rfl
  · rw [Cert.ReferenceIdeal.Read.val_main_v112_eq, Cert.RefSide.ref_v112, e0, e1]
    rfl
  · rw [Cert.ReferenceIdeal.Read.val_main_v116_eq, Cert.RefSide.ref_v116, e4, e5]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
